-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x512 : Shape := ⟨2, ![8192, 512]⟩
abbrev S2048x2048 : Shape := ⟨2, ![2048, 2048]⟩
abbrev S512x2048 : Shape := ⟨2, ![512, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S512x2048 .f32) (main_v33 : IVec S_ 1) : IVec S_ 1 :=
  let main_v34 : FVec F S512x2048 .f32 := Host.absf main_arg7
  let main_cst_12 : FVec F S_ .f32 := constant S_ .f32 0x7F800000#32
  let main_v35 : FVec F S512x2048 .f32 := broadcastInDim S512x2048 ![] bcast_S_S512x2048 main_cst_12
  let main_v36 : IVec S512x2048 1 := cmpf .olt main_v34 main_v35
  let main_c_13 : IVec S_ 1 := constantI S_ 1 1#1
  let main_v37 : IVec S_ 1 := (fun x v => Host.reduce IntOp.andi x v reducesTo_S512x2048_S_d0_1 h_S_) main_v36 main_c_13
  let main_v38 : IVec S_ 1 := andi main_v33 main_v37
  main_v38

def fn_part1 {F : FTy → Type} [FloatOps F] (main_arg4 : FVec F S2048 .f32) (main_arg5 : FVec F S2048x2048 .f32) (main_arg6 : FVec F S2048x2048 .f32) (main_arg7 : FVec F S512x2048 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_v33

def fn {F : FTy → Type} [FloatOps F] (main_arg0 : FVec F S8192x2048 .f32) (main_arg1 : FVec F S8192x512 .f32) (main_arg2 : FVec F S2048x2048 .f32) (main_arg3 : FVec F S512x2048 .f32) (main_arg4 : FVec F S2048 .f32) (main_arg5 : FVec F S2048x2048 .f32) (main_arg6 : FVec F S2048x2048 .f32) (main_arg7 : FVec F S512x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg4 main_arg5 main_arg6 main_arg7 main_v13 main_v16
-- ==== Kernel.lean ====
abbrev S8192x2048 : Shape := ⟨2, ![8192, 2048]⟩
abbrev S8192x512 : Shape := ⟨2, ![8192, 512]⟩
abbrev S2048x2048 : Shape := ⟨2, ![2048, 2048]⟩
abbrev S512x2048 : Shape := ⟨2, ![512, 2048]⟩
abbrev S2048 : Shape := ⟨1, ![2048]⟩
abbrev S1x2048 : Shape := ⟨2, ![1, 2048]⟩
abbrev S2048x1 : Shape := ⟨2, ![2048, 1]⟩
abbrev S512x1 : Shape := ⟨2, ![512, 1]⟩
abbrev S512 : Shape := ⟨1, ![512]⟩
abbrev S1024x512 : Shape := ⟨2, ![1024, 512]⟩
abbrev S512x1024 : Shape := ⟨2, ![512, 1024]⟩
abbrev S1024x1024 : Shape := ⟨2, ![1024, 1024]⟩
abbrev S_ : Shape := ⟨0, ![]⟩

abbrev nBuf : Space → Nat
  | .hbm => 46
  | .vmem => 29
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S2048x2048, .f32⟩
  | .hbm, ⟨3, _⟩ => ⟨S512x2048, .f32⟩
  | .hbm, ⟨4, _⟩ => ⟨S2048, .f32⟩
  | .hbm, ⟨5, _⟩ => ⟨S2048x2048, .f32⟩
  | .hbm, ⟨6, _⟩ => ⟨S2048x2048, .f32⟩
  | .hbm, ⟨7, _⟩ => ⟨S512x2048, .f32⟩
  | .hbm, ⟨8, _⟩ => ⟨S1x2048, .f32⟩
  | .hbm, ⟨9, _⟩ => ⟨S2048x2048, .bf16⟩
  | .hbm, ⟨10, _⟩ => ⟨S2048x2048, .bf16⟩
  | .hbm, ⟨11, _⟩ => ⟨S2048x1, .f32⟩
  | .hbm, ⟨12, _⟩ => ⟨S512x2048, .f32⟩
  | .hbm, ⟨13, _⟩ => ⟨S512x2048, .bf16⟩
  | .hbm, ⟨14, _⟩ => ⟨S8192x2048, .f32⟩
  | .hbm, ⟨15, _⟩ => ⟨S8192x2048, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S2048, .f32⟩
  | .hbm, ⟨39, _⟩ => ⟨S2048, .f32⟩
  | .hbm, ⟨40, _⟩ => ⟨S2048, .f32⟩
  | .hbm, ⟨41, _⟩ => ⟨S2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x1, .f32⟩
  | .local _ .vmem, ⟨12, _⟩ => ⟨S512x1, .f32⟩
  | .local _ .vmem, ⟨13, _⟩ => ⟨S1024x512, .f32⟩
  | .local _ .vmem, ⟨14, _⟩ => ⟨S1024x512, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1024x512, .f32⟩
  | .local _ .vmem, ⟨20, _⟩ => ⟨S1024x512, .f32⟩
  | .local _ .vmem, ⟨21, _⟩ => ⟨S512x1024, .bf16⟩
  | .local _ .vmem, ⟨22, _⟩ => ⟨S512x1024, .bf16⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_scratch0 : Ref sig .tc := ⟨.vmem, 27, rfl⟩
abbrev cc1_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![8, 2, 4], ![false, false, false]⟩

def k1_cond2 (i : grid1.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_15 : BitVec 32 := 0#32
  let v23 : BitVec 1 := Scalar.cmpi .ne v22 c0_i32_15
  v23

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S512x2048_S512x2048_0_0 : ∀ a, (![0, 0] : Fin 2 → Nat) a + S512x2048.size a ≤ S512x2048.size a
  h_S512x2048 : 0 < S512x2048.numel
  broadcasts_S1x2048_S512x2048 : S1x2048.Broadcasts S512x2048
  natLt_1_32 : 1 < 32
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  reduces_S512x2048_S512 : S512x2048.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bcast_S_S2048 : S_.BroadcastsInDim S2048 (![] : Fin 0 → Fin S2048.rank)
  shapeCasts_S2048x1_S2048 : S2048x1.ShapeCasts S2048
  reducesTo_S2048_S_d0 : S2048.ReducesTo [0] S_
  h_S_ : 0 < S_.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .f32 = 32 ∨ (Rect.block (s := S2048x2048) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S2048x2048.size a
  hwx0_4 : ∀ i : grid0.Coords, EltTy.bits .bf16 = 32 ∨ (Rect.block (s := S2048x2048) S512x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S2048x2048.size a
  hwx0_5 : ∀ i : grid0.Coords, EltTy.bits .bf16 = 32 ∨ (Rect.block (s := S2048x2048) S512x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S2048x1.size a
  hwx0_6 : ∀ i : grid0.Coords, EltTy.bits .f32 = 32 ∨ (Rect.block (s := S2048x1) S512x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x2048.size a
  hwx1_0 : ∀ i : grid1.Coords, EltTy.bits .f32 = 32 ∨ (Rect.block (s := S8192x2048) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S2048x2048.size a
  hwx1_1 : ∀ i : grid1.Coords, EltTy.bits .bf16 = 32 ∨ (Rect.block (s := S2048x2048) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S2048x2048.size a
  hwx1_2 : ∀ i : grid1.Coords, EltTy.bits .bf16 = 32 ∨ (Rect.block (s := S2048x2048) S512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .f32 = 32 ∨ (Rect.block (s := S8192x512) S1024x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S512x2048.size a
  hwx1_4 : ∀ i : grid1.Coords, EltTy.bits .bf16 = 32 ∨ (Rect.block (s := S512x2048) S512x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S8192x2048.size a
  hwx1_5 : ∀ i : grid1.Coords, EltTy.bits .f32 = 32 ∨ (Rect.block (s := S8192x2048) S1024x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S8192x2048.size a
  hwx1_6 : ∀ i : grid1.Coords, EltTy.bits .f32 = 32 ∨ (Rect.block (s := S8192x2048) S1024x1024.size (cc1_transform_6 i) (hinb1_6 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg2) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S512x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S512x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1024x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S512x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4_0) S1024x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v4_1) S1024x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8192x512 : Shape := ⟨2, ![8192, 512]⟩
abbrev S2048x2048 : Shape := ⟨2, ![2048, 2048]⟩
abbrev S512x2048 : Shape := ⟨2, ![512, 2048]⟩
abbrev S2048 : Shape := ⟨1, ![2048]⟩
abbrev S_ : Shape := ⟨0, ![]⟩
abbrev S1x2048 : Shape := ⟨2, ![1, 2048]⟩

abbrev nBuf : Space → Nat
  | .hbm => 90
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S2048x2048, .f32⟩
  | .hbm, ⟨3, _⟩ => ⟨S512x2048, .f32⟩
  | .hbm, ⟨4, _⟩ => ⟨S2048, .f32⟩
  | .hbm, ⟨5, _⟩ => ⟨S2048x2048, .f32⟩
  | .hbm, ⟨6, _⟩ => ⟨S2048x2048, .f32⟩
  | .hbm, ⟨7, _⟩ => ⟨S512x2048, .f32⟩
  | .hbm, ⟨8, _⟩ => ⟨S2048, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S2048x2048, .f32⟩
  | .hbm, ⟨17, _⟩ => ⟨S1x2048, .f32⟩
  | .hbm, ⟨18, _⟩ => ⟨S2048x2048, .f32⟩
  | .hbm, ⟨19, _⟩ => ⟨S2048x2048, .i1⟩
  | .hbm, ⟨20, _⟩ => ⟨S2048x2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S1x2048, .f32⟩
  | .hbm, ⟨31, _⟩ => ⟨S2048x2048, .f32⟩
  | .hbm, ⟨32, _⟩ => ⟨S2048x2048, .i1⟩
  | .hbm, ⟨33, _⟩ => ⟨S2048x2048, .f32⟩
  | .hbm, ⟨34, _⟩ => ⟨S2048x2048, .f32⟩
  | .hbm, ⟨35, _⟩ => ⟨S8192x2048, .f32⟩
  | .hbm, ⟨36, _⟩ => ⟨S2048x2048, .f32⟩
  | .hbm, ⟨37, _⟩ => ⟨S8192x2048, .f32⟩
  | .hbm, ⟨38, _⟩ => ⟨S512x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S_, .f32⟩
  | .hbm, ⟨67, _⟩ => ⟨S2048, .f32⟩
  | .hbm, ⟨68, _⟩ => ⟨S2048, .f32⟩
  | .hbm, ⟨69, _⟩ => ⟨S2048x2048, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S2048, .f32⟩
  | .hbm, ⟨74, _⟩ => ⟨S2048, .f32⟩
  | .hbm, ⟨75, _⟩ => ⟨S2048, .f32⟩
  | .hbm, ⟨76, _⟩ => ⟨S_, .f32⟩
  | .hbm, ⟨77, _⟩ => ⟨S2048, .f32⟩
  | .hbm, ⟨78, _⟩ => ⟨S2048, .f32⟩
  | .hbm, ⟨79, _⟩ => ⟨S_, .f32⟩
  | .hbm, ⟨80, _⟩ => ⟨S2048, .f32⟩
  | .hbm, ⟨81, _⟩ => ⟨S2048, .f32⟩
  | .hbm, ⟨82, _⟩ => ⟨S2048, .f32⟩
  | .hbm, ⟨83, _⟩ => ⟨S2048, .f32⟩
  | .hbm, ⟨84, _⟩ => ⟨S2048, .f32⟩
  | .hbm, ⟨85, _⟩ => ⟨S2048, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_cst_4 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_cst_7 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v34 : Ref sig .tc := ⟨.hbm, 61, rfl⟩
abbrev main_cst_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_10 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_11 : Ref sig .tc := ⟨.hbm, 76, rfl⟩
abbrev main_v46 : Ref sig .tc := ⟨.hbm, 77, rfl⟩
abbrev main_v47 : Ref sig .tc := ⟨.hbm, 78, rfl⟩
abbrev main_cst_12 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_13 : Ref sig .tc := ⟨.hbm, 86, rfl⟩
abbrev main_v54 : Ref sig .tc := ⟨.hbm, 87, rfl⟩
abbrev main_cst_14 : Ref sig .tc := ⟨.hbm, 88, rfl⟩
abbrev main_v55 : Ref sig .tc := ⟨.hbm, 89, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S_S8192x2048 : S_.BroadcastsInDim S8192x2048 (![] : Fin 0 → Fin S8192x2048.rank)
  reducesTo_S2048x2048_S2048_d1 : S2048x2048.ReducesTo [1] S2048
  h_S_ : 0 < S_.numel
  reducesTo_S2048_S_d0 : S2048.ReducesTo [0] S_
  dot_S8192x2048_S2048x2048_S8192x2048_1_0_0_1_n_n_wf : DotDims.WF S8192x2048 S2048x2048 S8192x2048 [1] [0] [0] [1] [] []
  dot_S8192x512_S512x2048_S8192x2048_1_0_0_1_n_n_wf : DotDims.WF S8192x512 S512x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf

class Facts : Prop extends Facts₀ where

variable [Facts]
-- ==== Proof.K.Region0.lean ====
import proofs.«140457_j29703993819328_1_alg».proof.Proof.Gen.Kernel.Launch
import proofs.«140457_j29703993819328_1_alg».proof.Proof.Gen.Kernel.Skeleton
import proofs.«140457_j29703993819328_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the weight-building kernel on its grid of 4 row bands, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data whose
    array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data whose
    array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (it is fetched at the
    first point only; where it is not fetched its block index has not moved), for any proof data whose
    array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S512x2048 := Rect.unit (s := S512x2048) ![0, 0] S512x2048.size inb_S512x2048_S512x2048_0_0
abbrev r0_1 : Rect S1x2048 := Rect.unit (s := S1x2048) ![0, 0] S1x2048.size inb_S1x2048_S1x2048_0_0
abbrev r0_2 : Rect S512x1 := Rect.unit (s := S512x1) ![0, 0] S512x1.size inb_S512x1_S512x1_0_0

/-! ## What the body leaves in each output window's buffer -/

/-- The first weight band (kept where the noise is below the keep probability), from the four input blocks:
    `x0` the weights, `x1` the mask, `x2` the noise, `x3` the logit row. -/
def out0_4 (x0 x1 x2 : Vec F S512x2048 .f32) (x3 : Vec F S1x2048 .f32) : Vec F S512x2048 .bf16 :=
  View.canon [⟨r0_0, k0_pay3 (View.ld x3 r0_1) (View.ld x2 r0_0) (View.ld x0 r0_0) (View.ld x1 r0_0)⟩]

/-- Its one store is the whole buffer, so it covers it. -/
theorem cover0_4 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

/-- The second weight band (the antithetic draw), from the same four blocks. -/
def out0_5 (x0 x1 x2 : Vec F S512x2048 .f32) (x3 : Vec F S1x2048 .f32) : Vec F S512x2048 .bf16 :=
  View.canon [⟨r0_0, k0_pay4 (View.ld x3 r0_1) (View.ld x2 r0_0) (View.ld x0 r0_0) (View.ld x1 r0_0)⟩]

theorem cover0_5 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

/-- The band's row sums of squares, from the weights' block alone. -/
def out0_6 (x0 : Vec F S512x2048 .f32) : Vec F S512x1 .f32 :=
  View.canon [⟨r0_2, k0_pay5 (View.ld x0 r0_0)⟩]

theorem cover0_6 (p0 : Vec F S512x1 .f32) (y : S512x1.Idx) :
    ∃ pc ∈ ([⟨r0_2, p0⟩] : List (View.Piece (Elt F) S512x1 .f32)), y ∈ pc.1.set :=
  View.cover_of_tiled [⟨r0_2, p0⟩] S512x1.size (by rfl) y

/-! ## The body's triple -/

set_option maxHeartbeats 1000000 in
/-- The kernel body on whole staging memrefs, the inputs' at read contents `xW` and the outputs' at anything, runs to
    the continuation holding the inputs' as they were and each output's at `out0_W` of the inputs'. The body also
    reads each output buffer before storing to it; what it reads there is not used. -/
theorem sound_kernel0 (c : Dev nD) (E : Set ℕ) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S512x1 .f32) (harg7 : arg7.IsWhole)
    (x0 x1 x2 : Vec F S512x2048 .f32) (x3 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0)) -∗ K ⟨⟩))
      ⊢ wp frame (wpE (defs₀ (F := F)) Variants.none c none) E (cc0__build_weights_kernel i arg1 harg1 arg2 harg2 arg3 harg3 arg4 harg4 arg5 harg5 arg6 harg6 arg7 harg7) K := by
  simp only [cc0__build_weights_kernel_eq_skeleton]; unfold cc0__build_weights_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of the region's pipeline on core `c`: the arrays as the region finds them (`V`); after the body
    at point `t` each input's buffer at its block and each output's at `out0_W` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (t : Fin (cfg0.N + 1)) : (dat0 V c).owed t = 0 := by
  dsimp only [dat0]

/-- Nothing is excluded from what the proof data records at any point. -/
theorem rec_eq0 (c : Dev nD) (t : Fin (cfg0.N + 1)) : (dat0 V c).recorded t = Set.univ := rfl

/-- The class's invariant does not move with the point. -/
theorem hin0 (c : Dev nD) : (Pipeline.ΦA spec0 c : sProp 𝕄) ⊢ (dat0 V c).Φ 0 :=
  Entails.of_eq (show (Pipeline.ΦA spec0 c : sProp 𝕄) = (dat0 V c).Φ 0 from rfl)

theorem hout0 (c : Dev nD) : (dat0 V c).Φ (Fin.last cfg0.N) ⊢ (Pipeline.ΦA spec0 c : sProp 𝕄) :=
  Entails.of_eq (show (dat0 V c).Φ (Fin.last cfg0.N) = (Pipeline.ΦA spec0 c : sProp 𝕄) from rfl)

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Shared.lean ====
import proofs.«140457_j29703993819328_1_alg».proof.Proof.Gen.Kernel.Launch
import proofs.«140457_j29703993819328_1_alg».proof.Proof.Gen.Kernel.Skeleton
import proofs.«140457_j29703993819328_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1 (the fused product and clipped tanh): what its three control cases share

A grid point t has coordinates (i, j, k) with k = t mod 4 the position along the contracted axis. The body resets its
two accumulators at k = 0, adds one partial product to each at every k, and writes the two outputs at k = 3. -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, in closed form over the grid -/

/-- "k = 0", as the body computes it from the third grid coordinate. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "k = 3". -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle: the inputs never; the two outputs unless k = 3, and then they are not written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬ t.val % 4 = 3 → cfg1.idle 5 (grid1.coords t) = true := by decide +kernel
theorem noFlush1_5 : ∀ t : Fin cfg1.N, ¬ t.val % 4 = 3 → (cfg1.win 5).flush t = false := by decide +kernel
theorem liveAt1_5 : ∀ t : Fin cfg1.N, t.val % 4 = 3 → cfg1.idle 5 (grid1.coords t) = false := by decide +kernel
theorem idleAt1_6 : ∀ t : Fin cfg1.N, ¬ t.val % 4 = 3 → cfg1.idle 6 (grid1.coords t) = true := by decide +kernel
theorem noFlush1_6 : ∀ t : Fin cfg1.N, ¬ t.val % 4 = 3 → (cfg1.win 6).flush t = false := by decide +kernel
theorem liveAt1_6 : ∀ t : Fin cfg1.N, t.val % 4 = 3 → cfg1.idle 6 (grid1.coords t) = false := by decide +kernel

/-! ## The staging and scratch memrefs the body is called with -/

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1024 .f32 := win1_6.stage (cfg1.slots t 6)
abbrev hs1_6 (t : Fin cfg1.N) : (ms1_6 t).IsWhole := hstage1_6 ((cfg1.slots t 6).cast nbuf1_6)
/-- One staging buffer of each output window, through which its contents are stated. -/
abbrev VO1_5 : View sig .tc .vmem S1024x1024 .f32 := (Memref.whole cc1_stg5_0 : Memref sig .tc .vmem S1024x1024 .f32).view
abbrev VO1_6 : View sig .tc .vmem S1024x1024 .f32 := (Memref.whole cc1_stg6_0 : Memref sig .tc .vmem S1024x1024 .f32).view
/-- The two accumulators: whole scoped buffers of the kernel's own, carried from point to point. -/
abbrev scM1_0 : Memref sig .tc .vmem S1024x1024 .f32 := Memref.whole cc1_scratch0
abbrev scM1_1 : Memref sig .tc .vmem S1024x1024 .f32 := Memref.whole cc1_scratch1
abbrev VS1_0 : View sig .tc .vmem S1024x1024 .f32 := scM1_0.view
abbrev VS1_1 : View sig .tc .vmem S1024x1024 .f32 := scM1_1.view

/-- Every other scoped buffer of the core (the first region's staging buffers), at some contents: carried unopened. -/
abbrev others1 (c : Dev nD) : sProp 𝕄 :=
  Pipeline.scopedRestBut (Ix := Unit) (Name := ℕ) (U := UR sig nD τ) (Lvl := ℕ) (Val := Elt F) spec1 c [cc1_scratch0, cc1_scratch1]

/-- The class invariant with the two accumulators split out as memrefs owned at some contents. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d)) ∗ others1 c) ∗ (∃ r, prngReg c r)) := by
  unfold Pipeline.ΦA
  rw [Pipeline.scopedRest_split_of_list spec1 c [cc1_scratch0, cc1_scratch1] (by decide) (by decide)]
  simp only [scM1_0, scM1_1, owns_whole, bigSepL_cons_cons, bigSepL_singleton]
  try rfl

end Cert.Kernel.Hand

end
-- ==== Proof.K.R1RunA.lean ====
import proofs.«140457_j29703993819328_1_alg».proof.Proof.Gen.Kernel.Launch
import proofs.«140457_j29703993819328_1_alg».proof.Proof.Gen.Kernel.Skeleton
import proofs.«140457_j29703993819328_1_alg».proof.Proof.Gen.Kernel.Points
import proofs.«140457_j29703993819328_1_alg».proof.Proof.K.R1Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body in the case k = 0: both accumulators are reset to the channel term's product, then one partial product is added to each; no output is stored.
    On whole memrefs — the inputs' at their contents, an output the case does not store at contents handed back untouched,
    an output it stores at anything, an accumulator at what the point before left (at anything when it is reset) — the body runs
    to the continuation holding the inputs' as they were and each stored buffer with the case's pieces written (last first);
    the pieces are the witness the run finds. -/
noncomputable def kernelRun1_A (c : Dev nD) (i : grid1.Coords) (arg3 : Memref sig .tc .vmem S1024x512 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x512 .f32) (harg6 : arg6.IsWhole) (arg7 : Memref sig .tc .vmem S512x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (hc0 : cond1_0 i) (hc1 : ¬cond1_1 i)
    (x0 : Vec F S1024x512 .f32) (x1 : Vec F S512x1024 .bf16) (x2 : Vec F S512x1024 .bf16) (x3 : Vec F S1024x512 .f32) (x4 : Vec F S512x1024 .bf16) :
    Σ' (L5 : List (View.Piece (Elt F) S1024x1024 .f32)) (L6 : List (View.Piece (Elt F) S1024x1024 .f32)) (LS0 : List (View.Piece (Elt F) S1024x1024 .f32)), { LS1 : List (View.Piece (Elt F) S1024x1024 .f32) //
      ∀ (xi5 xi6 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__fused_matmul_kernel i arg3 harg3 arg4 harg4 arg5 harg5 arg6 harg6 arg7 harg7 arg8 harg8 arg9 harg9 arg10 harg10 arg11 harg11) K } := by
  refine ⟨[], [], ?_, ?_, fun xi5 xi6 E K => ?run⟩
  case run =>
    simp only [cc1__fused_matmul_kernel_eq_skeleton]; unfold cc1__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _; iexact HS1

end Cert.Kernel.Hand

end
-- ==== Proof.K.R1RunB.lean ====
import proofs.«140457_j29703993819328_1_alg».proof.Proof.Gen.Kernel.Launch
import proofs.«140457_j29703993819328_1_alg».proof.Proof.Gen.Kernel.Skeleton
import proofs.«140457_j29703993819328_1_alg».proof.Proof.Gen.Kernel.Points
import proofs.«140457_j29703993819328_1_alg».proof.Proof.K.R1Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body in the case k = 1 or 2: one partial product is added to each accumulator; no output is stored.
    On whole memrefs — the inputs' at their contents, an output the case does not store at contents handed back untouched,
    an output it stores at anything, an accumulator at what the point before left (at anything when it is reset) — the body runs
    to the continuation holding the inputs' as they were and each stored buffer with the case's pieces written (last first);
    the pieces are the witness the run finds. -/
noncomputable def kernelRun1_B (c : Dev nD) (i : grid1.Coords) (arg3 : Memref sig .tc .vmem S1024x512 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x512 .f32) (harg6 : arg6.IsWhole) (arg7 : Memref sig .tc .vmem S512x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : ¬cond1_1 i)
    (x0 : Vec F S1024x512 .f32) (x1 : Vec F S512x1024 .bf16) (x2 : Vec F S512x1024 .bf16) (x3 : Vec F S1024x512 .f32) (x4 : Vec F S512x1024 .bf16) (xs0 xs1 : Vec F S1024x1024 .f32) :
    Σ' (L5 : List (View.Piece (Elt F) S1024x1024 .f32)) (L6 : List (View.Piece (Elt F) S1024x1024 .f32)) (LS0 : List (View.Piece (Elt F) S1024x1024 .f32)), { LS1 : List (View.Piece (Elt F) S1024x1024 .f32) //
      ∀ (xi5 xi6 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ owns (c : Thread nD τ) arg10 fullShare xs0 ∗ owns (c : Thread nD τ) arg11 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__fused_matmul_kernel i arg3 harg3 arg4 harg4 arg5 harg5 arg6 harg6 arg7 harg7 arg8 harg8 arg9 harg9 arg10 harg10 arg11 harg11) K } := by
  refine ⟨[], [], ?_, ?_, fun xi5 xi6 E K => ?run⟩
  case run =>
    simp only [cc1__fused_matmul_kernel_eq_skeleton]; unfold cc1__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0; obtain rfl := harg11.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _; iexact HS1

end Cert.Kernel.Hand

end
-- ==== Proof.K.R1RunC.lean ====
import proofs.«140457_j29703993819328_1_alg».proof.Proof.Gen.Kernel.Launch
import proofs.«140457_j29703993819328_1_alg».proof.Proof.Gen.Kernel.Skeleton
import proofs.«140457_j29703993819328_1_alg».proof.Proof.Gen.Kernel.Points
import proofs.«140457_j29703993819328_1_alg».proof.Proof.K.R1Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body in the case k = 3: one partial product is added to each accumulator, and the two outputs are stored from them.
    On whole memrefs — the inputs' at their contents, an output the case does not store at contents handed back untouched,
    an output it stores at anything, an accumulator at what the point before left (at anything when it is reset) — the body runs
    to the continuation holding the inputs' as they were and each stored buffer with the case's pieces written (last first);
    the pieces are the witness the run finds. -/
noncomputable def kernelRun1_C (c : Dev nD) (i : grid1.Coords) (arg3 : Memref sig .tc .vmem S1024x512 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x512 .f32) (harg6 : arg6.IsWhole) (arg7 : Memref sig .tc .vmem S512x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : cond1_1 i)
    (x0 : Vec F S1024x512 .f32) (x1 : Vec F S512x1024 .bf16) (x2 : Vec F S512x1024 .bf16) (x3 : Vec F S1024x512 .f32) (x4 : Vec F S512x1024 .bf16) (xs0 xs1 : Vec F S1024x1024 .f32) :
    Σ' (L5 : List (View.Piece (Elt F) S1024x1024 .f32)) (L6 : List (View.Piece (Elt F) S1024x1024 .f32)) (LS0 : List (View.Piece (Elt F) S1024x1024 .f32)), { LS1 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__fused_matmul_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__fused_matmul_kernel_eq_skeleton]; unfold cc1__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0; obtain rfl := harg11.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [HS0]; · iexists _; iexact HS0
    iexists _; iexact HS1

end Cert.Kernel.Hand

end
-- ==== Proof.K.Region1.lean ====
import proofs.«140457_j29703993819328_1_alg».proof.Proof.Gen.Kernel.Launch
import proofs.«140457_j29703993819328_1_alg».proof.Proof.Gen.Kernel.Skeleton
import proofs.«140457_j29703993819328_1_alg».proof.Proof.Gen.Kernel.Points
import proofs.«140457_j29703993819328_1_alg».proof.Proof.K.R1RunA
import proofs.«140457_j29703993819328_1_alg».proof.Proof.K.R1RunB
import proofs.«140457_j29703993819328_1_alg».proof.Proof.K.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: what the accumulators and the outputs hold after each point, the proof data, the body obligation -/

/-- The case runs at a grid point's own memrefs and input blocks. -/
abbrev runA (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)
abbrev runB (c : Dev nD) (t : Fin cfg1.N) (h0 : ¬t.val % 4 = 0) (h1 : ¬t.val % 4 = 3) (p0 p1 : Vec F S1024x1024 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p0 p1
abbrev runC (c : Dev nD) (t : Fin cfg1.N) (h0 : ¬t.val % 4 = 0) (h1 : t.val % 4 = 3) (p0 p1 : Vec F S1024x1024 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) p0 p1

/-- A buffer's contents after a list of pieces is written over anything, read back. -/
abbrev rb (v : View sig .tc .vmem S1024x1024 .f32) (L : List (View.Piece (Elt F) S1024x1024 .f32)) : Vec F S1024x1024 .f32 := v.read (Elt F) (v.writes (Elt F) v.junk L)

/-- What a point leaves, as (output 5's buffer, output 6's buffer, accumulator 0, accumulator 1). Where a case stores no
    output the first two components are placeholders that nothing consults (the window is idle and not written back). -/
def outsA (c : Dev nD) (t : Fin cfg1.N) (h0 : t.val % 4 = 0) (h1 : ¬t.val % 4 = 3) : Vec F S1024x1024 .f32 × Vec F S1024x1024 .f32 × Vec F S1024x1024 .f32 × Vec F S1024x1024 .f32 :=
  (rb VO1_5 [], rb VO1_6 [], rb VS1_0 (runA V c t h0 h1).2.2.1, rb VS1_1 (runA V c t h0 h1).2.2.2.1)
def outsB (c : Dev nD) (t : Fin cfg1.N) (h0 : ¬t.val % 4 = 0) (h1 : ¬t.val % 4 = 3) (p0 p1 : Vec F S1024x1024 .f32) : Vec F S1024x1024 .f32 × Vec F S1024x1024 .f32 × Vec F S1024x1024 .f32 × Vec F S1024x1024 .f32 :=
  (rb VO1_5 [], rb VO1_6 [], rb VS1_0 (runB V c t h0 h1 p0 p1).2.2.1, rb VS1_1 (runB V c t h0 h1 p0 p1).2.2.2.1)
def outsC (c : Dev nD) (t : Fin cfg1.N) (h0 : ¬t.val % 4 = 0) (h1 : t.val % 4 = 3) (p0 p1 : Vec F S1024x1024 .f32) : Vec F S1024x1024 .f32 × Vec F S1024x1024 .f32 × Vec F S1024x1024 .f32 × Vec F S1024x1024 .f32 :=
  (rb VO1_5 (runC V c t h0 h1 p0 p1).1, rb VO1_6 (runC V c t h0 h1 p0 p1).2.1, rb VS1_0 (runC V c t h0 h1 p0 p1).2.2.1, rb VS1_1 (runC V c t h0 h1 p0 p1).2.2.2.1)

/-- Each case's pieces for a buffer it stores tile that buffer, so they cover it. -/
theorem scoverA_0 (c : Dev nD) (t : Fin cfg1.N) (h0 h1) (y : S1024x1024.Idx) : ∃ pc ∈ (runA V c t h0 h1).2.2.1, y ∈ pc.1.set :=
  View.cover_of_tiledL (runA V c t h0 h1).2.2.1 S1024x1024.size (by sl_kernel_rfl) y
theorem scoverA_1 (c : Dev nD) (t : Fin cfg1.N) (h0 h1) (y : S1024x1024.Idx) : ∃ pc ∈ (runA V c t h0 h1).2.2.2.1, y ∈ pc.1.set :=
  View.cover_of_tiledL (runA V c t h0 h1).2.2.2.1 S1024x1024.size (by sl_kernel_rfl) y
theorem scoverB_0 (c : Dev nD) (t : Fin cfg1.N) (h0 h1) (p0 p1 : Vec F S1024x1024 .f32) (y : S1024x1024.Idx) : ∃ pc ∈ (runB V c t h0 h1 p0 p1).2.2.1, y ∈ pc.1.set :=
  View.cover_of_tiledL (runB V c t h0 h1 p0 p1).2.2.1 S1024x1024.size (by sl_kernel_rfl) y
theorem scoverB_1 (c : Dev nD) (t : Fin cfg1.N) (h0 h1) (p0 p1 : Vec F S1024x1024 .f32) (y : S1024x1024.Idx) : ∃ pc ∈ (runB V c t h0 h1 p0 p1).2.2.2.1, y ∈ pc.1.set :=
  View.cover_of_tiledL (runB V c t h0 h1 p0 p1).2.2.2.1 S1024x1024.size (by sl_kernel_rfl) y
theorem scoverC_0 (c : Dev nD) (t : Fin cfg1.N) (h0 h1) (p0 p1 : Vec F S1024x1024 .f32) (y : S1024x1024.Idx) : ∃ pc ∈ (runC V c t h0 h1 p0 p1).2.2.1, y ∈ pc.1.set :=
  View.cover_of_tiledL (runC V c t h0 h1 p0 p1).2.2.1 S1024x1024.size (by sl_kernel_rfl) y
theorem scoverC_1 (c : Dev nD) (t : Fin cfg1.N) (h0 h1) (p0 p1 : Vec F S1024x1024 .f32) (y : S1024x1024.Idx) : ∃ pc ∈ (runC V c t h0 h1 p0 p1).2.2.2.1, y ∈ pc.1.set :=
  View.cover_of_tiledL (runC V c t h0 h1 p0 p1).2.2.2.1 S1024x1024.size (by sl_kernel_rfl) y
theorem coverC_5 (c : Dev nD) (t : Fin cfg1.N) (h0 h1) (p0 p1 : Vec F S1024x1024 .f32) (y : S1024x1024.Idx) : ∃ pc ∈ (runC V c t h0 h1 p0 p1).1, y ∈ pc.1.set :=
  View.cover_of_tiledL (runC V c t h0 h1 p0 p1).1 S1024x1024.size (by sl_kernel_rfl) y
theorem coverC_6 (c : Dev nD) (t : Fin cfg1.N) (h0 h1) (p0 p1 : Vec F S1024x1024 .f32) (y : S1024x1024.Idx) : ∃ pc ∈ (runC V c t h0 h1 p0 p1).2.1, y ∈ pc.1.set :=
  View.cover_of_tiledL (runC V c t h0 h1 p0 p1).2.1 S1024x1024.size (by sl_kernel_rfl) y

/-- THE ACCUMULATION over the grid: the case that t mod 4 selects, the two accumulators taken from the point before. -/
def outsAt1 (c : Dev nD) : (n : ℕ) → n < cfg1.N → Vec F S1024x1024 .f32 × Vec F S1024x1024 .f32 × Vec F S1024x1024 .f32 × Vec F S1024x1024 .f32
  | 0, hn => outsA V c ⟨0, hn⟩ (Nat.zero_mod _) (by show ¬ (0 % 4 = 3); decide)
  | n + 1, hn =>
    if h0 : (n + 1) % 4 = 0 then
      if h1 : (n + 1) % 4 = 3 then False.elim (by omega)
      else outsA V c ⟨n + 1, hn⟩ h0 h1
    else
      if h1 : (n + 1) % 4 = 3 then
        outsC V c ⟨n + 1, hn⟩ h0 h1 (outsAt1 c n (Nat.lt_of_succ_lt hn)).2.2.1 (outsAt1 c n (Nat.lt_of_succ_lt hn)).2.2.2
      else
        outsB V c ⟨n + 1, hn⟩ h0 h1 (outsAt1 c n (Nat.lt_of_succ_lt hn)).2.2.1 (outsAt1 c n (Nat.lt_of_succ_lt hn)).2.2.2

theorem outsAt1_A (c : Dev nD) (t : Fin cfg1.N) (h0 : t.val % 4 = 0) (h1 : ¬t.val % 4 = 3) :
    outsAt1 V c t.val t.isLt = outsA V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = outsB V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = outsC V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region's invariant before position n: at the start the class's; afterwards the two accumulators at what the point
    before left, every other scoped buffer at some contents, the generator register at some state. -/
def PhiS (c : Dev nD) : (n : ℕ) → n ≤ cfg1.N → sProp 𝕄
  | 0, _ => Pipeline.ΦA spec1 c
  | n + 1, hn => iprop(((owns (c : Thread nD τ) scM1_0 fullShare ((outsAt1 V c n hn).2.2.1) ∗ owns (c : Thread nD τ) scM1_1 fullShare ((outsAt1 V c n hn).2.2.2)) ∗ others1 c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(((owns (c : Thread nD τ) scM1_0 fullShare ((outsAt1 V c n hn).2.2.1) ∗ owns (c : Thread nD τ) scM1_1 fullShare ((outsAt1 V c n hn).2.2.2)) ∗ others1 c) ∗ (∃ r, prngReg c r)) := rfl
theorem PhiS_pos (c : Dev nD) (n : ℕ) (h : n ≤ cfg1.N) (hz : n ≠ 0) :
    PhiS V c n h = iprop(((owns (c : Thread nD τ) scM1_0 fullShare ((outsAt1 V c (n - 1) (by omega)).2.2.1) ∗ owns (c : Thread nD τ) scM1_1 fullShare ((outsAt1 V c (n - 1) (by omega)).2.2.2)) ∗ others1 c) ∗ (∃ r, prngReg c r)) := by
  cases n with
  | zero => exact absurd rfl hz
  | succ n => rfl

/-- The proof data of region 1 on core c: the arrays as the region finds them; after the body each input's buffer at its
    block, the outputs' and the invariant's accumulators at the accumulation's components; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := rfl
theorem owed_eq1 (c : Dev nD) (t : Fin (cfg1.N + 1)) : (dat1 V c).owed t = 0 := rfl
theorem rec_eq1 (c : Dev nD) (t : Fin (cfg1.N + 1)) : (dat1 V c).recorded t = Set.univ := rfl
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; t mod 4 says which case the point is in; the invariant
    hands the body the accumulators at what the point before left (at anything at the first point) and takes them back at
    this point's contents; an output the case does not store is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 4 = 0
  · by_cases h1 : t.val % 4 = 3
    · exfalso; omega
    · -- k = 0
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t h1) (noFlush1_5 t h1)]
      rw [Dat.leavesExact_idle (dat1 V c) 6 t (idleAt1_6 t h1) (noFlush1_6 t h1)]
      rw [outsAt1_A V c t h0 h1]
      unfold outsA; (try dsimp only)
      by_cases hz : t.val = 0
      · rw [PhiS_castSucc V c t, PhiS_zero V c _ _ hz, PhiA1_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((runA V c t h0 h1).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scoverA_0 V c t h0 h1)
              · unfold owns; iexists _; isplitr
                swap; · iexact HS1
                ipureintro; exact View.read_writes_of_cover _ _ _ _ _ (scoverA_1 V c t h0 h1)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      · rw [PhiS_castSucc V c t, PhiS_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((runA V c t h0 h1).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scoverA_0 V c t h0 h1)
              · unfold owns; iexists _; isplitr
                swap; · iexact HS1
                ipureintro; exact View.read_writes_of_cover _ _ _ _ _ (scoverA_1 V c t h0 h1)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · have hz : t.val ≠ 0 := fun h => h0 (by rw [h])
    by_cases h1 : t.val % 4 = 3
    · -- k = 3
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t h1], after1_5]
      rw [show (dat1 V c).leavesExact 6 t = owns (c : Thread nD τ) (ms1_6 t) fullShare ((dat1 V c).after 6 t) from by
        unfold Dat.leavesExact; rw [liveAt1_6 t h1], after1_6]
      rw [outsAt1_C V c t h0 h1]
      unfold outsC; (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runC V c t h0 h1 _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scoverC_0 V c t h0 h1 _ _)
            · unfold owns; iexists _; isplitr
              swap; · iexact HS1
              ipureintro; exact View.read_writes_of_cover _ _ _ _ _ (scoverC_1 V c t h0 h1 _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverC_5 V c t h0 h1 _ _)
      · unfold owns; iexists _; isplitr
        swap; · iexact H6
        ipureintro; exact View.read_writes_of_cover _ _ _ _ _ (coverC_6 V c t h0 h1 _ _)
    · -- k = 1, 2
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t h1) (noFlush1_5 t h1)]
      rw [Dat.leavesExact_idle (dat1 V c) 6 t (idleAt1_6 t h1) (noFlush1_6 t h1)]
      rw [outsAt1_B V c t h0 h1]
      unfold outsB; (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runB V c t h0 h1 _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scoverB_0 V c t h0 h1 _ _)
            · unfold owns; iexists _; isplitr
              swap; · iexact HS1
              ipureintro; exact View.read_writes_of_cover _ _ _ _ _ (scoverB_1 V c t h0 h1 _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulators' named contents are forgotten. -/
theorem hout1 (c : Dev nD) : (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

end Cert.Kernel.Hand

end
-- ==== Proof.K.Run.lean ====
import proofs.«140457_j29703993819328_1_alg».proof.Proof.K.Region0
import proofs.«140457_j29703993819328_1_alg».proof.Proof.K.Region1
import proofs.«140457_j29703993819328_1_alg».proof.Proof.Gen.Kernel.Regions
import proofs.«140457_j29703993819328_1_alg».proof.Proof.Gen.Kernel.Launch
import proofs.«140457_j29703993819328_1_alg».proof.Proof.Gen.Kernel.Skeleton
import proofs.«140457_j29703993819328_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: its five items (a host stretch, the first kernel call, a host stretch, the second
kernel call, a host stretch) from the launch to the return

## The buffer contents at each boundary between two items: a fold through @main -/

/-- Core `c`'s buffers at launch. -/
abbrev W0 : Dev nD → Valuation τ sig (Elt F) := fun c b => m ((c : Dev nD), b)
/-- After the first host stretch (the logit vector reshaped to a row): the first call's entry. -/
abbrev W1 : Dev nD → Valuation τ sig (Elt F) := fun c => StableHlo.after hostOps0 (W0 m c)
/-- The same read at the TensorCore's references (what the first call's proof data take). -/
abbrev V1 : (c : Dev nD) → (b : Ref sig .tc) → Buf (Elt F) ((c : Thread nD τ).loc b) := fun c b => W1 m c b
/-- At the first call's exit: its arrays at what the pipeline leaves (the inputs as entered, each output's
    write-backs folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the first call's exit contents). -/
abbrev V2 : (c : Dev nD) → (b : Ref sig .tc) → Buf (Elt F) ((c : Thread nD τ).loc b) := fun c b => W2 m c b
/-- At the first call's exit each of its arrays holds what the pipeline leaves and every other buffer what it held
    at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the scaled weight matrix, rounded to bf16): the second call's entry. -/
abbrev W3 : Dev nD → Valuation τ sig (Elt F) := fun c => StableHlo.after hostOps1 (W2 m c)
/-- The same read at the TensorCore's references (what the second call's proof data take). -/
abbrev V3 : (c : Dev nD) → (b : Ref sig .tc) → Buf (Elt F) ((c : Thread nD τ).loc b) := fun c b => W3 m c b
/-- At the second call's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references (the second call's exit contents). -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last host stretch (the scalar result): what the launch returns. -/
abbrev W5 : Dev nD → Valuation τ sig (Elt F) := fun c => StableHlo.after hostOps2 (W4 m c)

/-! ### The arguments end as launched: no host operation writes one, and a call reads it through an input window
    (never written back) or does not touch it, so the fold at an argument's buffer walks back to the launch memory -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := (W4_arr m c 0).trans (((dat1 (V3 m) c).arrAt_in 0 rfl _).trans (A_eq1 (V3 m) c 0))
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := (W4_arr m c 3).trans (((dat1 (V3 m) c).arrAt_in 3 rfl _).trans (A_eq1 (V3 m) c 3))
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 0).trans (((dat0 (V1 m) c).arrAt_in 0 rfl _).trans (A_eq0 (V1 m) c 0))
    _ = W0 m c (Proc.devRef .tc main_arg2) := StableHlo.after_of_writes_sub hostOps0 _ hostOps0_writes (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := (W2_arr m c 2).trans (((dat0 (V1 m) c).arrAt_in 2 rfl _).trans (A_eq0 (V1 m) c 2))
    _ = W0 m c (Proc.devRef .tc main_arg5) := StableHlo.after_of_writes_sub hostOps0 _ hostOps0_writes (by decide)
    _ = m ((c : Thread nD τ).loc main_arg5) := rfl

theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := (W2_arr m c 1).trans (((dat0 (V1 m) c).arrAt_in 1 rfl _).trans (A_eq0 (V1 m) c 1))
    _ = W0 m c (Proc.devRef .tc main_arg6) := StableHlo.after_of_writes_sub hostOps0 _ hostOps0_writes (by decide)
    _ = m ((c : Thread nD τ).loc main_arg6) := rfl

theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

/-! ## The proof data family and the thread state -/

/-- Both pipelines' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last boundary's contents `W5`, the
    generator register at some state. -/
abbrev Tₙ (c : Dev nD) : sProp 𝕄 := iprop(StableHlo.held (c : Thread nD τ) (Pipeline.ucRefs τ sig) (W5 m c) ∗ ∃ r, prngReg c r)

/-- The last host stretch's thread state is the last thread state beside the core owing nothing. -/
theorem last_split (c : Dev nD) :
    iprop(StableHlo.held (c : Thread nD τ) (Pipeline.ucRefs τ sig) (W5 m c) ∗ R (F := F) c)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The two calls as segments -/

set_option backward.isDefEq.respectTransparency.types false in
/-- The first kernel call over the thread state: entered from every unscoped buffer at `W1`, left at `W2`
    (what the next item is entered from). Its arrays are split out of the unscoped buffers and put back at the exit
    contents; the generator register goes into the region's invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => owed_eq0 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (V1 m) c w) (V1 m c) fun w => A_eq0 (V1 m) c w
    rw [Pipeline.unscopedBufs_held] at hsplit
    have hr : ∀ x, x ∈ (pdats m 0 c).recorded 0 := fun x => by
      rw [show (pdats m 0 c).recorded 0 = Set.univ from rec_eq0 (V1 m) c 0]; trivial
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed_eq0 (V1 m) c 0]
      icases HO with ⟨%W, HO⟩; iexists W; isplitr; · ipureintro; exact fun x _ => Or.inl (hr x)
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    refine BIBase.Entails.trans (hout0 (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (V1 m) c w)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from owed_eq0 (V1 m) c _]
    icases HO with ⟨%W, -, HO⟩; iexists W; iexact HO

set_option backward.isDefEq.respectTransparency.types false in
/-- The second kernel call over the thread state: entered from every unscoped buffer at `W3`, left at `W4`
    (what the next item is entered from). Its arrays are split out of the unscoped buffers and put back at the exit
    contents; the generator register goes into the region's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun c t => owed_eq1 (V3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (V3 m) c w) (V3 m c) fun w => A_eq1 (V3 m) c w
    rw [Pipeline.unscopedBufs_held] at hsplit
    have hr : ∀ x, x ∈ (pdats m 1 c).recorded 0 := fun x => by
      rw [show (pdats m 1 c).recorded 0 = Set.univ from rec_eq1 (V3 m) c 0]; trivial
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed_eq1 (V3 m) c 0]
      icases HO with ⟨%W, HO⟩; iexists W; isplitr; · ipureintro; exact fun x _ => Or.inl (hr x)
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    refine BIBase.Entails.trans (hout1 (V3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (V3 m) c w)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last _) = 0 from owed_eq1 (V3 m) c _]
    icases HO with ⟨%W, -, HO⟩; iexists W; iexact HO

/-! ## @main as segments, and the launch -/

/-- @main's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of the segments. -/
theorem main_run (c : Dev nD) : main (F := F) c = Pipeline.Seg.run (segs m) :=
  main_segs adm (pdats m) () 𝒱₀ L lv _ _ _ (reg0 m) (reg1 m) rfl rfl rfl c

set_option backward.isDefEq.respectTransparency.types false in
/-- THE RUN. At the compiled mesh, from any memory with zero counters, every weakly fair execution of @main on the
    TensorCores terminates, nothing faulting, and in every final state each core's unscoped buffers hold the fold's
    last contents `W5`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_split m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME at any `F`: every argument array ends holding its launch contents — the run's last contents read at
    each argument's buffer, which the fold walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c),
     (h c _ (mem_uc main_arg7 (by decide))).trans (W5_main_arg7 m c)⟩) (run_all m ρ)

end Cert.Kernel.Hand

end
-- ==== Proof.KI.Region0.lean ====
import proofs.«140457_j29703993819328_1_alg».proof.Proof.Gen.KernelIdeal.Launch
import proofs.«140457_j29703993819328_1_alg».proof.Proof.Gen.KernelIdeal.Skeleton
import proofs.«140457_j29703993819328_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the weight-building kernel on its grid of 4 row bands, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data whose
    array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data whose
    array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (it is fetched at the
    first point only; where it is not fetched its block index has not moved), for any proof data whose
    array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S512x2048 := Rect.unit (s := S512x2048) ![0, 0] S512x2048.size inb_S512x2048_S512x2048_0_0
abbrev r0_1 : Rect S1x2048 := Rect.unit (s := S1x2048) ![0, 0] S1x2048.size inb_S1x2048_S1x2048_0_0
abbrev r0_2 : Rect S512x1 := Rect.unit (s := S512x1) ![0, 0] S512x1.size inb_S512x1_S512x1_0_0

/-! ## What the body leaves in each output window's buffer -/

/-- The first weight band (kept where the noise is below the keep probability), from the four input blocks:
    `x0` the weights, `x1` the mask, `x2` the noise, `x3` the logit row. -/
def out0_4 (x0 x1 x2 : Vec F S512x2048 .f32) (x3 : Vec F S1x2048 .f32) : Vec F S512x2048 .bf16 :=
  View.canon [⟨r0_0, k0_pay3 (View.ld x3 r0_1) (View.ld x2 r0_0) (View.ld x0 r0_0) (View.ld x1 r0_0)⟩]

/-- Its one store is the whole buffer, so it covers it. -/
theorem cover0_4 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

/-- The second weight band (the antithetic draw), from the same four blocks. -/
def out0_5 (x0 x1 x2 : Vec F S512x2048 .f32) (x3 : Vec F S1x2048 .f32) : Vec F S512x2048 .bf16 :=
  View.canon [⟨r0_0, k0_pay4 (View.ld x3 r0_1) (View.ld x2 r0_0) (View.ld x0 r0_0) (View.ld x1 r0_0)⟩]

theorem cover0_5 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

/-- The band's row sums of squares, from the weights' block alone. -/
def out0_6 (x0 : Vec F S512x2048 .f32) : Vec F S512x1 .f32 :=
  View.canon [⟨r0_2, k0_pay5 (View.ld x0 r0_0)⟩]

theorem cover0_6 (p0 : Vec F S512x1 .f32) (y : S512x1.Idx) :
    ∃ pc ∈ ([⟨r0_2, p0⟩] : List (View.Piece (Elt F) S512x1 .f32)), y ∈ pc.1.set :=
  View.cover_of_tiled [⟨r0_2, p0⟩] S512x1.size (by rfl) y

/-! ## The body's triple -/

set_option maxHeartbeats 1000000 in
/-- The kernel body on whole staging memrefs, the inputs' at read contents `xW` and the outputs' at anything, runs to
    the continuation holding the inputs' as they were and each output's at `out0_W` of the inputs'. The body also
    reads each output buffer before storing to it; what it reads there is not used. -/
theorem sound_kernel0 (c : Dev nD) (E : Set ℕ) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S512x1 .f32) (harg7 : arg7.IsWhole)
    (x0 x1 x2 : Vec F S512x2048 .f32) (x3 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0)) -∗ K ⟨⟩))
      ⊢ wp frame (wpE (defs₀ (F := F)) Variants.none c none) E (cc0__build_weights_kernel i arg1 harg1 arg2 harg2 arg3 harg3 arg4 harg4 arg5 harg5 arg6 harg6 arg7 harg7) K := by
  simp only [cc0__build_weights_kernel_eq_skeleton]; unfold cc0__build_weights_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of the region's pipeline on core `c`: the arrays as the region finds them (`V`); after the body
    at point `t` each input's buffer at its block and each output's at `out0_W` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (t : Fin (cfg0.N + 1)) : (dat0 V c).owed t = 0 := by
  dsimp only [dat0]

/-- Nothing is excluded from what the proof data records at any point. -/
theorem rec_eq0 (c : Dev nD) (t : Fin (cfg0.N + 1)) : (dat0 V c).recorded t = Set.univ := rfl

/-- The class's invariant does not move with the point. -/
theorem hin0 (c : Dev nD) : (Pipeline.ΦA spec0 c : sProp 𝕄) ⊢ (dat0 V c).Φ 0 :=
  Entails.of_eq (show (Pipeline.ΦA spec0 c : sProp 𝕄) = (dat0 V c).Φ 0 from rfl)

theorem hout0 (c : Dev nD) : (dat0 V c).Φ (Fin.last cfg0.N) ⊢ (Pipeline.ΦA spec0 c : sProp 𝕄) :=
  Entails.of_eq (show (dat0 V c).Φ (Fin.last cfg0.N) = (Pipeline.ΦA spec0 c : sProp 𝕄) from rfl)

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Shared.lean ====
import proofs.«140457_j29703993819328_1_alg».proof.Proof.Gen.KernelIdeal.Launch
import proofs.«140457_j29703993819328_1_alg».proof.Proof.Gen.KernelIdeal.Skeleton
import proofs.«140457_j29703993819328_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1 (the fused product and clipped tanh): what its three control cases share

A grid point t has coordinates (i, j, k) with k = t mod 4 the position along the contracted axis. The body resets its
two accumulators at k = 0, adds one partial product to each at every k, and writes the two outputs at k = 3. -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, in closed form over the grid -/

/-- "k = 0", as the body computes it from the third grid coordinate. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "k = 3". -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle: the inputs never; the two outputs unless k = 3, and then they are not written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬ t.val % 4 = 3 → cfg1.idle 5 (grid1.coords t) = true := by decide +kernel
theorem noFlush1_5 : ∀ t : Fin cfg1.N, ¬ t.val % 4 = 3 → (cfg1.win 5).flush t = false := by decide +kernel
theorem liveAt1_5 : ∀ t : Fin cfg1.N, t.val % 4 = 3 → cfg1.idle 5 (grid1.coords t) = false := by decide +kernel
theorem idleAt1_6 : ∀ t : Fin cfg1.N, ¬ t.val % 4 = 3 → cfg1.idle 6 (grid1.coords t) = true := by decide +kernel
theorem noFlush1_6 : ∀ t : Fin cfg1.N, ¬ t.val % 4 = 3 → (cfg1.win 6).flush t = false := by decide +kernel
theorem liveAt1_6 : ∀ t : Fin cfg1.N, t.val % 4 = 3 → cfg1.idle 6 (grid1.coords t) = false := by decide +kernel

/-! ## The staging and scratch memrefs the body is called with -/

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1024 .f32 := win1_6.stage (cfg1.slots t 6)
abbrev hs1_6 (t : Fin cfg1.N) : (ms1_6 t).IsWhole := hstage1_6 ((cfg1.slots t 6).cast nbuf1_6)
/-- One staging buffer of each output window, through which its contents are stated. -/
abbrev VO1_5 : View sig .tc .vmem S1024x1024 .f32 := (Memref.whole cc1_stg5_0 : Memref sig .tc .vmem S1024x1024 .f32).view
abbrev VO1_6 : View sig .tc .vmem S1024x1024 .f32 := (Memref.whole cc1_stg6_0 : Memref sig .tc .vmem S1024x1024 .f32).view
/-- The two accumulators: whole scoped buffers of the kernel's own, carried from point to point. -/
abbrev scM1_0 : Memref sig .tc .vmem S1024x1024 .f32 := Memref.whole cc1_scratch0
abbrev scM1_1 : Memref sig .tc .vmem S1024x1024 .f32 := Memref.whole cc1_scratch1
abbrev VS1_0 : View sig .tc .vmem S1024x1024 .f32 := scM1_0.view
abbrev VS1_1 : View sig .tc .vmem S1024x1024 .f32 := scM1_1.view

/-- Every other scoped buffer of the core (the first region's staging buffers), at some contents: carried unopened. -/
abbrev others1 (c : Dev nD) : sProp 𝕄 :=
  Pipeline.scopedRestBut (Ix := Unit) (Name := ℕ) (U := UR sig nD τ) (Lvl := ℕ) (Val := Elt F) spec1 c [cc1_scratch0, cc1_scratch1]

/-- The class invariant with the two accumulators split out as memrefs owned at some contents. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d)) ∗ others1 c) ∗ (∃ r, prngReg c r)) := by
  unfold Pipeline.ΦA
  rw [Pipeline.scopedRest_split_of_list spec1 c [cc1_scratch0, cc1_scratch1] (by decide) (by decide)]
  simp only [scM1_0, scM1_1, owns_whole, bigSepL_cons_cons, bigSepL_singleton]
  try rfl

end Cert.KernelIdeal.Hand

end
-- ==== Proof.KI.R1RunA.lean ====
import proofs.«140457_j29703993819328_1_alg».proof.Proof.Gen.KernelIdeal.Launch
import proofs.«140457_j29703993819328_1_alg».proof.Proof.Gen.KernelIdeal.Skeleton
import proofs.«140457_j29703993819328_1_alg».proof.Proof.Gen.KernelIdeal.Points
import proofs.«140457_j29703993819328_1_alg».proof.Proof.KI.R1Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body in the case k = 0: both accumulators are reset to the channel term's product, then one partial product is added to each; no output is stored.
    On whole memrefs — the inputs' at their contents, an output the case does not store at contents handed back untouched,
    an output it stores at anything, an accumulator at what the point before left (at anything when it is reset) — the body runs
    to the continuation holding the inputs' as they were and each stored buffer with the case's pieces written (last first);
    the pieces are the witness the run finds. -/
noncomputable def kernelRun1_A (c : Dev nD) (i : grid1.Coords) (arg3 : Memref sig .tc .vmem S1024x512 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x512 .f32) (harg6 : arg6.IsWhole) (arg7 : Memref sig .tc .vmem S512x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (hc0 : cond1_0 i) (hc1 : ¬cond1_1 i)
    (x0 : Vec F S1024x512 .f32) (x1 : Vec F S512x1024 .bf16) (x2 : Vec F S512x1024 .bf16) (x3 : Vec F S1024x512 .f32) (x4 : Vec F S512x1024 .bf16) :
    Σ' (L5 : List (View.Piece (Elt F) S1024x1024 .f32)) (L6 : List (View.Piece (Elt F) S1024x1024 .f32)) (LS0 : List (View.Piece (Elt F) S1024x1024 .f32)), { LS1 : List (View.Piece (Elt F) S1024x1024 .f32) //
      ∀ (xi5 xi6 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__fused_matmul_kernel i arg3 harg3 arg4 harg4 arg5 harg5 arg6 harg6 arg7 harg7 arg8 harg8 arg9 harg9 arg10 harg10 arg11 harg11) K } := by
  refine ⟨[], [], ?_, ?_, fun xi5 xi6 E K => ?run⟩
  case run =>
    simp only [cc1__fused_matmul_kernel_eq_skeleton]; unfold cc1__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _; iexact HS1

end Cert.KernelIdeal.Hand

end
-- ==== Proof.KI.R1RunB.lean ====
import proofs.«140457_j29703993819328_1_alg».proof.Proof.Gen.KernelIdeal.Launch
import proofs.«140457_j29703993819328_1_alg».proof.Proof.Gen.KernelIdeal.Skeleton
import proofs.«140457_j29703993819328_1_alg».proof.Proof.Gen.KernelIdeal.Points
import proofs.«140457_j29703993819328_1_alg».proof.Proof.KI.R1Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body in the case k = 1 or 2: one partial product is added to each accumulator; no output is stored.
    On whole memrefs — the inputs' at their contents, an output the case does not store at contents handed back untouched,
    an output it stores at anything, an accumulator at what the point before left (at anything when it is reset) — the body runs
    to the continuation holding the inputs' as they were and each stored buffer with the case's pieces written (last first);
    the pieces are the witness the run finds. -/
noncomputable def kernelRun1_B (c : Dev nD) (i : grid1.Coords) (arg3 : Memref sig .tc .vmem S1024x512 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x512 .f32) (harg6 : arg6.IsWhole) (arg7 : Memref sig .tc .vmem S512x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : ¬cond1_1 i)
    (x0 : Vec F S1024x512 .f32) (x1 : Vec F S512x1024 .bf16) (x2 : Vec F S512x1024 .bf16) (x3 : Vec F S1024x512 .f32) (x4 : Vec F S512x1024 .bf16) (xs0 xs1 : Vec F S1024x1024 .f32) :
    Σ' (L5 : List (View.Piece (Elt F) S1024x1024 .f32)) (L6 : List (View.Piece (Elt F) S1024x1024 .f32)) (LS0 : List (View.Piece (Elt F) S1024x1024 .f32)), { LS1 : List (View.Piece (Elt F) S1024x1024 .f32) //
      ∀ (xi5 xi6 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ owns (c : Thread nD τ) arg10 fullShare xs0 ∗ owns (c : Thread nD τ) arg11 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__fused_matmul_kernel i arg3 harg3 arg4 harg4 arg5 harg5 arg6 harg6 arg7 harg7 arg8 harg8 arg9 harg9 arg10 harg10 arg11 harg11) K } := by
  refine ⟨[], [], ?_, ?_, fun xi5 xi6 E K => ?run⟩
  case run =>
    simp only [cc1__fused_matmul_kernel_eq_skeleton]; unfold cc1__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0; obtain rfl := harg11.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _; iexact HS1

end Cert.KernelIdeal.Hand

end
-- ==== Proof.KI.R1RunC.lean ====
import proofs.«140457_j29703993819328_1_alg».proof.Proof.Gen.KernelIdeal.Launch
import proofs.«140457_j29703993819328_1_alg».proof.Proof.Gen.KernelIdeal.Skeleton
import proofs.«140457_j29703993819328_1_alg».proof.Proof.Gen.KernelIdeal.Points
import proofs.«140457_j29703993819328_1_alg».proof.Proof.KI.R1Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body in the case k = 3: one partial product is added to each accumulator, and the two outputs are stored from them.
    On whole memrefs — the inputs' at their contents, an output the case does not store at contents handed back untouched,
    an output it stores at anything, an accumulator at what the point before left (at anything when it is reset) — the body runs
    to the continuation holding the inputs' as they were and each stored buffer with the case's pieces written (last first);
    the pieces are the witness the run finds. -/
noncomputable def kernelRun1_C (c : Dev nD) (i : grid1.Coords) (arg3 : Memref sig .tc .vmem S1024x512 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x512 .f32) (harg6 : arg6.IsWhole) (arg7 : Memref sig .tc .vmem S512x1024 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : cond1_1 i)
    (x0 : Vec F S1024x512 .f32) (x1 : Vec F S512x1024 .bf16) (x2 : Vec F S512x1024 .bf16) (x3 : Vec F S1024x512 .f32) (x4 : Vec F S512x1024 .bf16) (xs0 xs1 : Vec F S1024x1024 .f32) :
    Σ' (L5 : List (View.Piece (Elt F) S1024x1024 .f32)) (L6 : List (View.Piece (Elt F) S1024x1024 .f32)) (LS0 : List (View.Piece (Elt F) S1024x1024 .f32)), { LS1 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__fused_matmul_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__fused_matmul_kernel_eq_skeleton]; unfold cc1__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0; obtain rfl := harg11.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [HS0]; · iexists _; iexact HS0
    iexists _; iexact HS1

end Cert.KernelIdeal.Hand

end
-- ==== Proof.KI.Region1.lean ====
import proofs.«140457_j29703993819328_1_alg».proof.Proof.Gen.KernelIdeal.Launch
import proofs.«140457_j29703993819328_1_alg».proof.Proof.Gen.KernelIdeal.Skeleton
import proofs.«140457_j29703993819328_1_alg».proof.Proof.Gen.KernelIdeal.Points
import proofs.«140457_j29703993819328_1_alg».proof.Proof.KI.R1RunA
import proofs.«140457_j29703993819328_1_alg».proof.Proof.KI.R1RunB
import proofs.«140457_j29703993819328_1_alg».proof.Proof.KI.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: what the accumulators and the outputs hold after each point, the proof data, the body obligation -/

/-- The case runs at a grid point's own memrefs and input blocks. -/
abbrev runA (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)
abbrev runB (c : Dev nD) (t : Fin cfg1.N) (h0 : ¬t.val % 4 = 0) (h1 : ¬t.val % 4 = 3) (p0 p1 : Vec F S1024x1024 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p0 p1
abbrev runC (c : Dev nD) (t : Fin cfg1.N) (h0 : ¬t.val % 4 = 0) (h1 : t.val % 4 = 3) (p0 p1 : Vec F S1024x1024 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) p0 p1

/-- A buffer's contents after a list of pieces is written over anything, read back. -/
abbrev rb (v : View sig .tc .vmem S1024x1024 .f32) (L : List (View.Piece (Elt F) S1024x1024 .f32)) : Vec F S1024x1024 .f32 := v.read (Elt F) (v.writes (Elt F) v.junk L)

/-- What a point leaves, as (output 5's buffer, output 6's buffer, accumulator 0, accumulator 1). Where a case stores no
    output the first two components are placeholders that nothing consults (the window is idle and not written back). -/
def outsA (c : Dev nD) (t : Fin cfg1.N) (h0 : t.val % 4 = 0) (h1 : ¬t.val % 4 = 3) : Vec F S1024x1024 .f32 × Vec F S1024x1024 .f32 × Vec F S1024x1024 .f32 × Vec F S1024x1024 .f32 :=
  (rb VO1_5 [], rb VO1_6 [], rb VS1_0 (runA V c t h0 h1).2.2.1, rb VS1_1 (runA V c t h0 h1).2.2.2.1)
def outsB (c : Dev nD) (t : Fin cfg1.N) (h0 : ¬t.val % 4 = 0) (h1 : ¬t.val % 4 = 3) (p0 p1 : Vec F S1024x1024 .f32) : Vec F S1024x1024 .f32 × Vec F S1024x1024 .f32 × Vec F S1024x1024 .f32 × Vec F S1024x1024 .f32 :=
  (rb VO1_5 [], rb VO1_6 [], rb VS1_0 (runB V c t h0 h1 p0 p1).2.2.1, rb VS1_1 (runB V c t h0 h1 p0 p1).2.2.2.1)
def outsC (c : Dev nD) (t : Fin cfg1.N) (h0 : ¬t.val % 4 = 0) (h1 : t.val % 4 = 3) (p0 p1 : Vec F S1024x1024 .f32) : Vec F S1024x1024 .f32 × Vec F S1024x1024 .f32 × Vec F S1024x1024 .f32 × Vec F S1024x1024 .f32 :=
  (rb VO1_5 (runC V c t h0 h1 p0 p1).1, rb VO1_6 (runC V c t h0 h1 p0 p1).2.1, rb VS1_0 (runC V c t h0 h1 p0 p1).2.2.1, rb VS1_1 (runC V c t h0 h1 p0 p1).2.2.2.1)

/-- Each case's pieces for a buffer it stores tile that buffer, so they cover it. -/
theorem scoverA_0 (c : Dev nD) (t : Fin cfg1.N) (h0 h1) (y : S1024x1024.Idx) : ∃ pc ∈ (runA V c t h0 h1).2.2.1, y ∈ pc.1.set :=
  View.cover_of_tiledL (runA V c t h0 h1).2.2.1 S1024x1024.size (by sl_kernel_rfl) y
theorem scoverA_1 (c : Dev nD) (t : Fin cfg1.N) (h0 h1) (y : S1024x1024.Idx) : ∃ pc ∈ (runA V c t h0 h1).2.2.2.1, y ∈ pc.1.set :=
  View.cover_of_tiledL (runA V c t h0 h1).2.2.2.1 S1024x1024.size (by sl_kernel_rfl) y
theorem scoverB_0 (c : Dev nD) (t : Fin cfg1.N) (h0 h1) (p0 p1 : Vec F S1024x1024 .f32) (y : S1024x1024.Idx) : ∃ pc ∈ (runB V c t h0 h1 p0 p1).2.2.1, y ∈ pc.1.set :=
  View.cover_of_tiledL (runB V c t h0 h1 p0 p1).2.2.1 S1024x1024.size (by sl_kernel_rfl) y
theorem scoverB_1 (c : Dev nD) (t : Fin cfg1.N) (h0 h1) (p0 p1 : Vec F S1024x1024 .f32) (y : S1024x1024.Idx) : ∃ pc ∈ (runB V c t h0 h1 p0 p1).2.2.2.1, y ∈ pc.1.set :=
  View.cover_of_tiledL (runB V c t h0 h1 p0 p1).2.2.2.1 S1024x1024.size (by sl_kernel_rfl) y
theorem scoverC_0 (c : Dev nD) (t : Fin cfg1.N) (h0 h1) (p0 p1 : Vec F S1024x1024 .f32) (y : S1024x1024.Idx) : ∃ pc ∈ (runC V c t h0 h1 p0 p1).2.2.1, y ∈ pc.1.set :=
  View.cover_of_tiledL (runC V c t h0 h1 p0 p1).2.2.1 S1024x1024.size (by sl_kernel_rfl) y
theorem scoverC_1 (c : Dev nD) (t : Fin cfg1.N) (h0 h1) (p0 p1 : Vec F S1024x1024 .f32) (y : S1024x1024.Idx) : ∃ pc ∈ (runC V c t h0 h1 p0 p1).2.2.2.1, y ∈ pc.1.set :=
  View.cover_of_tiledL (runC V c t h0 h1 p0 p1).2.2.2.1 S1024x1024.size (by sl_kernel_rfl) y
theorem coverC_5 (c : Dev nD) (t : Fin cfg1.N) (h0 h1) (p0 p1 : Vec F S1024x1024 .f32) (y : S1024x1024.Idx) : ∃ pc ∈ (runC V c t h0 h1 p0 p1).1, y ∈ pc.1.set :=
  View.cover_of_tiledL (runC V c t h0 h1 p0 p1).1 S1024x1024.size (by sl_kernel_rfl) y
theorem coverC_6 (c : Dev nD) (t : Fin cfg1.N) (h0 h1) (p0 p1 : Vec F S1024x1024 .f32) (y : S1024x1024.Idx) : ∃ pc ∈ (runC V c t h0 h1 p0 p1).2.1, y ∈ pc.1.set :=
  View.cover_of_tiledL (runC V c t h0 h1 p0 p1).2.1 S1024x1024.size (by sl_kernel_rfl) y

/-- THE ACCUMULATION over the grid: the case that t mod 4 selects, the two accumulators taken from the point before. -/
def outsAt1 (c : Dev nD) : (n : ℕ) → n < cfg1.N → Vec F S1024x1024 .f32 × Vec F S1024x1024 .f32 × Vec F S1024x1024 .f32 × Vec F S1024x1024 .f32
  | 0, hn => outsA V c ⟨0, hn⟩ (Nat.zero_mod _) (by show ¬ (0 % 4 = 3); decide)
  | n + 1, hn =>
    if h0 : (n + 1) % 4 = 0 then
      if h1 : (n + 1) % 4 = 3 then False.elim (by omega)
      else outsA V c ⟨n + 1, hn⟩ h0 h1
    else
      if h1 : (n + 1) % 4 = 3 then
        outsC V c ⟨n + 1, hn⟩ h0 h1 (outsAt1 c n (Nat.lt_of_succ_lt hn)).2.2.1 (outsAt1 c n (Nat.lt_of_succ_lt hn)).2.2.2
      else
        outsB V c ⟨n + 1, hn⟩ h0 h1 (outsAt1 c n (Nat.lt_of_succ_lt hn)).2.2.1 (outsAt1 c n (Nat.lt_of_succ_lt hn)).2.2.2

theorem outsAt1_A (c : Dev nD) (t : Fin cfg1.N) (h0 : t.val % 4 = 0) (h1 : ¬t.val % 4 = 3) :
    outsAt1 V c t.val t.isLt = outsA V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = outsB V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = outsC V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region's invariant before position n: at the start the class's; afterwards the two accumulators at what the point
    before left, every other scoped buffer at some contents, the generator register at some state. -/
def PhiS (c : Dev nD) : (n : ℕ) → n ≤ cfg1.N → sProp 𝕄
  | 0, _ => Pipeline.ΦA spec1 c
  | n + 1, hn => iprop(((owns (c : Thread nD τ) scM1_0 fullShare ((outsAt1 V c n hn).2.2.1) ∗ owns (c : Thread nD τ) scM1_1 fullShare ((outsAt1 V c n hn).2.2.2)) ∗ others1 c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(((owns (c : Thread nD τ) scM1_0 fullShare ((outsAt1 V c n hn).2.2.1) ∗ owns (c : Thread nD τ) scM1_1 fullShare ((outsAt1 V c n hn).2.2.2)) ∗ others1 c) ∗ (∃ r, prngReg c r)) := rfl
theorem PhiS_pos (c : Dev nD) (n : ℕ) (h : n ≤ cfg1.N) (hz : n ≠ 0) :
    PhiS V c n h = iprop(((owns (c : Thread nD τ) scM1_0 fullShare ((outsAt1 V c (n - 1) (by omega)).2.2.1) ∗ owns (c : Thread nD τ) scM1_1 fullShare ((outsAt1 V c (n - 1) (by omega)).2.2.2)) ∗ others1 c) ∗ (∃ r, prngReg c r)) := by
  cases n with
  | zero => exact absurd rfl hz
  | succ n => rfl

/-- The proof data of region 1 on core c: the arrays as the region finds them; after the body each input's buffer at its
    block, the outputs' and the invariant's accumulators at the accumulation's components; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := rfl
theorem owed_eq1 (c : Dev nD) (t : Fin (cfg1.N + 1)) : (dat1 V c).owed t = 0 := rfl
theorem rec_eq1 (c : Dev nD) (t : Fin (cfg1.N + 1)) : (dat1 V c).recorded t = Set.univ := rfl
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; t mod 4 says which case the point is in; the invariant
    hands the body the accumulators at what the point before left (at anything at the first point) and takes them back at
    this point's contents; an output the case does not store is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 4 = 0
  · by_cases h1 : t.val % 4 = 3
    · exfalso; omega
    · -- k = 0
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t h1) (noFlush1_5 t h1)]
      rw [Dat.leavesExact_idle (dat1 V c) 6 t (idleAt1_6 t h1) (noFlush1_6 t h1)]
      rw [outsAt1_A V c t h0 h1]
      unfold outsA; (try dsimp only)
      by_cases hz : t.val = 0
      · rw [PhiS_castSucc V c t, PhiS_zero V c _ _ hz, PhiA1_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((runA V c t h0 h1).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scoverA_0 V c t h0 h1)
              · unfold owns; iexists _; isplitr
                swap; · iexact HS1
                ipureintro; exact View.read_writes_of_cover _ _ _ _ _ (scoverA_1 V c t h0 h1)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      · rw [PhiS_castSucc V c t, PhiS_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((runA V c t h0 h1).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scoverA_0 V c t h0 h1)
              · unfold owns; iexists _; isplitr
                swap; · iexact HS1
                ipureintro; exact View.read_writes_of_cover _ _ _ _ _ (scoverA_1 V c t h0 h1)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · have hz : t.val ≠ 0 := fun h => h0 (by rw [h])
    by_cases h1 : t.val % 4 = 3
    · -- k = 3
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t h1], after1_5]
      rw [show (dat1 V c).leavesExact 6 t = owns (c : Thread nD τ) (ms1_6 t) fullShare ((dat1 V c).after 6 t) from by
        unfold Dat.leavesExact; rw [liveAt1_6 t h1], after1_6]
      rw [outsAt1_C V c t h0 h1]
      unfold outsC; (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runC V c t h0 h1 _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scoverC_0 V c t h0 h1 _ _)
            · unfold owns; iexists _; isplitr
              swap; · iexact HS1
              ipureintro; exact View.read_writes_of_cover _ _ _ _ _ (scoverC_1 V c t h0 h1 _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverC_5 V c t h0 h1 _ _)
      · unfold owns; iexists _; isplitr
        swap; · iexact H6
        ipureintro; exact View.read_writes_of_cover _ _ _ _ _ (coverC_6 V c t h0 h1 _ _)
    · -- k = 1, 2
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t h1) (noFlush1_5 t h1)]
      rw [Dat.leavesExact_idle (dat1 V c) 6 t (idleAt1_6 t h1) (noFlush1_6 t h1)]
      rw [outsAt1_B V c t h0 h1]
      unfold outsB; (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runB V c t h0 h1 _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scoverB_0 V c t h0 h1 _ _)
            · unfold owns; iexists _; isplitr
              swap; · iexact HS1
              ipureintro; exact View.read_writes_of_cover _ _ _ _ _ (scoverB_1 V c t h0 h1 _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulators' named contents are forgotten. -/
theorem hout1 (c : Dev nD) : (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

end Cert.KernelIdeal.Hand

end
-- ==== Proof.KI.Run.lean ====
import proofs.«140457_j29703993819328_1_alg».proof.Proof.KI.Region0
import proofs.«140457_j29703993819328_1_alg».proof.Proof.KI.Region1
import proofs.«140457_j29703993819328_1_alg».proof.Proof.Gen.KernelIdeal.Regions
import proofs.«140457_j29703993819328_1_alg».proof.Proof.Gen.KernelIdeal.Launch
import proofs.«140457_j29703993819328_1_alg».proof.Proof.Gen.KernelIdeal.Skeleton
import proofs.«140457_j29703993819328_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: its five items (a host stretch, the first kernel call, a host stretch, the second
kernel call, a host stretch) from the launch to the return

## The buffer contents at each boundary between two items: a fold through @main -/

/-- Core `c`'s buffers at launch. -/
abbrev W0 : Dev nD → Valuation τ sig (Elt F) := fun c b => m ((c : Dev nD), b)
/-- After the first host stretch (the logit vector reshaped to a row): the first call's entry. -/
abbrev W1 : Dev nD → Valuation τ sig (Elt F) := fun c => StableHlo.after hostOps0 (W0 m c)
/-- The same read at the TensorCore's references (what the first call's proof data take). -/
abbrev V1 : (c : Dev nD) → (b : Ref sig .tc) → Buf (Elt F) ((c : Thread nD τ).loc b) := fun c b => W1 m c b
/-- At the first call's exit: its arrays at what the pipeline leaves (the inputs as entered, each output's
    write-backs folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the first call's exit contents). -/
abbrev V2 : (c : Dev nD) → (b : Ref sig .tc) → Buf (Elt F) ((c : Thread nD τ).loc b) := fun c b => W2 m c b
/-- At the first call's exit each of its arrays holds what the pipeline leaves and every other buffer what it held
    at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the scaled weight matrix, rounded to bf16): the second call's entry. -/
abbrev W3 : Dev nD → Valuation τ sig (Elt F) := fun c => StableHlo.after hostOps1 (W2 m c)
/-- The same read at the TensorCore's references (what the second call's proof data take). -/
abbrev V3 : (c : Dev nD) → (b : Ref sig .tc) → Buf (Elt F) ((c : Thread nD τ).loc b) := fun c b => W3 m c b
/-- At the second call's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references (the second call's exit contents). -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last host stretch (the scalar result): what the launch returns. -/
abbrev W5 : Dev nD → Valuation τ sig (Elt F) := fun c => StableHlo.after hostOps2 (W4 m c)

/-! ### The arguments end as launched: no host operation writes one, and a call reads it through an input window
    (never written back) or does not touch it, so the fold at an argument's buffer walks back to the launch memory -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := (W4_arr m c 0).trans (((dat1 (V3 m) c).arrAt_in 0 rfl _).trans (A_eq1 (V3 m) c 0))
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := (W4_arr m c 3).trans (((dat1 (V3 m) c).arrAt_in 3 rfl _).trans (A_eq1 (V3 m) c 3))
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 0).trans (((dat0 (V1 m) c).arrAt_in 0 rfl _).trans (A_eq0 (V1 m) c 0))
    _ = W0 m c (Proc.devRef .tc main_arg2) := StableHlo.after_of_writes_sub hostOps0 _ hostOps0_writes (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := (W2_arr m c 2).trans (((dat0 (V1 m) c).arrAt_in 2 rfl _).trans (A_eq0 (V1 m) c 2))
    _ = W0 m c (Proc.devRef .tc main_arg5) := StableHlo.after_of_writes_sub hostOps0 _ hostOps0_writes (by decide)
    _ = m ((c : Thread nD τ).loc main_arg5) := rfl

theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := (W2_arr m c 1).trans (((dat0 (V1 m) c).arrAt_in 1 rfl _).trans (A_eq0 (V1 m) c 1))
    _ = W0 m c (Proc.devRef .tc main_arg6) := StableHlo.after_of_writes_sub hostOps0 _ hostOps0_writes (by decide)
    _ = m ((c : Thread nD τ).loc main_arg6) := rfl

theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

/-! ## The proof data family and the thread state -/

/-- Both pipelines' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last boundary's contents `W5`, the
    generator register at some state. -/
abbrev Tₙ (c : Dev nD) : sProp 𝕄 := iprop(StableHlo.held (c : Thread nD τ) (Pipeline.ucRefs τ sig) (W5 m c) ∗ ∃ r, prngReg c r)

/-- The last host stretch's thread state is the last thread state beside the core owing nothing. -/
theorem last_split (c : Dev nD) :
    iprop(StableHlo.held (c : Thread nD τ) (Pipeline.ucRefs τ sig) (W5 m c) ∗ R (F := F) c)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The two calls as segments -/

set_option backward.isDefEq.respectTransparency.types false in
/-- The first kernel call over the thread state: entered from every unscoped buffer at `W1`, left at `W2`
    (what the next item is entered from). Its arrays are split out of the unscoped buffers and put back at the exit
    contents; the generator register goes into the region's invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => owed_eq0 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (V1 m) c w) (V1 m c) fun w => A_eq0 (V1 m) c w
    rw [Pipeline.unscopedBufs_held] at hsplit
    have hr : ∀ x, x ∈ (pdats m 0 c).recorded 0 := fun x => by
      rw [show (pdats m 0 c).recorded 0 = Set.univ from rec_eq0 (V1 m) c 0]; trivial
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed_eq0 (V1 m) c 0]
      icases HO with ⟨%W, HO⟩; iexists W; isplitr; · ipureintro; exact fun x _ => Or.inl (hr x)
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    refine BIBase.Entails.trans (hout0 (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (V1 m) c w)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from owed_eq0 (V1 m) c _]
    icases HO with ⟨%W, -, HO⟩; iexists W; iexact HO

set_option backward.isDefEq.respectTransparency.types false in
/-- The second kernel call over the thread state: entered from every unscoped buffer at `W3`, left at `W4`
    (what the next item is entered from). Its arrays are split out of the unscoped buffers and put back at the exit
    contents; the generator register goes into the region's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun c t => owed_eq1 (V3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (V3 m) c w) (V3 m c) fun w => A_eq1 (V3 m) c w
    rw [Pipeline.unscopedBufs_held] at hsplit
    have hr : ∀ x, x ∈ (pdats m 1 c).recorded 0 := fun x => by
      rw [show (pdats m 1 c).recorded 0 = Set.univ from rec_eq1 (V3 m) c 0]; trivial
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed_eq1 (V3 m) c 0]
      icases HO with ⟨%W, HO⟩; iexists W; isplitr; · ipureintro; exact fun x _ => Or.inl (hr x)
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    refine BIBase.Entails.trans (hout1 (V3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (V3 m) c w)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last _) = 0 from owed_eq1 (V3 m) c _]
    icases HO with ⟨%W, -, HO⟩; iexists W; iexact HO

/-! ## @main as segments, and the launch -/

/-- @main's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of the segments. -/
theorem main_run (c : Dev nD) : main (F := F) c = Pipeline.Seg.run (segs m) :=
  main_segs adm (pdats m) () 𝒱₀ L lv _ _ _ (reg0 m) (reg1 m) rfl rfl rfl c

set_option backward.isDefEq.respectTransparency.types false in
/-- THE RUN. At the compiled mesh, from any memory with zero counters, every weakly fair execution of @main on the
    TensorCores terminates, nothing faulting, and in every final state each core's unscoped buffers hold the fold's
    last contents `W5`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_split m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME at any `F`: every argument array ends holding its launch contents — the run's last contents read at
    each argument's buffer, which the fold walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c),
     (h c _ (mem_uc main_arg7 (by decide))).trans (W5_main_arg7 m c)⟩) (run_all m ρ)

end Cert.KernelIdeal.Hand

end
-- ==== Proof.Spec.lean ====
/-
  The mathematics both programs compute, index by index, on the extended reals.

  Inputs: x [8192,2048], llr [8192,512], oddw [2048,2048], llrw [512,2048], logit [2048], u [2048,2048],
  mask [2048,2048], skip [512,2048].

  With p(l) = 1/(1+e^(-l)):
    keep  k j = [u k j < p (logit j)]            (0 or 1)
    keepT k j = [u k j > p (-(logit j))]         (0 or 1)
    W1 k j = (mask k j * oddw k j) * keep k j,   W2 k j = (mask k j * oddw k j) * keepT k j
    LW n j = skip n j * llrw n j
    acc_i b j = (sum over k of x b k * W_i k j) + (sum over n of llr b n * LW n j)
    out_i b j = tanh (1/2 * min 10 (max (-10) (acc_i b j)))
    ss r = sum over j of oddw r j * oddw r j
    kl = (0 + sum over r of ((25/2 * p r) * ss r - ((-(p r)) * log (p r) - (1 - p r) * log (1 - p r)))) / 2048
  The float literals are kept as their words (the same word on both sides is never evaluated).
  Only commutativity and associativity of + on the extended reals relate the two programs (a sum over 2048 indices
  against four sums over 512, and the order of the two summands of acc), so no finiteness is used.
-/
import Idealize.ShloMosaic.PureOps.Ideal
import Idealize.ShloMosaic.Lib.ValueIdx

noncomputable section

namespace Cert.Spec

open Idealize.ShloMosaic Idealize.ShloMosaic.ValueIdx

/-- The literals, by their words: 0, 1, 1/2, 10, -10, 25/2, 2048. -/
def zero : EReal := Ideal.ofBits .f32 0x00000000#32
def one : EReal := Ideal.ofBits .f32 0x3F800000#32
def half : EReal := Ideal.ofBits .f32 0x3F000000#32
def ten : EReal := Ideal.ofBits .f32 0x41200000#32
def mten : EReal := Ideal.ofBits .f32 0xC1200000#32
def c125 : EReal := Ideal.ofBits .f32 0x41480000#32
def c2048 : EReal := Ideal.ofBits .f32 0x45000000#32

/-- A comparison's bit as the float 0 or 1. -/
def bit01 (b : BitVec 1) : EReal := ((b.toNat : ℝ) : EReal)

/-- Keep an edge when its noise is below the keep probability p(l) = 1/(1+e^(-l)). -/
def keep (uu l : EReal) : EReal := bit01 (Ideal.cmp .olt uu (Ideal.logistic l))
/-- The antithetic draw: keep when the noise is above p(-l). -/
def keepT (uu l : EReal) : EReal := bit01 (Ideal.cmp .ogt uu (Ideal.logistic (-l)))

abbrev SBE : Shape := ⟨2, ![8192, 2048]⟩
abbrev SBN : Shape := ⟨2, ![8192, 512]⟩
abbrev SEE : Shape := ⟨2, ![2048, 2048]⟩
abbrev SNE : Shape := ⟨2, ![512, 2048]⟩
abbrev SE : Shape := ⟨1, ![2048]⟩

/-- The masked, dropped-out weight matrices. -/
def W1 (oddw mask u : SEE.Idx → EReal) (logit : SE.Idx → EReal) (k j : Fin 2048) : EReal :=
  (mask (ix2 k j) * oddw (ix2 k j)) * keep (u (ix2 k j)) (logit (ix1 j))
def W2 (oddw mask u : SEE.Idx → EReal) (logit : SE.Idx → EReal) (k j : Fin 2048) : EReal :=
  (mask (ix2 k j) * oddw (ix2 k j)) * keepT (u (ix2 k j)) (logit (ix1 j))
/-- The masked channel-value weights. -/
def LW (skip llrw : SNE.Idx → EReal) (n : Fin 512) (j : Fin 2048) : EReal := skip (ix2 n j) * llrw (ix2 n j)

/-- The pre-activation: messages plus the channel term, in the reference's order. -/
def acc (x : SBE.Idx → EReal) (llr : SBN.Idx → EReal) (W : Fin 2048 → Fin 2048 → EReal) (L : Fin 512 → Fin 2048 → EReal)
    (b : Fin 8192) (j : Fin 2048) : EReal :=
  (∑ k : Fin 2048, x (ix2 b k) * W k j) + ∑ n : Fin 512, llr (ix2 b n) * L n j

/-- The clipped half-angle tanh. -/
def act (a : EReal) : EReal := Ideal.tanh (half * min ten (max mten a))

/-- The two outputs, at row b and column j. -/
def out1 (x : SBE.Idx → EReal) (llr : SBN.Idx → EReal) (oddw : SEE.Idx → EReal) (llrw : SNE.Idx → EReal) (logit : SE.Idx → EReal)
    (u mask : SEE.Idx → EReal) (skip : SNE.Idx → EReal) (b : Fin 8192) (j : Fin 2048) : EReal :=
  act (acc x llr (W1 oddw mask u logit) (LW skip llrw) b j)
def out2 (x : SBE.Idx → EReal) (llr : SBN.Idx → EReal) (oddw : SEE.Idx → EReal) (llrw : SNE.Idx → EReal) (logit : SE.Idx → EReal)
    (u mask : SEE.Idx → EReal) (skip : SNE.Idx → EReal) (b : Fin 8192) (j : Fin 2048) : EReal :=
  act (acc x llr (W2 oddw mask u logit) (LW skip llrw) b j)

/-- A row's sum of squares. -/
def ss (oddw : SEE.Idx → EReal) (r : Fin 2048) : EReal := ∑ j : Fin 2048, oddw (ix2 r j) * oddw (ix2 r j)

/-- The keep probability as both host programs spell it. -/
def prob (l : EReal) : EReal := Ideal.div one (one + Ideal.exp (-l))

/-- The regulariser's summand at row r, from the keep probability p and the row's sum of squares s. -/
def klSummand (p s : EReal) : EReal := (c125 * p) * s - ((-p) * Ideal.log p - (one - p) * Ideal.log (one - p))

/-- The regulariser: the mean over the 2048 rows. -/
def kl (logit : SE.Idx → EReal) (s : Fin 2048 → EReal) : EReal :=
  Ideal.div (zero + ∑ r : Fin 2048, klSummand (prob (logit (ix1 r))) (s r)) c2048

end Cert.Spec

end
-- ==== Proof.KI.FoldGlue.lean ====
import proofs.«140457_j29703993819328_1_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! # The fold read at the buffers the two calls and the last host stretch take their operands from

Each lemma walks the fold of boundary contents back from where a buffer is read to where it was last written: a host
stretch leaves every buffer it does not write, a call leaves every buffer that is none of its arrays, and a call's own
array holds what its pipeline leaves there. -/

/-! ## What the first call reads: three arguments, untouched by the first host stretch -/
theorem V1_arg2 (c : Dev nD) : V1 m c main_arg2 = m ((c : Thread nD τ).loc main_arg2) :=
  calc W1 m c (Proc.devRef .tc main_arg2)
    _ = W0 m c (Proc.devRef .tc main_arg2) := StableHlo.after_of_writes_sub hostOps0 _ hostOps0_writes (by decide)
    _ = m ((c : Thread nD τ).loc main_arg2) := rfl
theorem V1_arg6 (c : Dev nD) : V1 m c main_arg6 = m ((c : Thread nD τ).loc main_arg6) :=
  calc W1 m c (Proc.devRef .tc main_arg6)
    _ = W0 m c (Proc.devRef .tc main_arg6) := StableHlo.after_of_writes_sub hostOps0 _ hostOps0_writes (by decide)
    _ = m ((c : Thread nD τ).loc main_arg6) := rfl
theorem V1_arg5 (c : Dev nD) : V1 m c main_arg5 = m ((c : Thread nD τ).loc main_arg5) :=
  calc W1 m c (Proc.devRef .tc main_arg5)
    _ = W0 m c (Proc.devRef .tc main_arg5) := StableHlo.after_of_writes_sub hostOps0 _ hostOps0_writes (by decide)
    _ = m ((c : Thread nD τ).loc main_arg5) := rfl

/-! ## What the second call reads: two arguments as launched, and the first call's two weight matrices as its
    pipeline leaves them (the second host stretch writes none of the four) -/
theorem V3_arg0 (c : Dev nD) : V3 m c main_arg0 = m ((c : Thread nD τ).loc main_arg0) :=
  calc W3 m c (Proc.devRef .tc main_arg0)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem V3_arg1 (c : Dev nD) : V3 m c main_arg1 = m ((c : Thread nD τ).loc main_arg1) :=
  calc W3 m c (Proc.devRef .tc main_arg1)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem V3_v1_0 (c : Dev nD) : V3 m c main_v1_0 = (dat0 (V1 m) c).arrAt 4 cfg0.N :=
  calc W3 m c (Proc.devRef .tc main_v1_0)
    _ = W2 m c (Proc.devRef .tc main_v1_0) := StableHlo.after_of_writes_sub hostOps1 _ hostOps1_writes (by decide)
    _ = (dat0 (V1 m) c).arrAt 4 cfg0.N := W2_arr m c 4
theorem V3_v1_1 (c : Dev nD) : V3 m c main_v1_1 = (dat0 (V1 m) c).arrAt 5 cfg0.N :=
  calc W3 m c (Proc.devRef .tc main_v1_1)
    _ = W2 m c (Proc.devRef .tc main_v1_1) := StableHlo.after_of_writes_sub hostOps1 _ hostOps1_writes (by decide)
    _ = (dat0 (V1 m) c).arrAt 5 cfg0.N := W2_arr m c 5

/-! ## The second call's two results, untouched by the last host stretch -/
theorem W5_v4_0 (c : Dev nD) : W5 m c (Proc.devRef .tc main_v4_0) = (dat1 (V3 m) c).arrAt 5 cfg1.N :=
  calc W5 m c (Proc.devRef .tc main_v4_0)
    _ = W4 m c (Proc.devRef .tc main_v4_0) := StableHlo.after_of_writes_sub hostOps2 _ hostOps2_writes (by decide)
    _ = (dat1 (V3 m) c).arrAt 5 cfg1.N := W4_arr m c 5
theorem W5_v4_1 (c : Dev nD) : W5 m c (Proc.devRef .tc main_v4_1) = (dat1 (V3 m) c).arrAt 6 cfg1.N :=
  calc W5 m c (Proc.devRef .tc main_v4_1)
    _ = W4 m c (Proc.devRef .tc main_v4_1) := StableHlo.after_of_writes_sub hostOps2 _ hostOps2_writes (by decide)
    _ = (dat1 (V3 m) c).arrAt 6 cfg1.N := W4_arr m c 6

/-! ## What the last host stretch reads besides: the first call's row sums as its pipeline leaves them, and the logit
    vector as launched -/
theorem W4_v1_2 (c : Dev nD) : W4 m c (Proc.devRef .tc main_v1_2) = (dat0 (V1 m) c).arrAt 6 cfg0.N :=
  calc W4 m c (Proc.devRef .tc main_v1_2)
    _ = W3 m c (Proc.devRef .tc main_v1_2) := W4_of_ne m c main_v1_2 (by decide)
    _ = W2 m c (Proc.devRef .tc main_v1_2) := StableHlo.after_of_writes_sub hostOps1 _ hostOps1_writes (by decide)
    _ = (dat0 (V1 m) c).arrAt 6 cfg0.N := W2_arr m c 6
theorem W4_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

end Cert.KernelIdeal.Hand

end
-- ==== Proof.KI.HostOps.lean ====
/-
  What the three host stretches of the kernel program compute, over any contents of the buffers they start from.

  The first stretch reshapes the logit vector [2048] to a row [1, 2048]: the row at column q is the vector at q.
  The second multiplies the skip mask by the channel-value weights, entry by entry, and rounds to bf16, which is the
  identity on the extended reals: the product at (n, j) is the specification's masked channel weight.
  The third computes, from the logit vector l and the [2048, 1] column s of row sums of squares,
  (0 + sum over rows r of ((25/2 * p r) * s r - ((-(p r)) * log (p r) - (1 - p r) * log (1 - p r)))) / 2048 with
  p r = 1 / (1 + e^(-(l r))), every literal kept as its word: the specification's regulariser of l and of the column's
  entries. The column reshaped to a vector reads at row r the column at (r, 0); the host's sum into a scalar is its
  initial value plus the sum over the rows.
-/
import proofs.«140457_j29703993819328_1_alg».proof.Proof.Gen.KernelIdeal.Regions
import proofs.«140457_j29703993819328_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
import Idealize.ShloMosaic.Lib.IdealHost

noncomputable section

namespace Cert.KernelIdeal.Hand

open Idealize.ShloMosaic Idealize.ShloMosaic.TcCoe Idealize.SL.Sem
open Idealize.ShloMosaic.StableHlo Idealize.ShloMosaic.ValueIdx
open Cert.KernelIdeal Cert.KernelIdeal.Gen

variable (Wv : Valuation τ sig (Elt Ideal))

/-- After the first host stretch the logit row is the reshape of the logit vector. -/
theorem hostOps0_v0_term :
    (StableHlo.after hostOps0 Wv (Proc.devRef .tc main_v0) : S1x2048.Idx → EReal)
      = shapeCast S1x2048 (Wv (Proc.devRef .tc main_arg4) : S2048.Idx → EReal) shapeCasts_S2048_S1x2048 := by
  after_results
  rfl

/-- The logit row at column q is the logit vector at q: the reshape keeps the row-major position. -/
theorem hostOps0_v0 (q : Fin 2048) :
    (StableHlo.after hostOps0 Wv (Proc.devRef .tc main_v0) : S1x2048.Idx → EReal) (ix2 0 q)
      = (Wv (Proc.devRef .tc main_arg4) : S2048.Idx → EReal) (ix1 q) := by
  rw [hostOps0_v0_term]
  exact shapeCast_a_1a_apply _ _ 0 q

/-- After the second host stretch the channel weights at row n and column j are the product of the skip mask and the
    channel-value weights there (the rounding to bf16 is the identity on the extended reals). -/
theorem hostOps1_v3 (n : Fin 512) (j : Fin 2048) :
    (StableHlo.after hostOps1 Wv (Proc.devRef .tc main_v3) : S512x2048.Idx → EReal) (ix2 n j)
      = Cert.Spec.LW (Wv (Proc.devRef .tc main_arg7)) (Wv (Proc.devRef .tc main_arg3)) n j := by
  after_results
  rfl

/-! ## The last host stretch: the regulariser from the logits and the rows' sums of squares -/

/-- A literal broadcast to the 2048 rows reads the literal's word at every row. -/
theorem bcast_word (w : BitVec 32) (i : S2048.Idx) :
    broadcastInDim S2048 ![] bcast_S_S2048 (constant (F := Ideal) S_ .f32 w) i = Ideal.ofBits .f32 w :=
  (broadcastInDim_apply _ bcast_S_S2048 (constant (F := Ideal) S_ .f32 w) i (fun a => a.elim0) (fun a => a.elim0)).trans rfl

/-- The keep probabilities as the host spells them: 1 / (1 + e^(-l)), row by row. -/
def probVec (l : (⟨S2048, .f32⟩ : BufTy).Contents (Elt Ideal)) : (⟨S2048, .f32⟩ : BufTy).Contents (Elt Ideal) :=
  Host.divf (broadcastInDim S2048 ![] bcast_S_S2048 (constant (F := Ideal) S_ .f32 0x3F800000#32))
    (addf (broadcastInDim S2048 ![] bcast_S_S2048 (constant (F := Ideal) S_ .f32 0x3F800000#32)) (Host.exp (Host.negf l)))

theorem probVec_apply (l : (⟨S2048, .f32⟩ : BufTy).Contents (Elt Ideal)) (r : Fin 2048) :
    probVec l (ix1 r) = Cert.Spec.prob (l (ix1 r)) := by
  show Ideal.div (broadcastInDim S2048 ![] bcast_S_S2048 (constant (F := Ideal) S_ .f32 0x3F800000#32) (ix1 r))
      (broadcastInDim S2048 ![] bcast_S_S2048 (constant (F := Ideal) S_ .f32 0x3F800000#32) (ix1 r) + Ideal.exp (-(l (ix1 r)))) = _
  rw [bcast_word]
  rfl

/-- The regulariser's summands, row by row, from the keep probabilities p and the rows' sums of squares s. -/
def klVec (p s : (⟨S2048, .f32⟩ : BufTy).Contents (Elt Ideal)) : (⟨S2048, .f32⟩ : BufTy).Contents (Elt Ideal) :=
  subf (mulf (mulf (broadcastInDim S2048 ![] bcast_S_S2048 (constant (F := Ideal) S_ .f32 0x41480000#32)) p) s)
    (subf (mulf (Host.negf p) (Host.log p))
      (mulf (subf (broadcastInDim S2048 ![] bcast_S_S2048 (constant (F := Ideal) S_ .f32 0x3F800000#32)) p)
        (Host.log (subf (broadcastInDim S2048 ![] bcast_S_S2048 (constant (F := Ideal) S_ .f32 0x3F800000#32)) p))))

theorem klVec_apply (p s : (⟨S2048, .f32⟩ : BufTy).Contents (Elt Ideal)) (i : S2048.Idx) :
    klVec p s i = Cert.Spec.klSummand (p i) (s i) := by
  show (broadcastInDim S2048 ![] bcast_S_S2048 (constant (F := Ideal) S_ .f32 0x41480000#32) i * p i) * s i
      - ((-(p i)) * Ideal.log (p i)
        - (broadcastInDim S2048 ![] bcast_S_S2048 (constant (F := Ideal) S_ .f32 0x3F800000#32) i - p i)
          * Ideal.log (broadcastInDim S2048 ![] bcast_S_S2048 (constant (F := Ideal) S_ .f32 0x3F800000#32) i - p i)) = _
  rw [bcast_word, bcast_word]
  rfl

/-- The host's sum of a 2048-vector into a scalar is the initial value plus the sum over the rows. -/
theorem reduce_rows (y : FVec Ideal S2048 .f32) (v : FVec Ideal S_ .f32) (i : S_.Idx) :
    Host.reduceAdd (F := Ideal) (φ := .f32) y v reducesTo_S2048_S_d0 h_S_ i = v (Shape.Idx.first h_S_) + ∑ j : S2048.Idx, y j := by
  simp only [Host.reduceAdd, Ideal.hostReduceAdd_def]
  exact Ideal.hostReduceAdd_total reducesTo_S2048_S_d0 (fun b => b.elim0) y _ i

/-- A sum over the one-axis index set of extent 2048 is the sum over its coordinate. -/
def rowEquiv : (⟨1, ![2048]⟩ : Shape).Idx ≃ Fin 2048 where
  toFun i := i 0
  invFun r := ix1 r
  left_inv i := (eq_ix1 i).symm
  right_inv _ := rfl
theorem sum_rows (f : S2048.Idx → EReal) : ∑ i, f i = ∑ r : Fin 2048, f (ix1 r) :=
  (Equiv.sum_comp rowEquiv.symm f).symm

/-- A [2048, 1] column reshaped to a vector reads, at row r, the column at (r, 0). -/
theorem column_apply (x : S2048x1.Idx → EReal) (r : Fin 2048) :
    shapeCast S2048 x shapeCasts_S2048x1_S2048 (ix1 r) = x (ix2 r 0) :=
  shapeCast_apply x shapeCasts_S2048x1_S2048 _ _ (by
    rw [Shape.rowMajor_val_two, Shape.rowMajor_val_one]
    show r.val * 1 + 0 = r.val
    omega)

/-- The scalar the last host stretch computes from a logit vector l and a column s of row sums of squares. -/
def klTail (l : (⟨S2048, .f32⟩ : BufTy).Contents (Elt Ideal)) (s : (⟨S2048x1, .f32⟩ : BufTy).Contents (Elt Ideal)) :
    (⟨S_, .f32⟩ : BufTy).Contents (Elt Ideal) :=
  Host.divf (Host.reduceAdd (klVec (probVec l) (shapeCast S2048 s shapeCasts_S2048x1_S2048))
    (constant (F := Ideal) S_ .f32 0x00000000#32) reducesTo_S2048_S_d0 h_S_) (constant (F := Ideal) S_ .f32 0x45000000#32)

/-- That scalar is the specification's regulariser of the logits and the column's entries. -/
theorem klTail_eq (l : (⟨S2048, .f32⟩ : BufTy).Contents (Elt Ideal)) (s : (⟨S2048x1, .f32⟩ : BufTy).Contents (Elt Ideal)) :
    klTail l s = fun _ => Cert.Spec.kl l (fun r => s (ix2 r 0)) := by
  funext i
  show Ideal.div (Host.reduceAdd (F := Ideal) (klVec (probVec l) (shapeCast S2048 s shapeCasts_S2048x1_S2048))
      (constant (F := Ideal) S_ .f32 0x00000000#32) reducesTo_S2048_S_d0 h_S_ i) (Ideal.ofBits .f32 0x45000000#32) = _
  rw [reduce_rows, sum_rows]
  simp only [klVec_apply, probVec_apply, column_apply]
  rfl

set_option maxHeartbeats 1600000 in
/-- After the last host stretch the scalar result is the regulariser of the logit vector and the column of row sums of
    squares as the stretch finds them. -/
theorem hostOps2_v27 :
    (StableHlo.after hostOps2 Wv (Proc.devRef .tc main_v27) : S_.Idx → EReal)
      = fun _ => Cert.Spec.kl (Wv (Proc.devRef .tc main_arg4))
          (fun r => (Wv (Proc.devRef .tc main_v1_2) : S2048x1.Idx → EReal) (ix2 r 0)) := by
  refine Eq.trans ?_ (klTail_eq (Wv (Proc.devRef .tc main_arg4)) (Wv (Proc.devRef .tc main_v1_2)))
  after_results_simp
  rfl

end Cert.KernelIdeal.Hand

end
-- ==== Proof.KI.HostGlue.lean ====
/-
  The host-side glue of the kernel program: what each call finds in the buffers a host stretch wrote or left alone,
  and what the launch returns, read back to the launch memory and to the arrays the two calls leave.

  No host stretch writes an argument, and a call changes only its output windows' arrays, so every argument a call
  or a later stretch reads is still the launch memory's. The first call's logit row is the reshaped logit vector; the
  second call's channel weights are the skip mask times the channel-value weights; its two weight matrices are what
  the first call left in its fourth and fifth windows. The launch returns the second call's two output arrays and
  the regulariser of the launch logits and the first call's column of row sums of squares.
-/
import proofs.«140457_j29703993819328_1_alg».proof.Proof.KI.Run
import proofs.«140457_j29703993819328_1_alg».proof.Proof.KI.HostOps

noncomputable section

namespace Cert.KernelIdeal.Hand

open Idealize.ShloMosaic Idealize.ShloMosaic.TcCoe Idealize.SL.Sem
open Idealize.ShloMosaic.StableHlo Idealize.ShloMosaic.ValueIdx
open Cert.KernelIdeal Cert.KernelIdeal.Gen

variable (m : (ℓ : Loc nD τ sig) → Buf (Elt Ideal) ℓ) (c : Dev nD)

/-! ## The first call's logit row -/

/-- The logit row the first call reads, at column q, is the launch logit vector at q. -/
theorem V1_v0 (q : Fin 2048) :
    (V1 m c main_v0 : S1x2048.Idx → EReal) (ix2 0 q) = (m ((c : Thread nD τ).loc main_arg4) : S2048.Idx → EReal) (ix1 q) :=
  hostOps0_v0 (W0 m c) q

/-! ## The second call's channel weights -/

/-- The skip mask is no array of the first call and no host stretch before it writes it: at the first call's exit it is
    as launched. -/
theorem W2_read_arg7 : W2 m c (Proc.devRef .tc main_arg7) = m ((c : Thread nD τ).loc main_arg7) :=
  (W2_of_ne m c main_arg7 (by decide)).trans (StableHlo.after_of_writes_sub hostOps0 _ hostOps0_writes (by decide))
/-- The channel-value weights likewise. -/
theorem W2_read_arg3 : W2 m c (Proc.devRef .tc main_arg3) = m ((c : Thread nD τ).loc main_arg3) :=
  (W2_of_ne m c main_arg3 (by decide)).trans (StableHlo.after_of_writes_sub hostOps0 _ hostOps0_writes (by decide))

/-- The second call's channel weights at row n and column j: the launch skip mask times the launch channel-value
    weights there. -/
theorem V3_v3 (n : Fin 512) (j : Fin 2048) :
    (V3 m c main_v3 : S512x2048.Idx → EReal) (ix2 n j)
      = Cert.Spec.LW (m ((c : Thread nD τ).loc main_arg7)) (m ((c : Thread nD τ).loc main_arg3)) n j := by
  refine (hostOps1_v3 (W2 m c) n j).trans ?_
  rw [W2_read_arg7 m c, W2_read_arg3 m c]

/-! ## The scalar the launch returns -/

/-- The scalar result is the regulariser of the logit vector and the column of row sums of squares as the second
    call leaves them. -/
theorem W5_v27_at_exit :
    (W5 m c (Proc.devRef .tc main_v27) : S_.Idx → EReal)
      = fun _ => Cert.Spec.kl (W4 m c (Proc.devRef .tc main_arg4))
          (fun r => (W4 m c (Proc.devRef .tc main_v1_2) : S2048x1.Idx → EReal) (ix2 r 0)) :=
  hostOps2_v27 (W4 m c)

/-- The same once those two buffers are read back: the logit vector to any l, the column to any s. -/
theorem W5_v27_of (l : (⟨S2048, .f32⟩ : BufTy).Contents (Elt Ideal)) (s : (⟨S2048x1, .f32⟩ : BufTy).Contents (Elt Ideal))
    (hl : W4 m c (Proc.devRef .tc main_arg4) = l) (hs : W4 m c (Proc.devRef .tc main_v1_2) = s) :
    (W5 m c (Proc.devRef .tc main_v27) : S_.Idx → EReal) = fun _ => Cert.Spec.kl l (fun r => s (ix2 r 0)) := by
  refine (hostOps2_v27 (W4 m c)).trans ?_
  rw [hl, hs]

/-- The logit vector reaches the last host stretch as launched: no stretch writes it and it is no array of either call. -/
theorem W4_read_arg4 : W4 m c (Proc.devRef .tc main_arg4) = m ((c : Thread nD τ).loc main_arg4) :=
  (W4_of_ne m c main_arg4 (by decide)).trans
    ((StableHlo.after_of_writes_sub hostOps1 _ hostOps1_writes (by decide)).trans
      ((W2_of_ne m c main_arg4 (by decide)).trans (StableHlo.after_of_writes_sub hostOps0 _ hostOps0_writes (by decide))))
/-- The column of row sums of squares reaches the last host stretch as the first call left it in its seventh window's
    array: the second stretch does not write it and it is no array of the second call. -/
theorem W4_read_v1_2 : W4 m c (Proc.devRef .tc main_v1_2) = (dat0 (V1 m) c).arrAt 6 cfg0.N :=
  (W4_of_ne m c main_v1_2 (by decide)).trans
    ((StableHlo.after_of_writes_sub hostOps1 _ hostOps1_writes (by decide)).trans (W2_arr m c 6))

/-- The scalar result is the regulariser of the launch logits and the first call's column of row sums of squares. -/
theorem W5_v27 :
    (W5 m c (Proc.devRef .tc main_v27) : S_.Idx → EReal)
      = fun _ => Cert.Spec.kl (m ((c : Thread nD τ).loc main_arg4))
          (fun r => ((dat0 (V1 m) c).arrAt 6 cfg0.N : S2048x1.Idx → EReal) (ix2 r 0)) :=
  W5_v27_of m c _ _ (W4_read_arg4 m c) (W4_read_v1_2 m c)

end Cert.KernelIdeal.Hand

end
-- ==== Proof.KI.Region0Value.lean ====
import proofs.«140457_j29703993819328_1_alg».proof.Proof.KI.Region0
import proofs.«140457_j29703993819328_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

/-! # What region 0 computes, element by element, on the extended reals -/

/-! ## The three payloads at an index of a block -/

/-- A comparison's bit, widened to 32 bits and read as a signed integer, is the float 0 or 1. -/
theorem sitofp_extui_bit (b : BitVec 1) :
    (FloatOps.sitofp (F := Ideal) .f32 (b.setWidth 32) : EReal) = Cert.Spec.bit01 b := by
  have h : (b.setWidth 32).toInt = (b.toNat : ℤ) := by
    rcases BitVec.eq_zero_or_eq_one b with h | h <;> subst h <;> decide
  show (((b.setWidth 32).toInt : ℝ) : EReal) = ((b.toNat : ℝ) : EReal)
  rw [h, Int.cast_natCast]

/-- The logit row, after the kernel's trivial cast, read at column `q` of any row of its broadcast. -/
theorem logit_row_apply (f : EReal → EReal) (v0 : Vec Ideal S1x2048 .f32) (p : Fin 512) (q : Fin 2048) :
    broadcastTo S512x2048 (fun i => f (k0_pay1 v0 i)) broadcasts_S1x2048_S512x2048 (ix2 p q) = f (v0 (ix2 (0 : Fin 1) q)) := by
  refine (broadcastTo_1b_ab_apply _ _ p q).trans ?_
  show f (shapeCast S1x2048 v0 shapeCasts_S1x2048_S1x2048 (ix2 (0 : Fin 1) q)) = _
  rw [shapeCast_self]

/-- The first weight band at row `p`, column `q` of a block: mask times weight, kept where the noise is below the keep
    probability of the column's logit. -/
theorem k0_pay3_apply (v0 : Vec Ideal S1x2048 .f32) (v6 v15 v16 : Vec Ideal S512x2048 .f32) (p : Fin 512) (q : Fin 2048) :
    (k0_pay3 v0 v6 v15 v16 (ix2 p q) : EReal)
      = (v16 (ix2 p q) * v15 (ix2 p q)) * Cert.Spec.keep (v6 (ix2 p q)) (v0 (ix2 (0 : Fin 1) q)) := by
  unfold k0_pay3 k0_pay2 Cert.Spec.keep
  show (v16 (ix2 p q) * v15 (ix2 p q)) * (FloatOps.sitofp (F := Ideal) .f32
      ((Ideal.cmp .olt (v6 (ix2 p q)) (broadcastTo S512x2048 (fun i => Ideal.logistic (k0_pay1 v0 i)) broadcasts_S1x2048_S512x2048 (ix2 p q))).setWidth 32) : EReal) = _
  rw [sitofp_extui_bit, logit_row_apply Ideal.logistic]

/-- The second weight band: the antithetic draw, kept where the noise is above the keep probability of the negated logit. -/
theorem k0_pay4_apply (v0 : Vec Ideal S1x2048 .f32) (v6 v15 v16 : Vec Ideal S512x2048 .f32) (p : Fin 512) (q : Fin 2048) :
    (k0_pay4 v0 v6 v15 v16 (ix2 p q) : EReal)
      = (v16 (ix2 p q) * v15 (ix2 p q)) * Cert.Spec.keepT (v6 (ix2 p q)) (v0 (ix2 (0 : Fin 1) q)) := by
  unfold k0_pay4 k0_pay2 Cert.Spec.keepT
  show (v16 (ix2 p q) * v15 (ix2 p q)) * (FloatOps.sitofp (F := Ideal) .f32
      ((Ideal.cmp .ogt (v6 (ix2 p q)) (broadcastTo S512x2048 (fun i => Ideal.logistic (Ideal.ofBits .f32 0x00000000#32 - k0_pay1 v0 i)) broadcasts_S1x2048_S512x2048 (ix2 p q))).setWidth 32) : EReal) = _
  rw [sitofp_extui_bit, logit_row_apply (fun x => Ideal.logistic (Ideal.ofBits .f32 0x00000000#32 - x)), Ideal.ofBits_zero_f32, zero_sub]

/-- The source index over row `p` with column `k` put back on the summed axis. -/
theorem lift_row0 (p : Fin 512) (k : Fin 2048) :
    reduces_S512x2048_S512.lift (ix1 p) k = ix2 p k := by
  funext c
  apply Fin.ext
  match c with
  | ⟨0, _⟩ => rfl
  | ⟨1, _⟩ => rfl

/-- A sum over one axis from the zero word, at a row. -/
theorem lane_sum0_apply (src : FVec Ideal S512x2048 .f32) (hφ : FKind.Formats FTy.f32)
    (hacc : (0x00000000#32 : BitVec 32) = 0x00000000#32) (p : Fin 512) :
    multiReduction (F := Ideal) .add [1] S512 src 0x00000000#32 reduces_S512x2048_S512 hφ hacc (ix1 p)
      = ∑ k : Fin 2048, src (ix2 p k) := by
  refine (Ideal.multiReduction_add_single src 0x00000000#32 reduces_S512x2048_S512 hφ hacc (ix1 p)).trans ?_
  exact Finset.sum_congr rfl fun k _ => congrArg src (lift_row0 p k)

/-- A vector of `a` entries cast to one column reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The band's row sums of squares at row `p`. -/
theorem k0_pay5_apply (v15 : Vec Ideal S512x2048 .f32) (p : Fin 512) (u : Fin 1) :
    (k0_pay5 v15 (ix2 p u) : EReal) = ∑ k : Fin 2048, v15 (ix2 p k) * v15 (ix2 p k) := by
  unfold k0_pay5
  refine (shapeCast_a_a1_apply _ shapeCasts_S512_S512x1 p u).trans ?_
  exact lane_sum0_apply (mulf v15 v15) _ _ p

/-! ## The blocks as bands of the arrays -/

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the four points: every banded window's block is band `t` from column 0; the logit
    row's one block is the whole row. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Window 0's block at point `t` is rows `512 t … 512 t + 511` of its array, all columns. -/
theorem iblk0_0_apply (c : Dev nD) (t : Fin cfg0.N) (x : S512x2048.Idx) (k0 k1 : Fin 2048)
    (hk0 : k0.val = 512 * t.val + (x 0).val) (hk1 : k1.val = (x 1).val) :
    (iblk0 V c 0 t : Vec Ideal S512x2048 .f32) x = (V c main_arg2 : S2048x2048.Idx → EReal) (ix2 k0 k1) := by
  obtain ⟨e00, e01, e10, e11, e20, e21, e30, e31, e40, e41, e50, e51, e60, e61⟩ := idx_facts0 t
  unfold iblk0
  rw [View.read_apply]
  show V c main_arg2 _ = V c main_arg2 _
  congr 1
  funext a
  apply Fin.ext
  match a with
  | ⟨0, _⟩ => show win0_0.index t (0 : Fin 2) * 512 + 1 * (x 0).val = k0.val; omega
  | ⟨1, _⟩ => show win0_0.index t (1 : Fin 2) * 2048 + 1 * (x 1).val = k1.val; omega

/-- Window 1's block at point `t` is rows `512 t … 512 t + 511` of its array, all columns. -/
theorem iblk0_1_apply (c : Dev nD) (t : Fin cfg0.N) (x : S512x2048.Idx) (k0 k1 : Fin 2048)
    (hk0 : k0.val = 512 * t.val + (x 0).val) (hk1 : k1.val = (x 1).val) :
    (iblk0 V c 1 t : Vec Ideal S512x2048 .f32) x = (V c main_arg6 : S2048x2048.Idx → EReal) (ix2 k0 k1) := by
  obtain ⟨e00, e01, e10, e11, e20, e21, e30, e31, e40, e41, e50, e51, e60, e61⟩ := idx_facts0 t
  unfold iblk0
  rw [View.read_apply]
  show V c main_arg6 _ = V c main_arg6 _
  congr 1
  funext a
  apply Fin.ext
  match a with
  | ⟨0, _⟩ => show win0_1.index t (0 : Fin 2) * 512 + 1 * (x 0).val = k0.val; omega
  | ⟨1, _⟩ => show win0_1.index t (1 : Fin 2) * 2048 + 1 * (x 1).val = k1.val; omega

/-- Window 2's block at point `t` is rows `512 t … 512 t + 511` of its array, all columns. -/
theorem iblk0_2_apply (c : Dev nD) (t : Fin cfg0.N) (x : S512x2048.Idx) (k0 k1 : Fin 2048)
    (hk0 : k0.val = 512 * t.val + (x 0).val) (hk1 : k1.val = (x 1).val) :
    (iblk0 V c 2 t : Vec Ideal S512x2048 .f32) x = (V c main_arg5 : S2048x2048.Idx → EReal) (ix2 k0 k1) := by
  obtain ⟨e00, e01, e10, e11, e20, e21, e30, e31, e40, e41, e50, e51, e60, e61⟩ := idx_facts0 t
  unfold iblk0
  rw [View.read_apply]
  show V c main_arg5 _ = V c main_arg5 _
  congr 1
  funext a
  apply Fin.ext
  match a with
  | ⟨0, _⟩ => show win0_2.index t (0 : Fin 2) * 512 + 1 * (x 0).val = k0.val; omega
  | ⟨1, _⟩ => show win0_2.index t (1 : Fin 2) * 2048 + 1 * (x 1).val = k1.val; omega

/-- The logit row's block at every point is the row itself. -/
theorem iblk0_3_apply (c : Dev nD) (t : Fin cfg0.N) (x : S1x2048.Idx) :
    (iblk0 V c 3 t : Vec Ideal S1x2048 .f32) x = (V c main_v0 : S1x2048.Idx → EReal) x := by
  obtain ⟨e00, e01, e10, e11, e20, e21, e30, e31, e40, e41, e50, e51, e60, e61⟩ := idx_facts0 t
  unfold iblk0
  rw [View.read_apply]
  show V c main_v0 _ = V c main_v0 _
  congr 1
  funext a
  apply Fin.ext
  match a with
  | ⟨0, _⟩ => show win0_3.index t (0 : Fin 2) * 1 + 1 * (x 0).val = (x 0).val; omega
  | ⟨1, _⟩ => show win0_3.index t (1 : Fin 2) * 2048 + 1 * (x 1).val = (x 1).val; omega

/-! ## The first weight matrix -/

/-- An element of the first weight band at point `t`, as the masked, dropped-out weight at its place in the matrix. -/
theorem elem0_4 (c : Dev nD) (t : Fin cfg0.N) (l : S2048.Idx → EReal)
    (hl : ∀ q : Fin 2048, (V c main_v0 : S1x2048.Idx → EReal) (ix2 (0 : Fin 1) q) = l (ix1 q))
    (p : Fin 512) (q : Fin 2048) (k0 k1 : Fin 2048) (hk0 : k0.val = 512 * t.val + p.val) (hk1 : k1.val = q.val) :
    (k0_pay3 (iblk0 V c 3 t) (iblk0 V c 2 t) (iblk0 V c 0 t) (iblk0 V c 1 t) (ix2 p q) : EReal)
      = Cert.Spec.W1 (V c main_arg2) (V c main_arg6) (V c main_arg5) l k0 k1 := by
  obtain rfl : k1 = q := Fin.ext hk1
  refine (k0_pay3_apply (iblk0 V c 3 t) (iblk0 V c 2 t) (iblk0 V c 0 t) (iblk0 V c 1 t) p k1).trans ?_
  unfold Cert.Spec.W1
  rw [iblk0_0_apply V c t (ix2 p k1) k0 k1 hk0 rfl, iblk0_1_apply V c t (ix2 p k1) k0 k1 hk0 rfl,
    iblk0_2_apply V c t (ix2 p k1) k0 k1 hk0 rfl, iblk0_3_apply V c t (ix2 (0 : Fin 1) k1), hl k1]

/-- What point `t` writes back to the array is band `t` of that function of the region's inputs. -/
theorem flushed0_4_eq (c : Dev nD) (t : Fin cfg0.N) (l : S2048.Idx → EReal)
    (hl : ∀ q : Fin 2048, (V c main_v0 : S1x2048.Idx → EReal) (ix2 (0 : Fin 1) q) = l (ix1 q)) :
    (dat0 (F := Ideal) V c).flushed 4 t = ((cfg0.win 4).blk t).view.read (Elt Ideal)
      (fun i : S2048x2048.Idx => Cert.Spec.W1 (V c main_arg2) (V c main_arg6) (V c main_arg5) l (i 0) (i 1)) := by
  obtain ⟨e00, e01, e10, e11, e20, e21, e30, e31, e40, e41, e50, e51, e60, e61⟩ := idx_facts0 t
  show (cfg0.win 4).cut (grid0.coords t) ((dat0 V c).after 4 t) = _
  rw [after0_4]
  unfold out0_4
  rw [View.canon_unit_zero hz0]
  simp only [View.ld_unit_zero (S := S512x2048) hz0, View.ld_unit_zero (S := S1x2048) hz0]
  funext j
  obtain ⟨p, q, rfl⟩ : ∃ (p : Fin 512) (q : Fin 2048), j = ix2 p q := ⟨j 0, j 1, eq_ix2 j⟩
  rw [View.read_apply]
  refine elem0_4 V c t l hl p q _ _ ?_ ?_
  · show win0_4.index t (0 : Fin 2) * 512 + 1 * p.val = 512 * t.val + p.val; omega
  · show win0_4.index t (1 : Fin 2) * 2048 + 1 * q.val = q.val; omega

/-- An index of the array is in point `t`'s block iff each coordinate is in the block's range on its axis. -/
theorem mem_blk0_4 (t : Fin cfg0.N) (i : S2048x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v1_0).slice (win0_4.rect t)).set ↔ _
  rw [View.set_slice_whole, Rect.mem_set_unit]
  exact Iff.rfl

/-- Every row lies in the band of the point `row / 512`. -/
theorem covered0_4 (i : S2048x2048.Idx) : ∃ t : Fin cfg0.N, (cfg0.win 4).flush t = true ∧ i ∈ ((cfg0.win 4).blk t).view.set := by
  have hi0 : (i 0).val < 2048 := (i 0).isLt
  have hi1 : (i 1).val < 2048 := (i 1).isLt
  have hN : cfg0.N = 4 := N_0
  have ht : (i 0).val / 512 < cfg0.N := by rw [hN]; omega
  obtain ⟨e00, e01, e10, e11, e20, e21, e30, e31, e40, e41, e50, e51, e60, e61⟩ := idx_facts0 ⟨(i 0).val / 512, ht⟩
  refine ⟨⟨(i 0).val / 512, ht⟩, flush0_4 _, ?_⟩
  rw [mem_blk0_4]
  intro a
  match a with
  | ⟨0, _⟩ =>
    show win0_4.index ⟨(i 0).val / 512, ht⟩ (0 : Fin 2) * 512 ≤ (i 0).val ∧ (i 0).val < win0_4.index ⟨(i 0).val / 512, ht⟩ (0 : Fin 2) * 512 + 512
    rw [e40]; show (i 0).val / 512 * 512 ≤ (i 0).val ∧ (i 0).val < (i 0).val / 512 * 512 + 512; omega
  | ⟨1, _⟩ =>
    show win0_4.index ⟨(i 0).val / 512, ht⟩ (1 : Fin 2) * 2048 ≤ (i 1).val ∧ (i 1).val < win0_4.index ⟨(i 0).val / 512, ht⟩ (1 : Fin 2) * 2048 + 2048
    rw [e41]; omega

/-- The array after the region. -/
theorem arr0_4 (c : Dev nD) (l : S2048.Idx → EReal)
    (hl : ∀ q : Fin 2048, (V c main_v0 : S1x2048.Idx → EReal) (ix2 (0 : Fin 1) q) = l (ix1 q)) :
    ((dat0 (F := Ideal) V c).arrAt 4 cfg0.N : S2048x2048.Idx → EReal)
      = fun i => Cert.Spec.W1 (V c main_arg2) (V c main_arg6) (V c main_arg5) l (i 0) (i 1) :=
  (dat0 (F := Ideal) V c).arrAt_eq_of_cover 4 _ (fun t _ => flushed0_4_eq V c t l hl) covered0_4

/-! ## The second weight matrix -/

/-- An element of the second weight band at point `t`, likewise with the antithetic draw. -/
theorem elem0_5 (c : Dev nD) (t : Fin cfg0.N) (l : S2048.Idx → EReal)
    (hl : ∀ q : Fin 2048, (V c main_v0 : S1x2048.Idx → EReal) (ix2 (0 : Fin 1) q) = l (ix1 q))
    (p : Fin 512) (q : Fin 2048) (k0 k1 : Fin 2048) (hk0 : k0.val = 512 * t.val + p.val) (hk1 : k1.val = q.val) :
    (k0_pay4 (iblk0 V c 3 t) (iblk0 V c 2 t) (iblk0 V c 0 t) (iblk0 V c 1 t) (ix2 p q) : EReal)
      = Cert.Spec.W2 (V c main_arg2) (V c main_arg6) (V c main_arg5) l k0 k1 := by
  obtain rfl : k1 = q := Fin.ext hk1
  refine (k0_pay4_apply (iblk0 V c 3 t) (iblk0 V c 2 t) (iblk0 V c 0 t) (iblk0 V c 1 t) p k1).trans ?_
  unfold Cert.Spec.W2
  rw [iblk0_0_apply V c t (ix2 p k1) k0 k1 hk0 rfl, iblk0_1_apply V c t (ix2 p k1) k0 k1 hk0 rfl,
    iblk0_2_apply V c t (ix2 p k1) k0 k1 hk0 rfl, iblk0_3_apply V c t (ix2 (0 : Fin 1) k1), hl k1]

/-- What point `t` writes back to the array is band `t` of that function of the region's inputs. -/
theorem flushed0_5_eq (c : Dev nD) (t : Fin cfg0.N) (l : S2048.Idx → EReal)
    (hl : ∀ q : Fin 2048, (V c main_v0 : S1x2048.Idx → EReal) (ix2 (0 : Fin 1) q) = l (ix1 q)) :
    (dat0 (F := Ideal) V c).flushed 5 t = ((cfg0.win 5).blk t).view.read (Elt Ideal)
      (fun i : S2048x2048.Idx => Cert.Spec.W2 (V c main_arg2) (V c main_arg6) (V c main_arg5) l (i 0) (i 1)) := by
  obtain ⟨e00, e01, e10, e11, e20, e21, e30, e31, e40, e41, e50, e51, e60, e61⟩ := idx_facts0 t
  show (cfg0.win 5).cut (grid0.coords t) ((dat0 V c).after 5 t) = _
  rw [after0_5]
  unfold out0_5
  rw [View.canon_unit_zero hz0]
  simp only [View.ld_unit_zero (S := S512x2048) hz0, View.ld_unit_zero (S := S1x2048) hz0]
  funext j
  obtain ⟨p, q, rfl⟩ : ∃ (p : Fin 512) (q : Fin 2048), j = ix2 p q := ⟨j 0, j 1, eq_ix2 j⟩
  rw [View.read_apply]
  refine elem0_5 V c t l hl p q _ _ ?_ ?_
  · show win0_5.index t (0 : Fin 2) * 512 + 1 * p.val = 512 * t.val + p.val; omega
  · show win0_5.index t (1 : Fin 2) * 2048 + 1 * q.val = q.val; omega

/-- An index of the array is in point `t`'s block iff each coordinate is in the block's range on its axis. -/
theorem mem_blk0_5 (t : Fin cfg0.N) (i : S2048x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v1_1).slice (win0_5.rect t)).set ↔ _
  rw [View.set_slice_whole, Rect.mem_set_unit]
  exact Iff.rfl

/-- Every row lies in the band of the point `row / 512`. -/
theorem covered0_5 (i : S2048x2048.Idx) : ∃ t : Fin cfg0.N, (cfg0.win 5).flush t = true ∧ i ∈ ((cfg0.win 5).blk t).view.set := by
  have hi0 : (i 0).val < 2048 := (i 0).isLt
  have hi1 : (i 1).val < 2048 := (i 1).isLt
  have hN : cfg0.N = 4 := N_0
  have ht : (i 0).val / 512 < cfg0.N := by rw [hN]; omega
  obtain ⟨e00, e01, e10, e11, e20, e21, e30, e31, e40, e41, e50, e51, e60, e61⟩ := idx_facts0 ⟨(i 0).val / 512, ht⟩
  refine ⟨⟨(i 0).val / 512, ht⟩, flush0_5 _, ?_⟩
  rw [mem_blk0_5]
  intro a
  match a with
  | ⟨0, _⟩ =>
    show win0_5.index ⟨(i 0).val / 512, ht⟩ (0 : Fin 2) * 512 ≤ (i 0).val ∧ (i 0).val < win0_5.index ⟨(i 0).val / 512, ht⟩ (0 : Fin 2) * 512 + 512
    rw [e50]; show (i 0).val / 512 * 512 ≤ (i 0).val ∧ (i 0).val < (i 0).val / 512 * 512 + 512; omega
  | ⟨1, _⟩ =>
    show win0_5.index ⟨(i 0).val / 512, ht⟩ (1 : Fin 2) * 2048 ≤ (i 1).val ∧ (i 1).val < win0_5.index ⟨(i 0).val / 512, ht⟩ (1 : Fin 2) * 2048 + 2048
    rw [e51]; omega

/-- The array after the region. -/
theorem arr0_5 (c : Dev nD) (l : S2048.Idx → EReal)
    (hl : ∀ q : Fin 2048, (V c main_v0 : S1x2048.Idx → EReal) (ix2 (0 : Fin 1) q) = l (ix1 q)) :
    ((dat0 (F := Ideal) V c).arrAt 5 cfg0.N : S2048x2048.Idx → EReal)
      = fun i => Cert.Spec.W2 (V c main_arg2) (V c main_arg6) (V c main_arg5) l (i 0) (i 1) :=
  (dat0 (F := Ideal) V c).arrAt_eq_of_cover 5 _ (fun t _ => flushed0_5_eq V c t l hl) covered0_5

/-! ## The row sums of squares -/

/-- A row's sum of squares in band `t`, as the sum over the matrix's row. -/
theorem elem0_6 (c : Dev nD) (t : Fin cfg0.N) (p : Fin 512) (u : Fin 1) (k0 : Fin 2048) (hk0 : k0.val = 512 * t.val + p.val) :
    (k0_pay5 (iblk0 V c 0 t) (ix2 p u) : EReal) = Cert.Spec.ss (V c main_arg2) k0 := by
  refine (k0_pay5_apply (iblk0 V c 0 t) p u).trans ?_
  unfold Cert.Spec.ss
  refine Finset.sum_congr rfl fun k _ => ?_
  rw [iblk0_0_apply V c t (ix2 p k) k0 k hk0 rfl]

theorem flushed0_6_eq (c : Dev nD) (t : Fin cfg0.N) :
    (dat0 (F := Ideal) V c).flushed 6 t = ((cfg0.win 6).blk t).view.read (Elt Ideal)
      (fun i : S2048x1.Idx => Cert.Spec.ss (V c main_arg2) (i 0)) := by
  obtain ⟨e00, e01, e10, e11, e20, e21, e30, e31, e40, e41, e50, e51, e60, e61⟩ := idx_facts0 t
  show (cfg0.win 6).cut (grid0.coords t) ((dat0 V c).after 6 t) = _
  rw [after0_6]
  unfold out0_6
  rw [View.canon_unit_zero hz0]
  simp only [View.ld_unit_zero (S := S512x2048) hz0]
  funext j
  obtain ⟨p, u, rfl⟩ : ∃ (p : Fin 512) (u : Fin 1), j = ix2 p u := ⟨j 0, j 1, eq_ix2 j⟩
  rw [View.read_apply]
  refine elem0_6 V c t p u _ ?_
  show win0_6.index t (0 : Fin 2) * 512 + 1 * p.val = 512 * t.val + p.val; omega

theorem mem_blk0_6 (t : Fin cfg0.N) (i : S2048x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v1_2).slice (win0_6.rect t)).set ↔ _
  rw [View.set_slice_whole, Rect.mem_set_unit]
  exact Iff.rfl

theorem covered0_6 (i : S2048x1.Idx) : ∃ t : Fin cfg0.N, (cfg0.win 6).flush t = true ∧ i ∈ ((cfg0.win 6).blk t).view.set := by
  have hi0 : (i 0).val < 2048 := (i 0).isLt
  have hi1 : (i 1).val < 1 := (i 1).isLt
  have hN : cfg0.N = 4 := N_0
  have ht : (i 0).val / 512 < cfg0.N := by rw [hN]; omega
  obtain ⟨e00, e01, e10, e11, e20, e21, e30, e31, e40, e41, e50, e51, e60, e61⟩ := idx_facts0 ⟨(i 0).val / 512, ht⟩
  refine ⟨⟨(i 0).val / 512, ht⟩, flush0_6 _, ?_⟩
  rw [mem_blk0_6]
  intro a
  match a with
  | ⟨0, _⟩ =>
    show win0_6.index ⟨(i 0).val / 512, ht⟩ (0 : Fin 2) * 512 ≤ (i 0).val ∧ (i 0).val < win0_6.index ⟨(i 0).val / 512, ht⟩ (0 : Fin 2) * 512 + 512
    rw [e60]; show (i 0).val / 512 * 512 ≤ (i 0).val ∧ (i 0).val < (i 0).val / 512 * 512 + 512; omega
  | ⟨1, _⟩ =>
    show win0_6.index ⟨(i 0).val / 512, ht⟩ (1 : Fin 2) * 1 ≤ (i 1).val ∧ (i 1).val < win0_6.index ⟨(i 0).val / 512, ht⟩ (1 : Fin 2) * 1 + 1
    rw [e61]; omega

theorem arr0_6 (c : Dev nD) :
    ((dat0 (F := Ideal) V c).arrAt 6 cfg0.N : S2048x1.Idx → EReal) = fun i => Cert.Spec.ss (V c main_arg2) (i 0) :=
  (dat0 (F := Ideal) V c).arrAt_eq_of_cover 6 _ (fun t _ => flushed0_6_eq V c t) covered0_6

end Cert.KernelIdeal.Hand

end
-- ==== Proof.KI.R1Acc.lean ====
import proofs.«140457_j29703993819328_1_alg».proof.Proof.Gen.KernelIdeal.Launch
import proofs.«140457_j29703993819328_1_alg».proof.Proof.Gen.KernelIdeal.Skeleton
import proofs.«140457_j29703993819328_1_alg».proof.Proof.Gen.KernelIdeal.Points
import proofs.«140457_j29703993819328_1_alg».proof.Proof.KI.Region1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

theorem hz : (![0, 0] : Fin 2 → Nat) = fun _ => 0 := funext fun a => by fin_cases a <;> rfl

/-! # Region 1: the accumulators in closed form

At k = 0 an accumulator is reset to the channel term's product and the first partial product is added; at every later k one
more partial product is added to what the point before left. At k = 3 the outputs are the clipped half-angle tanh of the
accumulators. -/

/-- The two accumulators after point n, over the skeleton's payload names. -/
def accAt1 (c : Dev nD) : (n : ℕ) → n < cfg1.N → Vec F S1024x1024 .f32 × Vec F S1024x1024 .f32
  | 0, h => (k1_pay5 (iblk1 V c 0 ⟨0, h⟩) (k1_pay2 (iblk1 V c 3 ⟨0, h⟩) (iblk1 V c 4 ⟨0, h⟩)) (iblk1 V c 1 ⟨0, h⟩), k1_pay6 (iblk1 V c 0 ⟨0, h⟩) (k1_pay3 (iblk1 V c 3 ⟨0, h⟩) (iblk1 V c 4 ⟨0, h⟩)) (iblk1 V c 2 ⟨0, h⟩))
  | n + 1, h =>
    if (n + 1) % 4 = 0 then (k1_pay5 (iblk1 V c 0 ⟨n + 1, h⟩) (k1_pay2 (iblk1 V c 3 ⟨n + 1, h⟩) (iblk1 V c 4 ⟨n + 1, h⟩)) (iblk1 V c 1 ⟨n + 1, h⟩), k1_pay6 (iblk1 V c 0 ⟨n + 1, h⟩) (k1_pay3 (iblk1 V c 3 ⟨n + 1, h⟩) (iblk1 V c 4 ⟨n + 1, h⟩)) (iblk1 V c 2 ⟨n + 1, h⟩))
    else (k1_pay5 (iblk1 V c 0 ⟨n + 1, h⟩) (accAt1 c n (Nat.lt_of_succ_lt h)).1 (iblk1 V c 1 ⟨n + 1, h⟩),
          k1_pay6 (iblk1 V c 0 ⟨n + 1, h⟩) (accAt1 c n (Nat.lt_of_succ_lt h)).2 (iblk1 V c 2 ⟨n + 1, h⟩))

/-! ## What each case's stores leave, read back as the payloads

Every store of the body covers its whole buffer, so a buffer ends at its last store's value; a load of a whole buffer
reads what it holds, and a load after a store reads that store's value. -/

section Pieces
variable (c : Dev nD) (t : Fin cfg1.N)

-- k = 0: reset, then one step
theorem sA_0 (h0 : t.val % 4 = 0) (h1 : ¬t.val % 4 = 3) :
    rb VS1_0 (runA V c t h0 h1).2.2.1 = k1_pay5 (iblk1 V c 0 t) (k1_pay2 (iblk1 V c 3 t) (iblk1 V c 4 t)) (iblk1 V c 1 t) := by
  show VS1_0.read (Elt F) (VS1_0.writes (Elt F) VS1_0.junk _) = _
  rw [View.read_writes_eq_canon _ _ _ (scoverA_0 V c t h0 h1)]
  unfold runA kernelRun1_A
  dsimp only
  sl_unfold_words
  rw [View.canon_cons_unit_zero (S := S1024x1024) hz, View.readCov_unit_zero (S := S1024x1024) _ hz]
  simp only [View.readAt_eq_ld, (hs1_0 t).read_unread, (hs1_1 t).read_unread, (hs1_2 t).read_unread, (hs1_3 t).read_unread, (hs1_4 t).read_unread,
    (Memref.isWhole_whole cc1_scratch0).read_unread, (Memref.isWhole_whole cc1_scratch1).read_unread,
    View.ld_unit_zero (S := S1024x512) hz, View.ld_unit_zero (S := S512x1024) hz, View.ld_unit_zero (S := S1024x1024) hz]
theorem sA_1 (h0 : t.val % 4 = 0) (h1 : ¬t.val % 4 = 3) :
    rb VS1_1 (runA V c t h0 h1).2.2.2.1 = k1_pay6 (iblk1 V c 0 t) (k1_pay3 (iblk1 V c 3 t) (iblk1 V c 4 t)) (iblk1 V c 2 t) := by
  show VS1_1.read (Elt F) (VS1_1.writes (Elt F) VS1_1.junk _) = _
  rw [View.read_writes_eq_canon _ _ _ (scoverA_1 V c t h0 h1)]
  unfold runA kernelRun1_A
  dsimp only
  sl_unfold_words
  rw [View.canon_cons_unit_zero (S := S1024x1024) hz, View.readCov_unit_zero (S := S1024x1024) _ hz]
  simp only [View.readAt_eq_ld, (hs1_0 t).read_unread, (hs1_1 t).read_unread, (hs1_2 t).read_unread, (hs1_3 t).read_unread, (hs1_4 t).read_unread,
    (Memref.isWhole_whole cc1_scratch0).read_unread, (Memref.isWhole_whole cc1_scratch1).read_unread,
    View.ld_unit_zero (S := S1024x512) hz, View.ld_unit_zero (S := S512x1024) hz, View.ld_unit_zero (S := S1024x1024) hz]

-- k = 1, 2: one step from what the point before left
theorem sB_0 (h0 : ¬t.val % 4 = 0) (h1 : ¬t.val % 4 = 3) (p0 p1 : Vec F S1024x1024 .f32) :
    rb VS1_0 (runB V c t h0 h1 p0 p1).2.2.1 = k1_pay5 (iblk1 V c 0 t) p0 (iblk1 V c 1 t) := by
  show VS1_0.read (Elt F) (VS1_0.writes (Elt F) VS1_0.junk _) = _
  rw [View.read_writes_eq_canon _ _ _ (scoverB_0 V c t h0 h1 p0 p1)]
  unfold runB kernelRun1_B
  dsimp only
  rw [View.canon_unit_zero hz]
  simp only [View.readAt_eq_ld, (hs1_0 t).read_unread, (hs1_1 t).read_unread, (hs1_2 t).read_unread, (hs1_3 t).read_unread, (hs1_4 t).read_unread,
    (Memref.isWhole_whole cc1_scratch0).read_unread, (Memref.isWhole_whole cc1_scratch1).read_unread,
    View.ld_unit_zero (S := S1024x512) hz, View.ld_unit_zero (S := S512x1024) hz, View.ld_unit_zero (S := S1024x1024) hz]
theorem sB_1 (h0 : ¬t.val % 4 = 0) (h1 : ¬t.val % 4 = 3) (p0 p1 : Vec F S1024x1024 .f32) :
    rb VS1_1 (runB V c t h0 h1 p0 p1).2.2.2.1 = k1_pay6 (iblk1 V c 0 t) p1 (iblk1 V c 2 t) := by
  show VS1_1.read (Elt F) (VS1_1.writes (Elt F) VS1_1.junk _) = _
  rw [View.read_writes_eq_canon _ _ _ (scoverB_1 V c t h0 h1 p0 p1)]
  unfold runB kernelRun1_B
  dsimp only
  rw [View.canon_unit_zero hz]
  simp only [View.readAt_eq_ld, (hs1_0 t).read_unread, (hs1_1 t).read_unread, (hs1_2 t).read_unread, (hs1_3 t).read_unread, (hs1_4 t).read_unread,
    (Memref.isWhole_whole cc1_scratch0).read_unread, (Memref.isWhole_whole cc1_scratch1).read_unread,
    View.ld_unit_zero (S := S1024x512) hz, View.ld_unit_zero (S := S512x1024) hz, View.ld_unit_zero (S := S1024x1024) hz]

-- k = 3: one step, and the outputs from the accumulators
theorem sC_0 (h0 : ¬t.val % 4 = 0) (h1 : t.val % 4 = 3) (p0 p1 : Vec F S1024x1024 .f32) :
    rb VS1_0 (runC V c t h0 h1 p0 p1).2.2.1 = k1_pay5 (iblk1 V c 0 t) p0 (iblk1 V c 1 t) := by
  show VS1_0.read (Elt F) (VS1_0.writes (Elt F) VS1_0.junk _) = _
  rw [View.read_writes_eq_canon _ _ _ (scoverC_0 V c t h0 h1 p0 p1)]
  unfold runC kernelRun1_C
  dsimp only
  sl_unfold_words
  rw [View.canon_unit_zero hz]
  simp only [View.readAt_eq_ld, (hs1_0 t).read_unread, (hs1_1 t).read_unread, (hs1_2 t).read_unread, (hs1_3 t).read_unread, (hs1_4 t).read_unread,
    (Memref.isWhole_whole cc1_scratch0).read_unread, (Memref.isWhole_whole cc1_scratch1).read_unread,
    View.ld_unit_zero (S := S1024x512) hz, View.ld_unit_zero (S := S512x1024) hz, View.ld_unit_zero (S := S1024x1024) hz]
theorem sC_1 (h0 : ¬t.val % 4 = 0) (h1 : t.val % 4 = 3) (p0 p1 : Vec F S1024x1024 .f32) :
    rb VS1_1 (runC V c t h0 h1 p0 p1).2.2.2.1 = k1_pay6 (iblk1 V c 0 t) p1 (iblk1 V c 2 t) := by
  show VS1_1.read (Elt F) (VS1_1.writes (Elt F) VS1_1.junk _) = _
  rw [View.read_writes_eq_canon _ _ _ (scoverC_1 V c t h0 h1 p0 p1)]
  unfold runC kernelRun1_C
  dsimp only
  sl_unfold_words
  rw [View.canon_unit_zero hz]
  simp only [View.readAt_eq_ld, (hs1_0 t).read_unread, (hs1_1 t).read_unread, (hs1_2 t).read_unread, (hs1_3 t).read_unread, (hs1_4 t).read_unread,
    (Memref.isWhole_whole cc1_scratch0).read_unread, (Memref.isWhole_whole cc1_scratch1).read_unread,
    View.ld_unit_zero (S := S1024x512) hz, View.ld_unit_zero (S := S512x1024) hz, View.ld_unit_zero (S := S1024x1024) hz]
theorem oC_5 (h0 : ¬t.val % 4 = 0) (h1 : t.val % 4 = 3) (p0 p1 : Vec F S1024x1024 .f32) :
    rb VO1_5 (runC V c t h0 h1 p0 p1).1 = k1_pay7 (k1_pay5 (iblk1 V c 0 t) p0 (iblk1 V c 1 t)) := by
  show VO1_5.read (Elt F) (VO1_5.writes (Elt F) VO1_5.junk _) = _
  rw [View.read_writes_eq_canon _ _ _ (coverC_5 V c t h0 h1 p0 p1)]
  unfold runC kernelRun1_C
  dsimp only
  sl_unfold_words
  rw [View.canon_unit_zero hz, View.readCov_unit_zero (S := S1024x1024) _ hz]
  simp only [View.readAt_eq_ld, (hs1_0 t).read_unread, (hs1_1 t).read_unread, (hs1_2 t).read_unread, (hs1_3 t).read_unread, (hs1_4 t).read_unread,
    (Memref.isWhole_whole cc1_scratch0).read_unread, (Memref.isWhole_whole cc1_scratch1).read_unread,
    View.ld_unit_zero (S := S1024x512) hz, View.ld_unit_zero (S := S512x1024) hz, View.ld_unit_zero (S := S1024x1024) hz]
theorem oC_6 (h0 : ¬t.val % 4 = 0) (h1 : t.val % 4 = 3) (p0 p1 : Vec F S1024x1024 .f32) :
    rb VO1_6 (runC V c t h0 h1 p0 p1).2.1 = k1_pay8 (k1_pay6 (iblk1 V c 0 t) p1 (iblk1 V c 2 t)) := by
  show VO1_6.read (Elt F) (VO1_6.writes (Elt F) VO1_6.junk _) = _
  rw [View.read_writes_eq_canon _ _ _ (coverC_6 V c t h0 h1 p0 p1)]
  unfold runC kernelRun1_C
  dsimp only
  sl_unfold_words
  rw [View.canon_unit_zero hz, View.readCov_unit_zero (S := S1024x1024) _ hz]
  simp only [View.readAt_eq_ld, (hs1_0 t).read_unread, (hs1_1 t).read_unread, (hs1_2 t).read_unread, (hs1_3 t).read_unread, (hs1_4 t).read_unread,
    (Memref.isWhole_whole cc1_scratch0).read_unread, (Memref.isWhole_whole cc1_scratch1).read_unread,
    View.ld_unit_zero (S := S1024x512) hz, View.ld_unit_zero (S := S512x1024) hz, View.ld_unit_zero (S := S1024x1024) hz]

end Pieces

/-- The closed form at a reset point and at a later point. -/
theorem accAt1_reset (c : Dev nD) (n : ℕ) (h : n + 1 < cfg1.N) (h0 : (n + 1) % 4 = 0) :
    accAt1 V c (n + 1) h = (k1_pay5 (iblk1 V c 0 ⟨n + 1, h⟩) (k1_pay2 (iblk1 V c 3 ⟨n + 1, h⟩) (iblk1 V c 4 ⟨n + 1, h⟩)) (iblk1 V c 1 ⟨n + 1, h⟩), k1_pay6 (iblk1 V c 0 ⟨n + 1, h⟩) (k1_pay3 (iblk1 V c 3 ⟨n + 1, h⟩) (iblk1 V c 4 ⟨n + 1, h⟩)) (iblk1 V c 2 ⟨n + 1, h⟩)) := by
  show (if (n + 1) % 4 = 0 then _ else _) = _
  rw [if_pos h0]
theorem accAt1_step (c : Dev nD) (n : ℕ) (h : n + 1 < cfg1.N) (h0 : ¬(n + 1) % 4 = 0) :
    accAt1 V c (n + 1) h = (k1_pay5 (iblk1 V c 0 ⟨n + 1, h⟩) (accAt1 V c n (Nat.lt_of_succ_lt h)).1 (iblk1 V c 1 ⟨n + 1, h⟩),
          k1_pay6 (iblk1 V c 0 ⟨n + 1, h⟩) (accAt1 V c n (Nat.lt_of_succ_lt h)).2 (iblk1 V c 2 ⟨n + 1, h⟩)) := by
  show (if (n + 1) % 4 = 0 then _ else _) = _
  rw [if_neg h0]

set_option maxHeartbeats 4000000 in
/-- The accumulation of the frame's proof data is this closed form: by induction on the point. -/
theorem outsAt1_acc (c : Dev nD) : ∀ (n : ℕ) (h : n < cfg1.N),
    ((outsAt1 V c n h).2.2.1, (outsAt1 V c n h).2.2.2) = accAt1 V c n h
  | 0, h => by
    rw [show outsAt1 V c 0 h = outsA V c ⟨0, h⟩ (Nat.zero_mod _) (by show ¬ (0 % 4 = 3); decide) from rfl]
    unfold outsA
    dsimp only
    rw [sA_0, sA_1]
    rfl
  | n + 1, h => by
    have ih := outsAt1_acc c n (Nat.lt_of_succ_lt h)
    have ih1 : (accAt1 V c n (Nat.lt_of_succ_lt h)).1 = (outsAt1 V c n (Nat.lt_of_succ_lt h)).2.2.1 := (congrArg Prod.fst ih).symm
    have ih2 : (accAt1 V c n (Nat.lt_of_succ_lt h)).2 = (outsAt1 V c n (Nat.lt_of_succ_lt h)).2.2.2 := (congrArg Prod.snd ih).symm
    by_cases h0 : (n + 1) % 4 = 0
    · have h1 : ¬(n + 1) % 4 = 3 := by omega
      rw [outsAt1_A V c ⟨n + 1, h⟩ h0 h1, accAt1_reset V c n h h0]
      unfold outsA
      dsimp only
      rw [sA_0, sA_1]
    · rw [accAt1_step V c n h h0, ih1, ih2]
      by_cases h1 : (n + 1) % 4 = 3
      · rw [outsAt1_C V c ⟨n + 1, h⟩ h0 h1]
        unfold outsC
        dsimp only
        rw [sC_0, sC_1]
        rfl
      · rw [outsAt1_B V c ⟨n + 1, h⟩ h0 h1]
        unfold outsB
        dsimp only
        rw [sB_0, sB_1]
        rfl

set_option maxHeartbeats 2000000 in
/-- At k = 3 the two output buffers hold the activation of the accumulators. -/
theorem after1_5_eq (c : Dev nD) (t : Fin cfg1.N) (h3 : t.val % 4 = 3) :
    (dat1 V c).after 5 t = k1_pay7 (accAt1 V c t.val t.isLt).1 := by
  obtain ⟨n, hn⟩ := t
  cases n with
  | zero => exact absurd h3 (by show ¬ (0 % 4 = 3); decide)
  | succ n =>
    have h0 : ¬(n + 1) % 4 = 0 := by dsimp only at h3; omega
    have h3' : (n + 1) % 4 = 3 := h3
    rw [after1_5, outsAt1_C V c ⟨n + 1, hn⟩ h0 h3', accAt1_step V c n hn h0,
      (congrArg Prod.fst (outsAt1_acc V c n (Nat.lt_of_succ_lt hn))).symm]
    unfold outsC
    dsimp only
    rw [oC_5]
    rfl
set_option maxHeartbeats 2000000 in
theorem after1_6_eq (c : Dev nD) (t : Fin cfg1.N) (h3 : t.val % 4 = 3) :
    (dat1 V c).after 6 t = k1_pay8 (accAt1 V c t.val t.isLt).2 := by
  obtain ⟨n, hn⟩ := t
  cases n with
  | zero => exact absurd h3 (by show ¬ (0 % 4 = 3); decide)
  | succ n =>
    have h0 : ¬(n + 1) % 4 = 0 := by dsimp only at h3; omega
    have h3' : (n + 1) % 4 = 3 := h3
    rw [after1_6, outsAt1_C V c ⟨n + 1, hn⟩ h0 h3', accAt1_step V c n hn h0,
      (congrArg Prod.snd (outsAt1_acc V c n (Nat.lt_of_succ_lt hn))).symm]
    unfold outsC
    dsimp only
    rw [oC_6]
    rfl

end Cert.KernelIdeal.Hand

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.KI.R1Payload.lean ====
/-
  Region 1's arithmetic at an index, on the extended reals.

  A partial product of a [1024,512] block with a [512,1024] block, read at (p, q), is the sum over the 512 contracted
  coordinates of the products; rounding an operand to a narrower format and recasting a block to its own shape change
  nothing. So at (p, q):
    the reset value        is  sum over n of llr(p,n) * lw(n,q),
    one accumulation step  is  acc(p,q) + sum over k of x(p,k) * w(k,q),
    the stored output      is  tanh (1/2 * min 10 (max (-10) (acc(p,q)))).
-/
import proofs.«140457_j29703993819328_1_alg».proof.Proof.Spec
import proofs.«140457_j29703993819328_1_alg».proof.Proof.LibColumnBlocks
import proofs.«140457_j29703993819328_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.ValueIdx
open Cert.KernelIdeal Cert.KernelIdeal.Gen

/-- The product's dimension record: rows of the left block against columns of the right, one contracted axis of 512. -/
abbrev DK : DotDims S1024x512 S512x1024 S1024x1024 := dot_S1024x512_S512x1024_S1024x1024_1_0_0_1_n_n

/-- The left operand is read at the output's row. -/
theorem DK_l0 (j : S1024x1024.Idx) (q : DK.contr.Idx) : (DK.lhsIdx j q 0).val = (j 0).val := by
  unfold DotDims.lhsIdx
  rw [dif_neg (show ¬(0 : Fin S1024x512.rank) ∈ DK.lhsBatch by decide), dif_pos (show (0 : Fin S1024x512.rank) ∈ DK.lhsNonContracting by decide)]
  rfl
/-- The right operand is read at the output's column. -/
theorem DK_r1 (j : S1024x1024.Idx) (q : DK.contr.Idx) : (DK.rhsIdx j q 1).val = (j 1).val := by
  unfold DotDims.rhsIdx
  rw [dif_neg (show ¬(1 : Fin S512x1024.rank) ∈ DK.rhsBatch by decide), dif_pos (show (1 : Fin S512x1024.rank) ∈ DK.rhsNonContracting by decide)]
  rfl

/-- A partial product into a zero accumulator, at (p, q). -/
theorem prod_apply {φ₁ φ₂ : FTy} (a : FVec Ideal S1024x512 φ₁) (b : FVec Ideal S512x1024 φ₂) (p q : Fin 1024) :
    matmul DK none a b (constant S1024x1024 .f32 0x00000000#32) (ix2 p q) = ∑ k : Fin 512, a (ix2 p k) * b (ix2 k q) :=
  Cert.LibColumnBlocks.matmul_zero_apply DK rfl rfl rfl rfl DK_l0 DK_r1 a b p q none

/-- The reset value: the channel values' block against the channel weights' block. -/
theorem pay1_apply (llr : Vec Ideal S1024x512 .f32) (lw : Vec Ideal S512x1024 .bf16) (p q : Fin 1024) :
    k1_pay1 (F := Ideal) llr lw (ix2 p q) = ∑ n : Fin 512, llr (ix2 p n) * lw (ix2 n q) := by
  unfold k1_pay1
  rw [shapeCast_self]
  exact prod_apply _ _ p q
theorem pay2_apply (llr : Vec Ideal S1024x512 .f32) (lw : Vec Ideal S512x1024 .bf16) (p q : Fin 1024) :
    k1_pay2 (F := Ideal) llr lw (ix2 p q) = ∑ n : Fin 512, llr (ix2 p n) * lw (ix2 n q) := by
  unfold k1_pay2
  rw [shapeCast_self]
  exact pay1_apply llr lw p q
theorem pay3_apply (llr : Vec Ideal S1024x512 .f32) (lw : Vec Ideal S512x1024 .bf16) (p q : Fin 1024) :
    k1_pay3 (F := Ideal) llr lw (ix2 p q) = ∑ n : Fin 512, llr (ix2 p n) * lw (ix2 n q) := by
  unfold k1_pay3
  rw [shapeCast_self]
  exact pay1_apply llr lw p q

/-- One accumulation step. -/
theorem pay5_apply (x : Vec Ideal S1024x512 .f32) (a : Vec Ideal S1024x1024 .f32) (w : Vec Ideal S512x1024 .bf16) (p q : Fin 1024) :
    k1_pay5 (F := Ideal) x a w (ix2 p q) = a (ix2 p q) + ∑ k : Fin 512, x (ix2 p k) * w (ix2 k q) := by
  unfold k1_pay5 k1_pay4
  rw [shapeCast_self, shapeCast_self]
  exact congrArg (a (ix2 p q) + ·) (prod_apply _ _ p q)
theorem pay6_apply (x : Vec Ideal S1024x512 .f32) (a : Vec Ideal S1024x1024 .f32) (w : Vec Ideal S512x1024 .bf16) (p q : Fin 1024) :
    k1_pay6 (F := Ideal) x a w (ix2 p q) = a (ix2 p q) + ∑ k : Fin 512, x (ix2 p k) * w (ix2 k q) := by
  unfold k1_pay6 k1_pay4
  rw [shapeCast_self, shapeCast_self]
  exact congrArg (a (ix2 p q) + ·) (prod_apply _ _ p q)

/-- The stored output: the clipped half-angle tanh of the accumulator. -/
theorem pay7_apply (a : Vec Ideal S1024x1024 .f32) (i : S1024x1024.Idx) : k1_pay7 (F := Ideal) a i = Cert.Spec.act (a i) := rfl
theorem pay8_apply (a : Vec Ideal S1024x1024 .f32) (i : S1024x1024.Idx) : k1_pay8 (F := Ideal) a i = Cert.Spec.act (a i) := rfl

end Cert.KernelIdeal.Hand

end
-- ==== Proof.LibTileSum.lean ====
/-
  Sums over an index range cut into tiles of equal width.

  An index `h < T * w` is `j * w + n` for one tile `j < T` and one offset `n < w`, so a sum over all `h` is the sum over
  the tiles of the sums inside each tile. The partial sums over the tiles `0, …, hh` start at the first tile's sum, grow by
  one tile's sum at a time, and are the whole sum once `hh` is the last tile. Both hold in any commutative additive
  monoid: only the order and the grouping of the terms change.
-/
import Mathlib.Algebra.BigOperators.Fin
import Mathlib.Algebra.BigOperators.Group.Finset.Basic
import Mathlib.Logic.Equiv.Fin.Basic
import Mathlib.Tactic.Ring

namespace Cert.TileSum

variable {M : Type*} [AddCommMonoid M]

/-- The index of offset `n` inside tile `j`. -/
def tileIdx {T w N : ℕ} (hN : N = T * w) (j : Fin T) (n : Fin w) : Fin N :=
  ⟨j.val * w + n.val, by
    have h1 := j.isLt; have h2 := n.isLt
    have : j.val * w + w ≤ T * w := by
      rw [← Nat.succ_mul]; exact Nat.mul_le_mul_right w h1
    omega⟩

@[simp] theorem tileIdx_val {T w N : ℕ} (hN : N = T * w) (j : Fin T) (n : Fin w) :
    (tileIdx hN j n).val = j.val * w + n.val := rfl

/-- A sum over all indices is the sum, over the tiles, of the sums inside each tile. -/
theorem sum_tiles {T w N : ℕ} (hN : N = T * w) (f : Fin N → M) :
    ∑ h : Fin N, f h = ∑ j : Fin T, ∑ n : Fin w, f (tileIdx hN j n) := by
  subst hN
  rw [← Equiv.sum_comp finProdFinEquiv f, Fintype.sum_prod_type]
  refine Finset.sum_congr rfl fun j _ => Finset.sum_congr rfl fun n _ => congrArg f (Fin.ext ?_)
  simp [finProdFinEquiv, tileIdx, Nat.mul_comm, Nat.add_comm]

/-- The sum of the tile values `D j` over the tiles `j ≤ hh`. -/
def upTo {T : ℕ} (D : Fin T → M) (hh : ℕ) : M := ∑ j : Fin T, if j.val ≤ hh then D j else 0

theorem upTo_zero {T : ℕ} (D : Fin T → M) (hT : 0 < T) : upTo D 0 = D ⟨0, hT⟩ := by
  unfold upTo
  rw [Finset.sum_eq_single (⟨0, hT⟩ : Fin T)]
  · simp
  · intro j _ hj
    have : ¬ j.val ≤ 0 := fun h => hj (Fin.ext (by simpa using h))
    simp [this]
  · intro h; exact absurd (Finset.mem_univ _) h

theorem upTo_succ {T : ℕ} (D : Fin T → M) (hh : ℕ) (h : hh + 1 < T) :
    upTo D (hh + 1) = upTo D hh + D ⟨hh + 1, h⟩ := by
  unfold upTo
  have e : ∀ j : Fin T, (if j.val ≤ hh + 1 then D j else 0)
      = (if j.val ≤ hh then D j else 0) + (if j = ⟨hh + 1, h⟩ then D j else 0) := by
    intro j
    by_cases h1 : j.val ≤ hh
    · have h2 : j ≠ ⟨hh + 1, h⟩ := fun e => by
        have e' : j.val = hh + 1 := congrArg Fin.val e
        omega
      rw [if_pos h1, if_pos (Nat.le_succ_of_le h1), if_neg h2, add_zero]
    · by_cases h2 : j = ⟨hh + 1, h⟩
      · have h3 : j.val ≤ hh + 1 := by
          have e' : j.val = hh + 1 := congrArg Fin.val h2
          omega
        rw [if_neg h1, if_pos h3, if_pos h2, zero_add]
      · have h3 : ¬ j.val ≤ hh + 1 := fun h3 => h2 (Fin.ext (by show j.val = hh + 1; omega))
        rw [if_neg h1, if_neg h3, if_neg h2, add_zero]
  simp only [e, Finset.sum_add_distrib, Finset.sum_ite_eq', Finset.mem_univ, if_true]

theorem upTo_last {T : ℕ} (D : Fin T → M) (hh : ℕ) (h : T ≤ hh + 1) : upTo D hh = ∑ j : Fin T, D j := by
  unfold upTo
  refine Finset.sum_congr rfl fun j _ => if_pos ?_
  have := j.isLt; omega

end Cert.TileSum
-- ==== Proof.AccAlgebra.lean ====
/-
  The accumulation over four column blocks is the whole sum.

  A sum over the 2048 contraction indices, cut into four blocks of 512 consecutive indices and added block after block
  onto a leading term, is the whole sum plus that term: only the order and the grouping of the summands change, so the
  fact holds in every commutative additive monoid (on the extended reals too, where no finiteness is needed for it).
-/
import proofs.«140457_j29703993819328_1_alg».proof.Proof.Spec
import proofs.«140457_j29703993819328_1_alg».proof.Proof.LibTileSum

namespace Cert.Spec

open Cert.TileSum

variable {M : Type*} [AddCommMonoid M]

/-- A leading term plus four blocks is the four blocks plus the leading term. -/
theorem add_four_blocks (lt a b c d : M) : (((lt + a) + b) + c) + d = (a + b + c + d) + lt := by
  simp only [add_comm, add_left_comm, add_assoc]

/-- The four block sums, added in turn onto the leading term lt, are the whole sum plus lt; the index of offset n
    in block j is j * 512 + n. -/
theorem acc_tiles (f : Fin 2048 → M) (lt : M) :
    ((((lt + ∑ n : Fin 512, f (tileIdx (T := 4) (w := 512) (by norm_num : 2048 = 4 * 512) 0 n))
        + ∑ n : Fin 512, f (tileIdx (T := 4) (w := 512) (by norm_num : 2048 = 4 * 512) 1 n))
        + ∑ n : Fin 512, f (tileIdx (T := 4) (w := 512) (by norm_num : 2048 = 4 * 512) 2 n))
        + ∑ n : Fin 512, f (tileIdx (T := 4) (w := 512) (by norm_num : 2048 = 4 * 512) 3 n))
      = (∑ k : Fin 2048, f k) + lt := by
  rw [sum_tiles (T := 4) (w := 512) (by norm_num : 2048 = 4 * 512) f, Fin.sum_univ_four]
  exact add_four_blocks _ _ _ _ _

/-- The same with the block's index written any way whose value is k * 512 + n. -/
theorem acc_blocks (f : Fin 2048 → M) (lt : M) (g : Fin 4 → Fin 512 → Fin 2048)
    (hg : ∀ (k : Fin 4) (n : Fin 512), (g k n).val = k.val * 512 + n.val) :
    ((((lt + ∑ n : Fin 512, f (g 0 n)) + ∑ n : Fin 512, f (g 1 n)) + ∑ n : Fin 512, f (g 2 n)) + ∑ n : Fin 512, f (g 3 n))
      = (∑ k : Fin 2048, f k) + lt := by
  have e : ∀ (k : Fin 4) (n : Fin 512), g k n = tileIdx (T := 4) (w := 512) (by norm_num : 2048 = 4 * 512) k n :=
    fun k n => Fin.ext ((hg k n).trans (tileIdx_val _ k n).symm)
  simp only [e]
  exact acc_tiles f lt

/-- The index of offset n in block k, as the column 512 * k + n. -/
def blockIdx (k : Fin 4) (n : Fin 512) : Fin 2048 :=
  ⟨512 * k.val + n.val, by have := k.isLt; have := n.isLt; omega⟩

@[simp] theorem blockIdx_val (k : Fin 4) (n : Fin 512) : (blockIdx k n).val = 512 * k.val + n.val := rfl

/-- The same with the block's index spelt 512 * k + n. -/
theorem acc_blockIdx (f : Fin 2048 → M) (lt : M) :
    ((((lt + ∑ n : Fin 512, f (blockIdx 0 n)) + ∑ n : Fin 512, f (blockIdx 1 n)) + ∑ n : Fin 512, f (blockIdx 2 n))
        + ∑ n : Fin 512, f (blockIdx 3 n))
      = (∑ k : Fin 2048, f k) + lt :=
  acc_blocks f lt blockIdx fun k n => by rw [blockIdx_val, Nat.mul_comm]

end Cert.Spec
-- ==== Proof.KI.Region1Value.lean ====
import proofs.«140457_j29703993819328_1_alg».proof.Proof.KI.R1Acc
import proofs.«140457_j29703993819328_1_alg».proof.Proof.KI.R1Payload
import proofs.«140457_j29703993819328_1_alg».proof.Proof.AccAlgebra
import proofs.«140457_j29703993819328_1_alg».proof.Proof.LibTileSum
import proofs.«140457_j29703993819328_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen
open Cert.TileSum
open scoped BigOperators

variable (V : (c : Dev nD) → (b : Ref sig .tc) → Buf (Elt Ideal) ((c : Thread nD τ).loc b))

/-! # What region 1 leaves in its two output arrays, on the extended reals -/

/-! ## The windows' blocks as parts of the arrays

A point `t` of the 64 has coordinates `(t / 8, (t / 4) % 2, t % 4)`: the row band of 1024, the column band of 1024, and
the position along the contracted axis in blocks of 512. -/

/-- The printed index maps, decided over the grid. -/
theorem win_idx1 : ∀ t : Fin cfg1.N,
    win1_0.index t (0 : Fin 2) = t.val / 8 ∧ win1_0.index t (1 : Fin 2) = t.val % 4
    ∧ win1_1.index t (0 : Fin 2) = t.val % 4 ∧ win1_1.index t (1 : Fin 2) = (t.val / 4) % 2
    ∧ win1_2.index t (0 : Fin 2) = t.val % 4 ∧ win1_2.index t (1 : Fin 2) = (t.val / 4) % 2
    ∧ win1_3.index t (0 : Fin 2) = t.val / 8 ∧ win1_3.index t (1 : Fin 2) = 0
    ∧ win1_4.index t (0 : Fin 2) = 0 ∧ win1_4.index t (1 : Fin 2) = (t.val / 4) % 2
    ∧ win1_5.index t (0 : Fin 2) = t.val / 8 ∧ win1_5.index t (1 : Fin 2) = (t.val / 4) % 2
    ∧ win1_6.index t (0 : Fin 2) = t.val / 8 ∧ win1_6.index t (1 : Fin 2) = (t.val / 4) % 2 :=
  (by decide +kernel : ∀ t : Fin grid1.N, _)

/-- The activations' block: rows of band `t / 8`, columns of contraction block `t % 4`. -/
theorem iblk1_0_apply (c : Dev nD) (t : Fin cfg1.N) (x : S1024x512.Idx) (k0 : Fin 8192) (k1 : Fin 2048)
    (hk0 : k0.val = 1024 * (t.val / 8) + (x 0).val) (hk1 : k1.val = 512 * (t.val % 4) + (x 1).val) :
    (iblk1 V c 0 t : Vec Ideal S1024x512 .f32) x = (V c main_arg0 : S8192x2048.Idx → EReal) (ix2 k0 k1) := by
  obtain ⟨e00, e01, e10, e11, e20, e21, e30, e31, e40, e41, e50, e51, e60, e61⟩ := win_idx1 t
  unfold iblk1
  rw [View.read_apply]
  show V c main_arg0 _ = V c main_arg0 _
  congr 1
  funext a
  apply Fin.ext
  match a with
  | ⟨0, _⟩ => show win1_0.index t (0 : Fin 2) * 1024 + 1 * (x 0).val = k0.val; omega
  | ⟨1, _⟩ => show win1_0.index t (1 : Fin 2) * 512 + 1 * (x 1).val = k1.val; omega

/-- The first weight matrix's block: rows of contraction block `t % 4`, columns of band `(t / 4) % 2`. -/
theorem iblk1_1_apply (c : Dev nD) (t : Fin cfg1.N) (x : S512x1024.Idx) (k0 : Fin 2048) (k1 : Fin 2048)
    (hk0 : k0.val = 512 * (t.val % 4) + (x 0).val) (hk1 : k1.val = 1024 * ((t.val / 4) % 2) + (x 1).val) :
    (iblk1 V c 1 t : Vec Ideal S512x1024 .bf16) x = (V c main_v1_0 : S2048x2048.Idx → EReal) (ix2 k0 k1) := by
  obtain ⟨e00, e01, e10, e11, e20, e21, e30, e31, e40, e41, e50, e51, e60, e61⟩ := win_idx1 t
  unfold iblk1
  rw [View.read_apply]
  show V c main_v1_0 _ = V c main_v1_0 _
  congr 1
  funext a
  apply Fin.ext
  match a with
  | ⟨0, _⟩ => show win1_1.index t (0 : Fin 2) * 512 + 1 * (x 0).val = k0.val; omega
  | ⟨1, _⟩ => show win1_1.index t (1 : Fin 2) * 1024 + 1 * (x 1).val = k1.val; omega

/-- The second weight matrix's block, likewise. -/
theorem iblk1_2_apply (c : Dev nD) (t : Fin cfg1.N) (x : S512x1024.Idx) (k0 : Fin 2048) (k1 : Fin 2048)
    (hk0 : k0.val = 512 * (t.val % 4) + (x 0).val) (hk1 : k1.val = 1024 * ((t.val / 4) % 2) + (x 1).val) :
    (iblk1 V c 2 t : Vec Ideal S512x1024 .bf16) x = (V c main_v1_1 : S2048x2048.Idx → EReal) (ix2 k0 k1) := by
  obtain ⟨e00, e01, e10, e11, e20, e21, e30, e31, e40, e41, e50, e51, e60, e61⟩ := win_idx1 t
  unfold iblk1
  rw [View.read_apply]
  show V c main_v1_1 _ = V c main_v1_1 _
  congr 1
  funext a
  apply Fin.ext
  match a with
  | ⟨0, _⟩ => show win1_2.index t (0 : Fin 2) * 512 + 1 * (x 0).val = k0.val; omega
  | ⟨1, _⟩ => show win1_2.index t (1 : Fin 2) * 1024 + 1 * (x 1).val = k1.val; omega

/-- The channel values' block: rows of band `t / 8`, all 512 columns. -/
theorem iblk1_3_apply (c : Dev nD) (t : Fin cfg1.N) (x : S1024x512.Idx) (k0 : Fin 8192) (k1 : Fin 512)
    (hk0 : k0.val = 1024 * (t.val / 8) + (x 0).val) (hk1 : k1.val = (x 1).val) :
    (iblk1 V c 3 t : Vec Ideal S1024x512 .f32) x = (V c main_arg1 : S8192x512.Idx → EReal) (ix2 k0 k1) := by
  obtain ⟨e00, e01, e10, e11, e20, e21, e30, e31, e40, e41, e50, e51, e60, e61⟩ := win_idx1 t
  unfold iblk1
  rw [View.read_apply]
  show V c main_arg1 _ = V c main_arg1 _
  congr 1
  funext a
  apply Fin.ext
  match a with
  | ⟨0, _⟩ => show win1_3.index t (0 : Fin 2) * 1024 + 1 * (x 0).val = k0.val; omega
  | ⟨1, _⟩ => show win1_3.index t (1 : Fin 2) * 512 + 1 * (x 1).val = k1.val; omega

/-- The channel weights' block: all 512 rows, columns of band `(t / 4) % 2`. -/
theorem iblk1_4_apply (c : Dev nD) (t : Fin cfg1.N) (x : S512x1024.Idx) (k0 : Fin 512) (k1 : Fin 2048)
    (hk0 : k0.val = (x 0).val) (hk1 : k1.val = 1024 * ((t.val / 4) % 2) + (x 1).val) :
    (iblk1 V c 4 t : Vec Ideal S512x1024 .bf16) x = (V c main_v3 : S512x2048.Idx → EReal) (ix2 k0 k1) := by
  obtain ⟨e00, e01, e10, e11, e20, e21, e30, e31, e40, e41, e50, e51, e60, e61⟩ := win_idx1 t
  unfold iblk1
  rw [View.read_apply]
  show V c main_v3 _ = V c main_v3 _
  congr 1
  funext a
  apply Fin.ext
  match a with
  | ⟨0, _⟩ => show win1_4.index t (0 : Fin 2) * 512 + 1 * (x 0).val = k0.val; omega
  | ⟨1, _⟩ => show win1_4.index t (1 : Fin 2) * 1024 + 1 * (x 1).val = k1.val; omega

/-! ## The two terms of the pre-activation, at a row `b` of the batch and a column `j` -/

/-- A row of a [1024,512] block against a column of a [512,1024] block. -/
def dotRow1 (a : Vec Ideal S1024x512 .f32) (w : Vec Ideal S512x1024 .bf16) (p q : Fin 1024) : EReal :=
  ∑ k : Fin 512, a (ix2 p k) * w (ix2 k q)

/-- The channel term. -/
def chan1 (llr : S8192x512.Idx → EReal) (L : S512x2048.Idx → EReal) (b : Fin 8192) (j : Fin 2048) : EReal :=
  ∑ n' : Fin 512, llr (ix2 b n') * L (ix2 n' j)

/-- One summand of the message term. -/
def term1 (x : S8192x2048.Idx → EReal) (W : S2048x2048.Idx → EReal) (b : Fin 8192) (j : Fin 2048) (k : Fin 2048) : EReal :=
  x (ix2 b k) * W (ix2 k j)

/-- The part of the message term that contraction block `k'` contributes, against the weight matrix `W`. -/
def part1 (x : S8192x2048.Idx → EReal) (W : S2048x2048.Idx → EReal) (b : Fin 8192) (j : Fin 2048) (k' : Fin 4) : EReal :=
  ∑ n' : Fin 512, term1 x W b j (Cert.Spec.blockIdx k' n')

/-- The product of the channel blocks of point `t`, at `(p, q)`, is the channel term at the element's place in the arrays. -/
theorem chan_at1 (c : Dev nD) (t : Fin cfg1.N) (p q : Fin 1024) (b : Fin 8192) (j : Fin 2048)
    (hb : b.val = 1024 * (t.val / 8) + p.val) (hj : j.val = 1024 * ((t.val / 4) % 2) + q.val) :
    dotRow1 (iblk1 V c 3 t) (iblk1 V c 4 t) p q = chan1 (V c main_arg1) (V c main_v3) b j := by
  unfold dotRow1 chan1
  refine Finset.sum_congr rfl fun n' _ => ?_
  rw [iblk1_3_apply V c t (ix2 p n') b n' hb rfl, iblk1_4_apply V c t (ix2 n' q) n' j rfl hj]

/-! ## The first output -/

/-- The partial product of point `t`'s blocks, at `(p, q)`, is contraction block `t % 4`'s part of the message term. -/
theorem part_at_1 (c : Dev nD) (t : Fin cfg1.N) (p q : Fin 1024) (b : Fin 8192) (j : Fin 2048) (kk : Fin 4)
    (hb : b.val = 1024 * (t.val / 8) + p.val) (hj : j.val = 1024 * ((t.val / 4) % 2) + q.val) (hkk : kk.val = t.val % 4) :
    dotRow1 (iblk1 V c 0 t) (iblk1 V c 1 t) p q = part1 (V c main_arg0) (V c main_v1_0) b j kk := by
  unfold dotRow1 part1 term1
  refine Finset.sum_congr rfl fun k _ => ?_
  rw [iblk1_0_apply V c t (ix2 p k) b (Cert.Spec.blockIdx kk k) hb (by rw [Cert.Spec.blockIdx_val, hkk]),
    iblk1_1_apply V c t (ix2 k q) (Cert.Spec.blockIdx kk k) j (by rw [Cert.Spec.blockIdx_val, hkk]) hj]

/-- At a reset point the accumulator is the channel term plus the first part. -/
theorem reset_at_5 (c : Dev nD) (t : Fin cfg1.N) (p q : Fin 1024) (b : Fin 8192) (j : Fin 2048) (kk : Fin 4)
    (hb : b.val = 1024 * (t.val / 8) + p.val) (hj : j.val = 1024 * ((t.val / 4) % 2) + q.val) (hkk : kk.val = t.val % 4) :
    (k1_pay5 (F := Ideal) (iblk1 V c 0 t) (k1_pay2 (F := Ideal) (iblk1 V c 3 t) (iblk1 V c 4 t)) (iblk1 V c 1 t) (ix2 p q) : EReal)
      = chan1 (V c main_arg1) (V c main_v3) b j + part1 (V c main_arg0) (V c main_v1_0) b j kk := by
  refine (pay5_apply (iblk1 V c 0 t) _ (iblk1 V c 1 t) p q).trans ?_
  rw [pay2_apply (iblk1 V c 3 t) (iblk1 V c 4 t) p q]
  show dotRow1 (iblk1 V c 3 t) (iblk1 V c 4 t) p q + dotRow1 (iblk1 V c 0 t) (iblk1 V c 1 t) p q = _
  rw [chan_at1 V c t p q b j hb hj, part_at_1 V c t p q b j kk hb hj hkk]

/-- At any other point one more part is added to what the accumulator held. -/
theorem step_at_5 (c : Dev nD) (t : Fin cfg1.N) (prev : Vec Ideal S1024x1024 .f32) (p q : Fin 1024) (b : Fin 8192) (j : Fin 2048) (kk : Fin 4)
    (hb : b.val = 1024 * (t.val / 8) + p.val) (hj : j.val = 1024 * ((t.val / 4) % 2) + q.val) (hkk : kk.val = t.val % 4) :
    (k1_pay5 (F := Ideal) (iblk1 V c 0 t) prev (iblk1 V c 1 t) (ix2 p q) : EReal)
      = prev (ix2 p q) + part1 (V c main_arg0) (V c main_v1_0) b j kk := by
  refine (pay5_apply (iblk1 V c 0 t) prev (iblk1 V c 1 t) p q).trans ?_
  show prev (ix2 p q) + dotRow1 (iblk1 V c 0 t) (iblk1 V c 1 t) p q = _
  rw [part_at_1 V c t p q b j kk hb hj hkk]

theorem accAt1_zero_1 (c : Dev nD) (h : 0 < cfg1.N) :
    (accAt1 V c 0 h).1 = k1_pay5 (iblk1 V c 0 ⟨0, h⟩) (k1_pay2 (iblk1 V c 3 ⟨0, h⟩) (iblk1 V c 4 ⟨0, h⟩)) (iblk1 V c 1 ⟨0, h⟩) := rfl
theorem accAt1_reset_1 (c : Dev nD) (n : ℕ) (h : n + 1 < cfg1.N) (h0 : (n + 1) % 4 = 0) :
    (accAt1 V c (n + 1) h).1 = k1_pay5 (iblk1 V c 0 ⟨n + 1, h⟩) (k1_pay2 (iblk1 V c 3 ⟨n + 1, h⟩) (iblk1 V c 4 ⟨n + 1, h⟩)) (iblk1 V c 1 ⟨n + 1, h⟩) := by
  rw [accAt1, if_pos h0]
theorem accAt1_step_1 (c : Dev nD) (n : ℕ) (h : n + 1 < cfg1.N) (h0 : ¬(n + 1) % 4 = 0) :
    (accAt1 V c (n + 1) h).1 = k1_pay5 (iblk1 V c 0 ⟨n + 1, h⟩) (accAt1 V c n (Nat.lt_of_succ_lt h)).1 (iblk1 V c 1 ⟨n + 1, h⟩) := by
  rw [accAt1, if_neg h0]

/-- After point `n` the accumulator holds, at `(p, q)` of the point's output block, the channel term plus the parts of
    the contraction blocks up to the point's own. -/
theorem acc1_1 (c : Dev nD) : ∀ (n : ℕ) (h : n < cfg1.N) (p q : Fin 1024) (b : Fin 8192) (j : Fin 2048),
    b.val = 1024 * (n / 8) + p.val → j.val = 1024 * ((n / 4) % 2) + q.val →
    ((accAt1 V c n h).1 (ix2 p q) : EReal) = chan1 (V c main_arg1) (V c main_v3) b j + upTo (part1 (V c main_arg0) (V c main_v1_0) b j) (n % 4) := by
  intro n
  induction n with
  | zero =>
    intro h p q b j hb hj
    rw [accAt1_zero_1, reset_at_5 V c ⟨0, h⟩ p q b j ⟨0, by norm_num⟩ hb hj rfl]
    show _ = _ + upTo _ 0
    rw [upTo_zero _ (by norm_num)]
  | succ n ih =>
    intro h p q b j hb hj
    by_cases h0 : (n + 1) % 4 = 0
    · rw [accAt1_reset_1 V c n h h0, reset_at_5 V c ⟨n + 1, h⟩ p q b j ⟨0, by norm_num⟩ hb hj (by show 0 = (n + 1) % 4; omega), h0,
        upTo_zero _ (by norm_num)]
    · have e4 : (n + 1) % 4 = n % 4 + 1 := by omega
      have hlt : n % 4 + 1 < 4 := by omega
      rw [accAt1_step_1 V c n h h0, step_at_5 V c ⟨n + 1, h⟩ _ p q b j ⟨n % 4 + 1, hlt⟩ hb hj (by show n % 4 + 1 = (n + 1) % 4; omega),
        ih (Nat.lt_of_succ_lt h) p q b j (by omega) (by omega), e4, upTo_succ _ (n % 4) hlt, add_assoc]

/-- At the last position along the contracted axis the stored output is the clipped half-angle tanh of the whole
    pre-activation: the four parts are the whole message term. -/
theorem out1_5_elem (c : Dev nD) (t : Fin cfg1.N) (h3 : t.val % 4 = 3) (p q : Fin 1024) (b : Fin 8192) (j : Fin 2048)
    (hb : b.val = 1024 * (t.val / 8) + p.val) (hj : j.val = 1024 * ((t.val / 4) % 2) + q.val) :
    (k1_pay7 (F := Ideal) (accAt1 V c t.val t.isLt).1 (ix2 p q) : EReal)
      = Cert.Spec.act (Cert.Spec.acc (V c main_arg0) (V c main_arg1) (fun k j => (V c main_v1_0 : S2048x2048.Idx → EReal) (ix2 k j))
          (fun n j => (V c main_v3 : S512x2048.Idx → EReal) (ix2 n j)) b j) := by
  rw [pay7_apply, acc1_1 V c t.val t.isLt p q b j hb hj, h3, upTo_last _ 3 (by norm_num), Fin.sum_univ_four]
  refine congrArg Cert.Spec.act ?_
  rw [← add_assoc, ← add_assoc, ← add_assoc]
  exact Cert.Spec.acc_blockIdx (term1 (V c main_arg0) (V c main_v1_0) b j) (chan1 (V c main_arg1) (V c main_v3) b j)

/-- The element of point `t`'s output block, in the shape the blocks-to-array step takes it. -/
theorem elem1_5 (c : Dev nD) (t : Fin cfg1.N) (h3 : t.val % 4 = 3) (p q : Fin 1024) (b : Fin 8192) (j : Fin 2048)
    (hb : b.val = 1024 * (t.val / 8) + p.val) (hj : j.val = 1024 * ((t.val / 4) % 2) + q.val) :
    ((dat1 (F := Ideal) V c).after 5 t : S1024x1024.Idx → EReal) (ix2 p q)
      = Cert.Spec.act (Cert.Spec.acc (V c main_arg0) (V c main_arg1) (fun k j => (V c main_v1_0 : S2048x2048.Idx → EReal) (ix2 k j))
          (fun n j => (V c main_v3 : S512x2048.Idx → EReal) (ix2 n j)) b j) :=
  (congrFun (after1_5_eq V c t h3) (ix2 p q)).trans (out1_5_elem V c t h3 p q b j hb hj)

/-! ## The second output -/

/-- The partial product of point `t`'s blocks, at `(p, q)`, is contraction block `t % 4`'s part of the message term. -/
theorem part_at_2 (c : Dev nD) (t : Fin cfg1.N) (p q : Fin 1024) (b : Fin 8192) (j : Fin 2048) (kk : Fin 4)
    (hb : b.val = 1024 * (t.val / 8) + p.val) (hj : j.val = 1024 * ((t.val / 4) % 2) + q.val) (hkk : kk.val = t.val % 4) :
    dotRow1 (iblk1 V c 0 t) (iblk1 V c 2 t) p q = part1 (V c main_arg0) (V c main_v1_1) b j kk := by
  unfold dotRow1 part1 term1
  refine Finset.sum_congr rfl fun k _ => ?_
  rw [iblk1_0_apply V c t (ix2 p k) b (Cert.Spec.blockIdx kk k) hb (by rw [Cert.Spec.blockIdx_val, hkk]),
    iblk1_2_apply V c t (ix2 k q) (Cert.Spec.blockIdx kk k) j (by rw [Cert.Spec.blockIdx_val, hkk]) hj]

/-- At a reset point the accumulator is the channel term plus the first part. -/
theorem reset_at_6 (c : Dev nD) (t : Fin cfg1.N) (p q : Fin 1024) (b : Fin 8192) (j : Fin 2048) (kk : Fin 4)
    (hb : b.val = 1024 * (t.val / 8) + p.val) (hj : j.val = 1024 * ((t.val / 4) % 2) + q.val) (hkk : kk.val = t.val % 4) :
    (k1_pay6 (F := Ideal) (iblk1 V c 0 t) (k1_pay3 (F := Ideal) (iblk1 V c 3 t) (iblk1 V c 4 t)) (iblk1 V c 2 t) (ix2 p q) : EReal)
      = chan1 (V c main_arg1) (V c main_v3) b j + part1 (V c main_arg0) (V c main_v1_1) b j kk := by
  refine (pay6_apply (iblk1 V c 0 t) _ (iblk1 V c 2 t) p q).trans ?_
  rw [pay3_apply (iblk1 V c 3 t) (iblk1 V c 4 t) p q]
  show dotRow1 (iblk1 V c 3 t) (iblk1 V c 4 t) p q + dotRow1 (iblk1 V c 0 t) (iblk1 V c 2 t) p q = _
  rw [chan_at1 V c t p q b j hb hj, part_at_2 V c t p q b j kk hb hj hkk]

/-- At any other point one more part is added to what the accumulator held. -/
theorem step_at_6 (c : Dev nD) (t : Fin cfg1.N) (prev : Vec Ideal S1024x1024 .f32) (p q : Fin 1024) (b : Fin 8192) (j : Fin 2048) (kk : Fin 4)
    (hb : b.val = 1024 * (t.val / 8) + p.val) (hj : j.val = 1024 * ((t.val / 4) % 2) + q.val) (hkk : kk.val = t.val % 4) :
    (k1_pay6 (F := Ideal) (iblk1 V c 0 t) prev (iblk1 V c 2 t) (ix2 p q) : EReal)
      = prev (ix2 p q) + part1 (V c main_arg0) (V c main_v1_1) b j kk := by
  refine (pay6_apply (iblk1 V c 0 t) prev (iblk1 V c 2 t) p q).trans ?_
  show prev (ix2 p q) + dotRow1 (iblk1 V c 0 t) (iblk1 V c 2 t) p q = _
  rw [part_at_2 V c t p q b j kk hb hj hkk]

theorem accAt1_zero_2 (c : Dev nD) (h : 0 < cfg1.N) :
    (accAt1 V c 0 h).2 = k1_pay6 (iblk1 V c 0 ⟨0, h⟩) (k1_pay3 (iblk1 V c 3 ⟨0, h⟩) (iblk1 V c 4 ⟨0, h⟩)) (iblk1 V c 2 ⟨0, h⟩) := rfl
theorem accAt1_reset_2 (c : Dev nD) (n : ℕ) (h : n + 1 < cfg1.N) (h0 : (n + 1) % 4 = 0) :
    (accAt1 V c (n + 1) h).2 = k1_pay6 (iblk1 V c 0 ⟨n + 1, h⟩) (k1_pay3 (iblk1 V c 3 ⟨n + 1, h⟩) (iblk1 V c 4 ⟨n + 1, h⟩)) (iblk1 V c 2 ⟨n + 1, h⟩) := by
  rw [accAt1, if_pos h0]
theorem accAt1_step_2 (c : Dev nD) (n : ℕ) (h : n + 1 < cfg1.N) (h0 : ¬(n + 1) % 4 = 0) :
    (accAt1 V c (n + 1) h).2 = k1_pay6 (iblk1 V c 0 ⟨n + 1, h⟩) (accAt1 V c n (Nat.lt_of_succ_lt h)).2 (iblk1 V c 2 ⟨n + 1, h⟩) := by
  rw [accAt1, if_neg h0]

/-- After point `n` the accumulator holds, at `(p, q)` of the point's output block, the channel term plus the parts of
    the contraction blocks up to the point's own. -/
theorem acc1_2 (c : Dev nD) : ∀ (n : ℕ) (h : n < cfg1.N) (p q : Fin 1024) (b : Fin 8192) (j : Fin 2048),
    b.val = 1024 * (n / 8) + p.val → j.val = 1024 * ((n / 4) % 2) + q.val →
    ((accAt1 V c n h).2 (ix2 p q) : EReal) = chan1 (V c main_arg1) (V c main_v3) b j + upTo (part1 (V c main_arg0) (V c main_v1_1) b j) (n % 4) := by
  intro n
  induction n with
  | zero =>
    intro h p q b j hb hj
    rw [accAt1_zero_2, reset_at_6 V c ⟨0, h⟩ p q b j ⟨0, by norm_num⟩ hb hj rfl]
    show _ = _ + upTo _ 0
    rw [upTo_zero _ (by norm_num)]
  | succ n ih =>
    intro h p q b j hb hj
    by_cases h0 : (n + 1) % 4 = 0
    · rw [accAt1_reset_2 V c n h h0, reset_at_6 V c ⟨n + 1, h⟩ p q b j ⟨0, by norm_num⟩ hb hj (by show 0 = (n + 1) % 4; omega), h0,
        upTo_zero _ (by norm_num)]
    · have e4 : (n + 1) % 4 = n % 4 + 1 := by omega
      have hlt : n % 4 + 1 < 4 := by omega
      rw [accAt1_step_2 V c n h h0, step_at_6 V c ⟨n + 1, h⟩ _ p q b j ⟨n % 4 + 1, hlt⟩ hb hj (by show n % 4 + 1 = (n + 1) % 4; omega),
        ih (Nat.lt_of_succ_lt h) p q b j (by omega) (by omega), e4, upTo_succ _ (n % 4) hlt, add_assoc]

/-- At the last position along the contracted axis the stored output is the clipped half-angle tanh of the whole
    pre-activation: the four parts are the whole message term. -/
theorem out1_6_elem (c : Dev nD) (t : Fin cfg1.N) (h3 : t.val % 4 = 3) (p q : Fin 1024) (b : Fin 8192) (j : Fin 2048)
    (hb : b.val = 1024 * (t.val / 8) + p.val) (hj : j.val = 1024 * ((t.val / 4) % 2) + q.val) :
    (k1_pay8 (F := Ideal) (accAt1 V c t.val t.isLt).2 (ix2 p q) : EReal)
      = Cert.Spec.act (Cert.Spec.acc (V c main_arg0) (V c main_arg1) (fun k j => (V c main_v1_1 : S2048x2048.Idx → EReal) (ix2 k j))
          (fun n j => (V c main_v3 : S512x2048.Idx → EReal) (ix2 n j)) b j) := by
  rw [pay8_apply, acc1_2 V c t.val t.isLt p q b j hb hj, h3, upTo_last _ 3 (by norm_num), Fin.sum_univ_four]
  refine congrArg Cert.Spec.act ?_
  rw [← add_assoc, ← add_assoc, ← add_assoc]
  exact Cert.Spec.acc_blockIdx (term1 (V c main_arg0) (V c main_v1_1) b j) (chan1 (V c main_arg1) (V c main_v3) b j)

/-- The element of point `t`'s output block, in the shape the blocks-to-array step takes it. -/
theorem elem1_6 (c : Dev nD) (t : Fin cfg1.N) (h3 : t.val % 4 = 3) (p q : Fin 1024) (b : Fin 8192) (j : Fin 2048)
    (hb : b.val = 1024 * (t.val / 8) + p.val) (hj : j.val = 1024 * ((t.val / 4) % 2) + q.val) :
    ((dat1 (F := Ideal) V c).after 6 t : S1024x1024.Idx → EReal) (ix2 p q)
      = Cert.Spec.act (Cert.Spec.acc (V c main_arg0) (V c main_arg1) (fun k j => (V c main_v1_1 : S2048x2048.Idx → EReal) (ix2 k j))
          (fun n j => (V c main_v3 : S512x2048.Idx → EReal) (ix2 n j)) b j) :=
  (congrFun (after1_6_eq V c t h3) (ix2 p q)).trans (out1_6_elem V c t h3 p q b j hb hj)

end Cert.KernelIdeal.Hand

end
-- ==== Proof.KI.R1Blocks.lean ====
/-
  From the second call's written-back blocks to its two output arrays.

  The second call's grid is 8 x 2 x 4 with the last coordinate fastest: point t has coordinates (t / 8, (t / 4) % 2, t % 4).
  Each output window's block at point t is the [1024, 1024] tile at tile row t / 8 and tile column (t / 4) % 2 of its
  [8192, 2048] array, and it is written back exactly at the points with t % 4 = 3. Entry (b, j) of the array lies in the
  tile of the writing point 8 (b / 1024) + 4 (j / 1024) + 3, so the tiles written back cover the array; and if every
  written-back tile agrees, entry by entry, with one function G of the array's coordinates, the array the call leaves is G.
-/
import proofs.«140457_j29703993819328_1_alg».proof.Proof.KI.Region1
import proofs.«140457_j29703993819328_1_alg».proof.Proof.KI.R1Shared
import proofs.«140457_j29703993819328_1_alg».proof.Proof.Gen.KernelIdeal.Points
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

/-- The two output windows' index maps over the 64 points: tile row t / 8, tile column (t / 4) % 2. -/
theorem idx_facts1 : ∀ t : Fin cfg1.N,
    win1_5.index t (0 : Fin 2) = t.val / 8 ∧ win1_5.index t (1 : Fin 2) = (t.val / 4) % 2
    ∧ win1_6.index t (0 : Fin 2) = t.val / 8 ∧ win1_6.index t (1 : Fin 2) = (t.val / 4) % 2 :=
  (by decide +kernel : ∀ t : Fin grid1.N, _)

/-! ## Window 5 (the array main_v4_0) -/

/-- What a writing point writes back to window 5's array is its block of the whole-array function. -/
theorem flushed1_5_of_elem (c : Dev nD) (G : Fin 8192 → Fin 2048 → EReal)
    (helem : ∀ (t : Fin cfg1.N), t.val % 4 = 3 → ∀ (p q : Fin 1024) (b : Fin 8192) (j : Fin 2048),
      b.val = 1024 * (t.val / 8) + p.val → j.val = 1024 * ((t.val / 4) % 2) + q.val →
      ((dat1 (F := Ideal) V c).after 5 t : S1024x1024.Idx → EReal) (ix2 p q) = G b j)
    (t : Fin cfg1.N) (hf : (cfg1.win 5).flush t = true) :
    (dat1 (F := Ideal) V c).flushed 5 t = ((cfg1.win 5).blk t).view.read (Elt Ideal)
      (fun i : S8192x2048.Idx => G (i 0) (i 1)) := by
  obtain ⟨e50, e51, e60, e61⟩ := idx_facts1 t
  have h3 : t.val % 4 = 3 := (flush1_5 t).mp hf
  show (cfg1.win 5).cut (grid1.coords t) ((dat1 V c).after 5 t) = _
  funext y
  obtain ⟨p, q, rfl⟩ : ∃ (p : Fin 1024) (q : Fin 1024), y = ix2 p q := ⟨y 0, y 1, eq_ix2 y⟩
  rw [View.read_apply]
  refine helem t h3 p q _ _ ?_ ?_
  · show win1_5.index t (0 : Fin 2) * 1024 + 1 * p.val = 1024 * (t.val / 8) + p.val; omega
  · show win1_5.index t (1 : Fin 2) * 1024 + 1 * q.val = 1024 * ((t.val / 4) % 2) + q.val; omega

/-- An index of the array is in point t's block iff each coordinate is in the block's range on its axis. -/
theorem mem_blk1_5 (t : Fin cfg1.N) (i : S8192x2048.Idx) :
    i ∈ ((cfg1.win 5).blk t).view.set ↔ ∀ a : Fin 2, win1_5.index t a * S1024x1024.size a ≤ (i a).val ∧ (i a).val < win1_5.index t a * S1024x1024.size a + S1024x1024.size a := by
  show i ∈ ((View.whole main_v4_0).slice (win1_5.rect t)).set ↔ _
  rw [View.set_slice_whole, Rect.mem_set_unit]
  exact Iff.rfl

/-- The entry (b, j) lies in the block of the writing point 8 (b / 1024) + 4 (j / 1024) + 3. -/
theorem covered1_5 (i : S8192x2048.Idx) : ∃ t : Fin cfg1.N, (cfg1.win 5).flush t = true ∧ i ∈ ((cfg1.win 5).blk t).view.set := by
  have hi0 : (i 0).val < 8192 := (i 0).isLt
  have hi1 : (i 1).val < 2048 := (i 1).isLt
  have hN : cfg1.N = 64 := N_1
  have ht : 8 * ((i 0).val / 1024) + 4 * ((i 1).val / 1024) + 3 < cfg1.N := by rw [hN]; omega
  obtain ⟨e50, e51, e60, e61⟩ := idx_facts1 ⟨8 * ((i 0).val / 1024) + 4 * ((i 1).val / 1024) + 3, ht⟩
  refine ⟨⟨8 * ((i 0).val / 1024) + 4 * ((i 1).val / 1024) + 3, ht⟩, (flush1_5 _).mpr (by show (8 * ((i 0).val / 1024) + 4 * ((i 1).val / 1024) + 3) % 4 = 3; omega), ?_⟩
  rw [mem_blk1_5]
  intro a
  match a with
  | ⟨0, _⟩ =>
    show win1_5.index ⟨8 * ((i 0).val / 1024) + 4 * ((i 1).val / 1024) + 3, ht⟩ (0 : Fin 2) * 1024 ≤ (i 0).val ∧ (i 0).val < win1_5.index ⟨8 * ((i 0).val / 1024) + 4 * ((i 1).val / 1024) + 3, ht⟩ (0 : Fin 2) * 1024 + 1024
    rw [e50]; show (8 * ((i 0).val / 1024) + 4 * ((i 1).val / 1024) + 3) / 8 * 1024 ≤ (i 0).val ∧ (i 0).val < (8 * ((i 0).val / 1024) + 4 * ((i 1).val / 1024) + 3) / 8 * 1024 + 1024; omega
  | ⟨1, _⟩ =>
    show win1_5.index ⟨8 * ((i 0).val / 1024) + 4 * ((i 1).val / 1024) + 3, ht⟩ (1 : Fin 2) * 1024 ≤ (i 1).val ∧ (i 1).val < win1_5.index ⟨8 * ((i 0).val / 1024) + 4 * ((i 1).val / 1024) + 3, ht⟩ (1 : Fin 2) * 1024 + 1024
    rw [e51]; show (8 * ((i 0).val / 1024) + 4 * ((i 1).val / 1024) + 3) / 4 % 2 * 1024 ≤ (i 1).val ∧ (i 1).val < (8 * ((i 0).val / 1024) + 4 * ((i 1).val / 1024) + 3) / 4 % 2 * 1024 + 1024; omega

/-- Window 5's array after the second call is the whole-array function, once every written-back block is. -/
theorem arr1_5_of_elem (c : Dev nD) (G : Fin 8192 → Fin 2048 → EReal)
    (helem : ∀ (t : Fin cfg1.N), t.val % 4 = 3 → ∀ (p q : Fin 1024) (b : Fin 8192) (j : Fin 2048),
      b.val = 1024 * (t.val / 8) + p.val → j.val = 1024 * ((t.val / 4) % 2) + q.val →
      ((dat1 (F := Ideal) V c).after 5 t : S1024x1024.Idx → EReal) (ix2 p q) = G b j) :
    ((dat1 (F := Ideal) V c).arrAt 5 cfg1.N : S8192x2048.Idx → EReal) = fun i => G (i 0) (i 1) :=
  (dat1 (F := Ideal) V c).arrAt_eq_of_cover 5 _ (fun t hf => flushed1_5_of_elem V c G helem t hf) covered1_5

/-! ## Window 6 (the array main_v4_1) -/

/-- What a writing point writes back to window 6's array is its block of the whole-array function. -/
theorem flushed1_6_of_elem (c : Dev nD) (G : Fin 8192 → Fin 2048 → EReal)
    (helem : ∀ (t : Fin cfg1.N), t.val % 4 = 3 → ∀ (p q : Fin 1024) (b : Fin 8192) (j : Fin 2048),
      b.val = 1024 * (t.val / 8) + p.val → j.val = 1024 * ((t.val / 4) % 2) + q.val →
      ((dat1 (F := Ideal) V c).after 6 t : S1024x1024.Idx → EReal) (ix2 p q) = G b j)
    (t : Fin cfg1.N) (hf : (cfg1.win 6).flush t = true) :
    (dat1 (F := Ideal) V c).flushed 6 t = ((cfg1.win 6).blk t).view.read (Elt Ideal)
      (fun i : S8192x2048.Idx => G (i 0) (i 1)) := by
  obtain ⟨e50, e51, e60, e61⟩ := idx_facts1 t
  have h3 : t.val % 4 = 3 := (flush1_6 t).mp hf
  show (cfg1.win 6).cut (grid1.coords t) ((dat1 V c).after 6 t) = _
  funext y
  obtain ⟨p, q, rfl⟩ : ∃ (p : Fin 1024) (q : Fin 1024), y = ix2 p q := ⟨y 0, y 1, eq_ix2 y⟩
  rw [View.read_apply]
  refine helem t h3 p q _ _ ?_ ?_
  · show win1_6.index t (0 : Fin 2) * 1024 + 1 * p.val = 1024 * (t.val / 8) + p.val; omega
  · show win1_6.index t (1 : Fin 2) * 1024 + 1 * q.val = 1024 * ((t.val / 4) % 2) + q.val; omega

/-- An index of the array is in point t's block iff each coordinate is in the block's range on its axis. -/
theorem mem_blk1_6 (t : Fin cfg1.N) (i : S8192x2048.Idx) :
    i ∈ ((cfg1.win 6).blk t).view.set ↔ ∀ a : Fin 2, win1_6.index t a * S1024x1024.size a ≤ (i a).val ∧ (i a).val < win1_6.index t a * S1024x1024.size a + S1024x1024.size a := by
  show i ∈ ((View.whole main_v4_1).slice (win1_6.rect t)).set ↔ _
  rw [View.set_slice_whole, Rect.mem_set_unit]
  exact Iff.rfl

/-- The entry (b, j) lies in the block of the writing point 8 (b / 1024) + 4 (j / 1024) + 3. -/
theorem covered1_6 (i : S8192x2048.Idx) : ∃ t : Fin cfg1.N, (cfg1.win 6).flush t = true ∧ i ∈ ((cfg1.win 6).blk t).view.set := by
  have hi0 : (i 0).val < 8192 := (i 0).isLt
  have hi1 : (i 1).val < 2048 := (i 1).isLt
  have hN : cfg1.N = 64 := N_1
  have ht : 8 * ((i 0).val / 1024) + 4 * ((i 1).val / 1024) + 3 < cfg1.N := by rw [hN]; omega
  obtain ⟨e50, e51, e60, e61⟩ := idx_facts1 ⟨8 * ((i 0).val / 1024) + 4 * ((i 1).val / 1024) + 3, ht⟩
  refine ⟨⟨8 * ((i 0).val / 1024) + 4 * ((i 1).val / 1024) + 3, ht⟩, (flush1_6 _).mpr (by show (8 * ((i 0).val / 1024) + 4 * ((i 1).val / 1024) + 3) % 4 = 3; omega), ?_⟩
  rw [mem_blk1_6]
  intro a
  match a with
  | ⟨0, _⟩ =>
    show win1_6.index ⟨8 * ((i 0).val / 1024) + 4 * ((i 1).val / 1024) + 3, ht⟩ (0 : Fin 2) * 1024 ≤ (i 0).val ∧ (i 0).val < win1_6.index ⟨8 * ((i 0).val / 1024) + 4 * ((i 1).val / 1024) + 3, ht⟩ (0 : Fin 2) * 1024 + 1024
    rw [e60]; show (8 * ((i 0).val / 1024) + 4 * ((i 1).val / 1024) + 3) / 8 * 1024 ≤ (i 0).val ∧ (i 0).val < (8 * ((i 0).val / 1024) + 4 * ((i 1).val / 1024) + 3) / 8 * 1024 + 1024; omega
  | ⟨1, _⟩ =>
    show win1_6.index ⟨8 * ((i 0).val / 1024) + 4 * ((i 1).val / 1024) + 3, ht⟩ (1 : Fin 2) * 1024 ≤ (i 1).val ∧ (i 1).val < win1_6.index ⟨8 * ((i 0).val / 1024) + 4 * ((i 1).val / 1024) + 3, ht⟩ (1 : Fin 2) * 1024 + 1024
    rw [e61]; show (8 * ((i 0).val / 1024) + 4 * ((i 1).val / 1024) + 3) / 4 % 2 * 1024 ≤ (i 1).val ∧ (i 1).val < (8 * ((i 0).val / 1024) + 4 * ((i 1).val / 1024) + 3) / 4 % 2 * 1024 + 1024; omega

/-- Window 6's array after the second call is the whole-array function, once every written-back block is. -/
theorem arr1_6_of_elem (c : Dev nD) (G : Fin 8192 → Fin 2048 → EReal)
    (helem : ∀ (t : Fin cfg1.N), t.val % 4 = 3 → ∀ (p q : Fin 1024) (b : Fin 8192) (j : Fin 2048),
      b.val = 1024 * (t.val / 8) + p.val → j.val = 1024 * ((t.val / 4) % 2) + q.val →
      ((dat1 (F := Ideal) V c).after 6 t : S1024x1024.Idx → EReal) (ix2 p q) = G b j) :
    ((dat1 (F := Ideal) V c).arrAt 6 cfg1.N : S8192x2048.Idx → EReal) = fun i => G (i 0) (i 1) :=
  (dat1 (F := Ideal) V c).arrAt_eq_of_cover 6 _ (fun t hf => flushed1_6_of_elem V c G helem t hf) covered1_6

end Cert.KernelIdeal.Hand

end
-- ==== Proof.KI.Region1Arr.lean ====
import proofs.«140457_j29703993819328_1_alg».proof.Proof.KI.Region1Value
import proofs.«140457_j29703993819328_1_alg».proof.Proof.KI.R1Blocks
import proofs.«140457_j29703993819328_1_alg».proof.Proof.KI.R1Payload
import proofs.«140457_j29703993819328_1_alg».proof.Proof.AccAlgebra
import proofs.«140457_j29703993819328_1_alg».proof.Proof.LibTileSum
import proofs.«140457_j29703993819328_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen
open Cert.TileSum
open scoped BigOperators

variable (V : (c : Dev nD) → (b : Ref sig .tc) → Buf (Elt Ideal) ((c : Thread nD τ).loc b))

/-! # Region 1's two output arrays after the region -/

/-- The first output: the clipped half-angle tanh of the pre-activation against the first weight matrix. -/
theorem arr1_5 (c : Dev nD) :
    ((dat1 (F := Ideal) V c).arrAt 5 cfg1.N : S8192x2048.Idx → EReal)
      = fun i => Cert.Spec.act (Cert.Spec.acc (V c main_arg0) (V c main_arg1) (fun k j => (V c main_v1_0 : S2048x2048.Idx → EReal) (ix2 k j))
          (fun n j => (V c main_v3 : S512x2048.Idx → EReal) (ix2 n j)) (i 0) (i 1)) :=
  arr1_5_of_elem V c _ (fun t h3 p q b j hb hj => elem1_5 V c t h3 p q b j hb hj)

/-- The second output, against the second weight matrix. -/
theorem arr1_6 (c : Dev nD) :
    ((dat1 (F := Ideal) V c).arrAt 6 cfg1.N : S8192x2048.Idx → EReal)
      = fun i => Cert.Spec.act (Cert.Spec.acc (V c main_arg0) (V c main_arg1) (fun k j => (V c main_v1_1 : S2048x2048.Idx → EReal) (ix2 k j))
          (fun n j => (V c main_v3 : S512x2048.Idx → EReal) (ix2 n j)) (i 0) (i 1)) :=
  arr1_6_of_elem V c _ (fun t h3 p q b j hb hj => elem1_6 V c t h3 p q b j hb hj)

end Cert.KernelIdeal.Hand

end
-- ==== Proof.KI.KernelValue.lean ====
/-
  The idealized kernel's run, read: its two output arrays and its scalar as the specification's functions of the
  argument arrays.

  The first region leaves W1, W2 and the rows' sums of squares of the weights (its three output arrays); the host line
  between the regions leaves the masked channel weights; the second region leaves, block by block, the clipped half-angle
  tanh of (channel term + four partial products), which is the specification's pre-activation by commutativity and
  associativity of the sum; the host lines after it compute the regulariser from the keep probabilities and the sums of
  squares by the same chain of operations as the reference.
-/
import proofs.«140457_j29703993819328_1_alg».proof.Proof.Spec
import proofs.«140457_j29703993819328_1_alg».proof.Proof.KI.Run
import proofs.«140457_j29703993819328_1_alg».proof.Proof.KI.FoldGlue
import proofs.«140457_j29703993819328_1_alg».proof.Proof.KI.HostGlue
import proofs.«140457_j29703993819328_1_alg».proof.Proof.KI.Region0Value
import proofs.«140457_j29703993819328_1_alg».proof.Proof.KI.Region1Arr
import Idealize.ShloMosaic.Lib.ValueIdx

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- What the second region reads as its weight matrices is the specification's W1 and W2 of the arguments. -/
theorem V3_W1 (c : Dev nD) : (fun k j => (V3 m c main_v1_0 : S2048x2048.Idx → EReal) (ix2 k j))
    = Cert.Spec.W1 (m ((c.tc : Thread nD τ).loc main_arg2)) (m ((c.tc : Thread nD τ).loc main_arg6)) (m ((c.tc : Thread nD τ).loc main_arg5)) (m ((c.tc : Thread nD τ).loc main_arg4)) := by
  funext k j
  rw [V3_v1_0, arr0_4 (V1 m) c (m ((c.tc : Thread nD τ).loc main_arg4)) (V1_v0 m c), V1_arg2, V1_arg6, V1_arg5]
  rfl
theorem V3_W2 (c : Dev nD) : (fun k j => (V3 m c main_v1_1 : S2048x2048.Idx → EReal) (ix2 k j))
    = Cert.Spec.W2 (m ((c.tc : Thread nD τ).loc main_arg2)) (m ((c.tc : Thread nD τ).loc main_arg6)) (m ((c.tc : Thread nD τ).loc main_arg5)) (m ((c.tc : Thread nD τ).loc main_arg4)) := by
  funext k j
  rw [V3_v1_1, arr0_5 (V1 m) c (m ((c.tc : Thread nD τ).loc main_arg4)) (V1_v0 m c), V1_arg2, V1_arg6, V1_arg5]
  rfl
/-- And its channel weights are the specification's. -/
theorem V3_LW (c : Dev nD) : (fun n j => (V3 m c main_v3 : S512x2048.Idx → EReal) (ix2 n j))
    = Cert.Spec.LW (m ((c.tc : Thread nD τ).loc main_arg7)) (m ((c.tc : Thread nD τ).loc main_arg3)) :=
  funext fun n => funext fun j => V3_v3 m c n j

/-- The first output array after the run. -/
theorem out1_eq (c : Dev nD) : W5 m c (Proc.devRef .tc main_v4_0)
    = (fun i => Cert.Spec.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (i 0) (i 1)) := by
  rw [W5_v4_0, arr1_5 (V3 m) c, V3_W1, V3_LW, V3_arg0, V3_arg1]
  rfl
/-- The second. -/
theorem out2_eq (c : Dev nD) : W5 m c (Proc.devRef .tc main_v4_1)
    = (fun i => Cert.Spec.out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (i 0) (i 1)) := by
  rw [W5_v4_1, arr1_6 (V3 m) c, V3_W2, V3_LW, V3_arg0, V3_arg1]
  rfl
/-- The regulariser. -/
theorem kl_eq (c : Dev nD) : W5 m c (Proc.devRef .tc main_v27)
    = (fun _ => Cert.Spec.kl (m ((c.tc : Thread nD τ).loc main_arg4)) (Cert.Spec.ss (m ((c.tc : Thread nD τ).loc main_arg2)))) := by
  rw [W5_v27, arr0_6 (V1 m) c, V1_arg2]
  rfl

/-- THE RUN at the ideal instance: every weakly fair execution terminates, the three results at the specification's
    functions of the launch contents, the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v4_0) = (fun i => Cert.Spec.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (i 0) (i 1))
      ∧ r.2.mem ((c.tc : Thread nD τ).loc main_v4_1) = (fun i => Cert.Spec.out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (i 0) (i 1))
      ∧ r.2.mem ((c.tc : Thread nD τ).loc main_v27) = (fun _ => Cert.Spec.kl (m ((c.tc : Thread nD τ).loc main_arg4)) (Cert.Spec.ss (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun r h c =>
    ⟨(h c _ (mem_uc main_v4_0 (by decide))).trans (out1_eq m c),
     (h c _ (mem_uc main_v4_1 (by decide))).trans (out2_eq m c),
     (h c _ (mem_uc main_v27 (by decide))).trans (kl_eq m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c),
     (h c _ (mem_uc main_arg7 (by decide))).trans (W5_main_arg7 m c)⟩) (run_all m ρ)

end Cert.KernelIdeal.Hand

end
-- ==== Proof.RefOut.lean ====
/-
  The reference's two matrix results are the specification's outputs, index by index.

  At row b and column j the reference computes tanh (1/2 * min 10 (max (-10) a)) with
  a = (sum over k of x b k * W k j) + (sum over n of llr b n * (skip n j * llrw n j)), where
  W k j = (mask k j * oddw k j) * [u k j < p (logit j)] for the first result and
  W k j = (mask k j * oddw k j) * [u k j > p (-(logit j))] for the second. The reference spells
  p(l) as 1 / (1 + e^(-l)) with the literal one a float word; that word denotes the extended real 1, so p is the
  logistic function, and the second result's doubly negated logit is the logistic's argument -l as written.
  The comparison's bit converted to a float is the real 0 or 1. Each step below reads one stage of the
  reference at an index from its operands at an index; no finiteness is used.
-/
import proofs.«140457_j29703993819328_1_alg».proof.Proof.Spec
import proofs.«140457_j29703993819328_1_alg».proof.Proof.Gen.ReferenceIdeal.Read
import Idealize.ShloMosaic.Lib.ValueIdx
import Idealize.ShloMosaic.PureOps.Ideal.Laws
import Idealize.ShloMosaic.Lib.StableHlo.Run
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx Cert.ReferenceIdeal.Read

/-- The comparison bit converted to a float is 0 or 1. -/
theorem uitofp_eq_bit01 (b : BitVec 1) : FloatOps.uitofp (F := Ideal) .f32 b = Cert.Spec.bit01 b := rfl
theorem cmpf_eq_cmp (p : CmpFPredicate) (x y : EReal) : FloatOps.cmpf (F := Ideal) (φ := .f32) p x y = Ideal.cmp p x y := rfl

theorem lidx23 (b : Fin 8192) (j k : Fin 2048) : lidx_main_v23 (ix2 b j) k = ix2 b k :=
  funext fun a => match a with | ⟨0, _⟩ => rfl | ⟨1, _⟩ => rfl
theorem ridx23 (b : Fin 8192) (j k : Fin 2048) : ridx_main_v23 (ix2 b j) k = ix2 k j :=
  funext fun a => match a with | ⟨0, _⟩ => rfl | ⟨1, _⟩ => rfl
theorem lidx27 (b : Fin 8192) (j : Fin 2048) (n : Fin 512) : lidx_main_v27 (ix2 b j) n = ix2 b n :=
  funext fun a => match a with | ⟨0, _⟩ => rfl | ⟨1, _⟩ => rfl
theorem ridx27 (b : Fin 8192) (j : Fin 2048) (n : Fin 512) : ridx_main_v27 (ix2 b j) n = ix2 n j :=
  funext fun a => match a with | ⟨0, _⟩ => rfl | ⟨1, _⟩ => rfl
theorem idx78 (k j : Fin 2048) : idx_main_v7 (idx_main_v8 (ix2 k j)) = ix1 j :=
  funext fun a => match a with | ⟨0, _⟩ => rfl

/-- The keep probability the reference spells, at column j. -/
theorem v5_at (x4 : (⟨S2048, .f32⟩ : BufTy).Contents (Elt Ideal)) (j : Fin 2048) :
    val_main_v5 (F := Ideal) x4 (ix1 j) = Ideal.logistic (x4 (ix1 j)) := by
  rw [val_main_v5_apply, val_main_v4_apply, val_main_cst_0_apply, val_main_v3_apply, val_main_v2_apply, val_main_cst_apply,
    val_main_v1_apply, val_main_v0_apply]
  simp only [Ideal.hostDivf_def, Ideal.addf_def, Ideal.hostUnary_exp_def, Ideal.hostNegf_def, Ideal.negf_def, Ideal.ofBits_def,
    Ideal.ofBits_one_f32]
  rfl

/-- The antithetic keep probability, at column j: the logistic of the negated logit. -/
theorem v17_at (x4 : (⟨S2048, .f32⟩ : BufTy).Contents (Elt Ideal)) (j : Fin 2048) :
    val_main_v17 (F := Ideal) x4 (ix1 j) = Ideal.logistic (-(x4 (ix1 j))) := by
  rw [val_main_v17_apply, val_main_v16_apply, val_main_cst_2_apply, val_main_v15_apply, val_main_v14_apply, val_main_cst_1_apply,
    val_main_v13_apply, val_main_v12_apply, val_main_v11_apply]
  simp only [Ideal.hostDivf_def, Ideal.addf_def, Ideal.hostUnary_exp_def, Ideal.hostNegf_def, Ideal.negf_def, Ideal.ofBits_def,
    Ideal.ofBits_one_f32]
  rfl

theorem idx1819 (k j : Fin 2048) : idx_main_v18 (idx_main_v19 (ix2 k j)) = ix1 j :=
  funext fun a => match a with | ⟨0, _⟩ => rfl

/-- The masked weight times the keep bit, at row k and column j. -/
theorem v22_at (x2 : (⟨S2048x2048, .f32⟩ : BufTy).Contents (Elt Ideal)) (x4 : (⟨S2048, .f32⟩ : BufTy).Contents (Elt Ideal))
    (x5 x6 : (⟨S2048x2048, .f32⟩ : BufTy).Contents (Elt Ideal)) (k j : Fin 2048) :
    val_main_v22 (F := Ideal) x2 x4 x5 x6 (ix2 k j) = Cert.Spec.W1 x2 x6 x5 x4 k j := by
  rw [val_main_v22_apply, val_main_v6_apply, val_main_v10_apply, val_main_v9_apply, val_main_v8_apply, val_main_v7_apply, idx78, v5_at,
    uitofp_eq_bit01, cmpf_eq_cmp, Ideal.mulf_def, Ideal.mulf_def]
  rfl

/-- The masked weight times the antithetic keep bit, at row k and column j. -/
theorem v24_at (x2 : (⟨S2048x2048, .f32⟩ : BufTy).Contents (Elt Ideal)) (x4 : (⟨S2048, .f32⟩ : BufTy).Contents (Elt Ideal))
    (x5 x6 : (⟨S2048x2048, .f32⟩ : BufTy).Contents (Elt Ideal)) (k j : Fin 2048) :
    val_main_v24 (F := Ideal) x2 x4 x5 x6 (ix2 k j) = Cert.Spec.W2 x2 x6 x5 x4 k j := by
  rw [val_main_v24_apply, val_main_v6_apply, val_main_v21_apply, val_main_v20_apply, val_main_v19_apply, val_main_v18_apply, idx1819, v17_at,
    uitofp_eq_bit01, cmpf_eq_cmp, Ideal.mulf_def, Ideal.mulf_def]
  rfl

/-- The masked channel weight, at row n and column j. -/
theorem v26_at (x3 x7 : (⟨S512x2048, .f32⟩ : BufTy).Contents (Elt Ideal)) (n : Fin 512) (j : Fin 2048) :
    val_main_v26 (F := Ideal) x3 x7 (ix2 n j) = Cert.Spec.LW x7 x3 n j := by
  rw [val_main_v26_apply, Ideal.mulf_def]
  rfl

theorem lidx25 (b : Fin 8192) (j k : Fin 2048) : lidx_main_v25 (ix2 b j) k = ix2 b k :=
  funext fun a => match a with | ⟨0, _⟩ => rfl | ⟨1, _⟩ => rfl
theorem ridx25 (b : Fin 8192) (j k : Fin 2048) : ridx_main_v25 (ix2 b j) k = ix2 k j :=
  funext fun a => match a with | ⟨0, _⟩ => rfl | ⟨1, _⟩ => rfl

/-- The first output's pre-activation at row b and column j: the messages plus the channel term. -/
theorem v28_at (x0 : (⟨S8192x2048, .f32⟩ : BufTy).Contents (Elt Ideal)) (x1 : (⟨S8192x512, .f32⟩ : BufTy).Contents (Elt Ideal))
    (x2 : (⟨S2048x2048, .f32⟩ : BufTy).Contents (Elt Ideal)) (x3 : (⟨S512x2048, .f32⟩ : BufTy).Contents (Elt Ideal))
    (x4 : (⟨S2048, .f32⟩ : BufTy).Contents (Elt Ideal)) (x5 x6 : (⟨S2048x2048, .f32⟩ : BufTy).Contents (Elt Ideal))
    (x7 : (⟨S512x2048, .f32⟩ : BufTy).Contents (Elt Ideal)) (b : Fin 8192) (j : Fin 2048) :
    val_main_v28 (F := Ideal) x0 x1 x2 x3 x4 x5 x6 x7 (ix2 b j)
      = Cert.Spec.acc x0 x1 (Cert.Spec.W1 x2 x6 x5 x4) (Cert.Spec.LW x7 x3) b j := by
  rw [val_main_v28_apply, val_main_v23_apply, val_main_v27_apply, Ideal.addf_def]
  simp only [lidx23, ridx23, lidx27, ridx27, v22_at, v26_at]
  rfl

/-- The second output's pre-activation at row b and column j. -/
theorem v33_at (x0 : (⟨S8192x2048, .f32⟩ : BufTy).Contents (Elt Ideal)) (x1 : (⟨S8192x512, .f32⟩ : BufTy).Contents (Elt Ideal))
    (x2 : (⟨S2048x2048, .f32⟩ : BufTy).Contents (Elt Ideal)) (x3 : (⟨S512x2048, .f32⟩ : BufTy).Contents (Elt Ideal))
    (x4 : (⟨S2048, .f32⟩ : BufTy).Contents (Elt Ideal)) (x5 x6 : (⟨S2048x2048, .f32⟩ : BufTy).Contents (Elt Ideal))
    (x7 : (⟨S512x2048, .f32⟩ : BufTy).Contents (Elt Ideal)) (b : Fin 8192) (j : Fin 2048) :
    val_main_v33 (F := Ideal) x0 x1 x2 x3 x4 x5 x6 x7 (ix2 b j)
      = Cert.Spec.acc x0 x1 (Cert.Spec.W2 x2 x6 x5 x4) (Cert.Spec.LW x7 x3) b j := by
  rw [val_main_v33_apply, val_main_v25_apply, val_main_v27_apply, Ideal.addf_def]
  simp only [lidx25, ridx25, lidx27, ridx27, v24_at, v26_at]
  rfl

/-- The first output at row b and column j: clip to [-10, 10], halve, tanh. -/
theorem v32_at (x0 : (⟨S8192x2048, .f32⟩ : BufTy).Contents (Elt Ideal)) (x1 : (⟨S8192x512, .f32⟩ : BufTy).Contents (Elt Ideal))
    (x2 : (⟨S2048x2048, .f32⟩ : BufTy).Contents (Elt Ideal)) (x3 : (⟨S512x2048, .f32⟩ : BufTy).Contents (Elt Ideal))
    (x4 : (⟨S2048, .f32⟩ : BufTy).Contents (Elt Ideal)) (x5 x6 : (⟨S2048x2048, .f32⟩ : BufTy).Contents (Elt Ideal))
    (x7 : (⟨S512x2048, .f32⟩ : BufTy).Contents (Elt Ideal)) (b : Fin 8192) (j : Fin 2048) :
    val_main_v32 (F := Ideal) x0 x1 x2 x3 x4 x5 x6 x7 (ix2 b j) = Cert.Spec.out1 x0 x1 x2 x3 x4 x5 x6 x7 b j := by
  rw [val_main_v32_apply, val_main_v31_apply, val_main_v30_apply, val_main_cst_5_apply, val_main_v29_apply,
    val_main_call0_v4_apply, val_main_call0_v3_apply, val_main_cst_4_apply, val_main_call0_v2_apply,
    val_main_call0_v1_apply, val_main_call0_v0_apply, val_main_cst_3_apply, v28_at]
  rfl

/-- The second output at row b and column j. -/
theorem v37_at (x0 : (⟨S8192x2048, .f32⟩ : BufTy).Contents (Elt Ideal)) (x1 : (⟨S8192x512, .f32⟩ : BufTy).Contents (Elt Ideal))
    (x2 : (⟨S2048x2048, .f32⟩ : BufTy).Contents (Elt Ideal)) (x3 : (⟨S512x2048, .f32⟩ : BufTy).Contents (Elt Ideal))
    (x4 : (⟨S2048, .f32⟩ : BufTy).Contents (Elt Ideal)) (x5 x6 : (⟨S2048x2048, .f32⟩ : BufTy).Contents (Elt Ideal))
    (x7 : (⟨S512x2048, .f32⟩ : BufTy).Contents (Elt Ideal)) (b : Fin 8192) (j : Fin 2048) :
    val_main_v37 (F := Ideal) x0 x1 x2 x3 x4 x5 x6 x7 (ix2 b j) = Cert.Spec.out2 x0 x1 x2 x3 x4 x5 x6 x7 b j := by
  rw [val_main_v37_apply, val_main_v36_apply, val_main_v35_apply, val_main_cst_8_apply, val_main_v34_apply,
    val_main_call1_v4_apply, val_main_call1_v3_apply, val_main_cst_7_apply, val_main_call1_v2_apply,
    val_main_call1_v1_apply, val_main_call1_v0_apply, val_main_cst_6_apply, v33_at]
  rfl

/-- The reference's first result is the specification's first output. -/
theorem val_v32_eq (x0 : (⟨S8192x2048, .f32⟩ : BufTy).Contents (Elt Ideal)) (x1 : (⟨S8192x512, .f32⟩ : BufTy).Contents (Elt Ideal))
    (x2 : (⟨S2048x2048, .f32⟩ : BufTy).Contents (Elt Ideal)) (x3 : (⟨S512x2048, .f32⟩ : BufTy).Contents (Elt Ideal))
    (x4 : (⟨S2048, .f32⟩ : BufTy).Contents (Elt Ideal)) (x5 x6 : (⟨S2048x2048, .f32⟩ : BufTy).Contents (Elt Ideal))
    (x7 : (⟨S512x2048, .f32⟩ : BufTy).Contents (Elt Ideal)) :
    val_main_v32 (F := Ideal) x0 x1 x2 x3 x4 x5 x6 x7 = fun i => Cert.Spec.out1 x0 x1 x2 x3 x4 x5 x6 x7 (i 0) (i 1) := by
  funext i
  obtain ⟨b, j, rfl⟩ : ∃ (b : Fin 8192) (j : Fin 2048), i = ix2 b j := ⟨i 0, i 1, eq_ix2 i⟩
  exact v32_at x0 x1 x2 x3 x4 x5 x6 x7 b j

/-- The reference's second result is the specification's second output. -/
theorem val_v37_eq (x0 : (⟨S8192x2048, .f32⟩ : BufTy).Contents (Elt Ideal)) (x1 : (⟨S8192x512, .f32⟩ : BufTy).Contents (Elt Ideal))
    (x2 : (⟨S2048x2048, .f32⟩ : BufTy).Contents (Elt Ideal)) (x3 : (⟨S512x2048, .f32⟩ : BufTy).Contents (Elt Ideal))
    (x4 : (⟨S2048, .f32⟩ : BufTy).Contents (Elt Ideal)) (x5 x6 : (⟨S2048x2048, .f32⟩ : BufTy).Contents (Elt Ideal))
    (x7 : (⟨S512x2048, .f32⟩ : BufTy).Contents (Elt Ideal)) :
    val_main_v37 (F := Ideal) x0 x1 x2 x3 x4 x5 x6 x7 = fun i => Cert.Spec.out2 x0 x1 x2 x3 x4 x5 x6 x7 (i 0) (i 1) := by
  funext i
  obtain ⟨b, j, rfl⟩ : ∃ (b : Fin 8192) (j : Fin 2048), i = ix2 b j := ⟨i 0, i 1, eq_ix2 i⟩
  exact v37_at x0 x1 x2 x3 x4 x5 x6 x7 b j

end Cert.ReferenceIdeal.RefValue

end
-- ==== Proof.RefKl.lean ====
/-
  The reference's scalar result is the specification's regulariser.

  The reference computes (0 + sum over rows r of ((25/2 * p r) * ss r - ((-(p r)) * log (p r) - (1 - p r) * log (1 - p r)))) / 2048,
  with p r = 1 / (1 + e^(-(logit r))) and ss r = 0 + sum over j of oddw r j * oddw r j. The float literals stay as their
  words on both sides, except the zero a row's sum of squares starts from: that word denotes 0, and 0 + s = s.
  A sum over the one-axis index set of extent 2048 is the sum over its coordinate.
-/
import proofs.«140457_j29703993819328_1_alg».proof.Proof.Spec
import proofs.«140457_j29703993819328_1_alg».proof.Proof.Gen.ReferenceIdeal.Read
import Idealize.ShloMosaic.Lib.ValueIdx
import Idealize.ShloMosaic.PureOps.Ideal.Laws
import Idealize.ShloMosaic.Lib.StableHlo.Run
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx Cert.ReferenceIdeal.Read

/-- A rank-1 index set of extent 2048 is its one coordinate's range, so a sum over it is the sum over the coordinate. -/
def idxEquiv1 : (⟨1, ![2048]⟩ : Shape).Idx ≃ Fin 2048 where
  toFun i := i 0
  invFun r := ix1 r
  left_inv i := (eq_ix1 i).symm
  right_inv _ := rfl
theorem sum_idx1 (f : S2048.Idx → EReal) : ∑ i, f i = ∑ r : Fin 2048, f (ix1 r) :=
  (Equiv.sum_comp idxEquiv1.symm f).symm

theorem idx41 (r k : Fin 2048) : idx_main_v41 (ix1 r) k = ix2 r k :=
  funext fun a => match a with | ⟨0, _⟩ => rfl | ⟨1, _⟩ => rfl

/-- The keep probability at row r, with the literal one kept as its word. -/
theorem v5_prob (x4 : (⟨S2048, .f32⟩ : BufTy).Contents (Elt Ideal)) (r : Fin 2048) :
    val_main_v5 (F := Ideal) x4 (ix1 r) = Cert.Spec.prob (x4 (ix1 r)) := by
  rw [val_main_v5_apply, val_main_v4_apply, val_main_cst_0_apply, val_main_v3_apply, val_main_v2_apply, val_main_cst_apply,
    val_main_v1_apply, val_main_v0_apply]
  rfl

/-- A row's sum of squares: the host's leading zero drops. -/
theorem v41_at (x2 : (⟨S2048x2048, .f32⟩ : BufTy).Contents (Elt Ideal)) (r : Fin 2048) :
    val_main_v41 (F := Ideal) x2 (ix1 r) = Cert.Spec.ss x2 r := by
  rw [val_main_v41_apply, val_main_cst_10_apply, Ideal.ofBits_def, Ideal.ofBits_zero_f32, zero_add]
  simp only [idx41, val_main_v40_apply, Ideal.mulf_def]
  rfl

/-- The regulariser's summand at row r. -/
theorem v53_at (x2 : (⟨S2048x2048, .f32⟩ : BufTy).Contents (Elt Ideal)) (x4 : (⟨S2048, .f32⟩ : BufTy).Contents (Elt Ideal)) (r : Fin 2048) :
    val_main_v53 (F := Ideal) x2 x4 (ix1 r) = Cert.Spec.klSummand (Cert.Spec.prob (x4 (ix1 r))) (Cert.Spec.ss x2 r) := by
  rw [val_main_v53_apply, val_main_v42_apply, val_main_v39_apply, val_main_v38_apply, val_main_cst_9_apply, val_main_v52_apply,
    val_main_v45_apply, val_main_v43_apply, val_main_v44_apply, val_main_v51_apply, val_main_v47_apply, val_main_v46_apply,
    val_main_cst_11_apply, val_main_v50_apply, val_main_v49_apply, val_main_v48_apply, val_main_cst_12_apply, v5_prob, v41_at]
  rfl

/-- The reference's third result is the specification's regulariser. -/
theorem val_v55_eq (x2 : (⟨S2048x2048, .f32⟩ : BufTy).Contents (Elt Ideal)) (x4 : (⟨S2048, .f32⟩ : BufTy).Contents (Elt Ideal)) :
    val_main_v55 (F := Ideal) x2 x4 = fun _ => Cert.Spec.kl x4 (Cert.Spec.ss x2) := by
  funext i
  rw [val_main_v55_apply, val_main_v54_apply, val_main_cst_13_apply, val_main_cst_14_apply, sum_idx1]
  simp only [v53_at]
  rfl

end Cert.ReferenceIdeal.RefValue

end
-- ==== Proof.RefValue.lean ====
/-
  The reference's run, read as the specification: every weakly fair execution terminates with the three results
  at out1, out2 and kl of the launch arguments, and the eight arguments unchanged. The run itself (each result at the
  composed term of the operations) is the generated module's; here each composed term is identified with the
  specification's function by the two value modules.
-/
import proofs.«140457_j29703993819328_1_alg».proof.Proof.RefOut
import proofs.«140457_j29703993819328_1_alg».proof.Proof.RefKl

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx

/-- Every weakly fair execution of the reference terminates with its three results at the specification's functions
    of the launch arguments, and the arguments unchanged. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
        r.2.mem ((c.tc : Thread Cert.ReferenceIdeal.nD Cert.ReferenceIdeal.τ).loc Cert.ReferenceIdeal.main_v32) = (fun i => Cert.Spec.out1 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (i 0) (i 1))
      ∧ r.2.mem ((c.tc : Thread Cert.ReferenceIdeal.nD Cert.ReferenceIdeal.τ).loc Cert.ReferenceIdeal.main_v37) = (fun i => Cert.Spec.out2 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (i 0) (i 1))
      ∧ r.2.mem ((c.tc : Thread Cert.ReferenceIdeal.nD Cert.ReferenceIdeal.τ).loc Cert.ReferenceIdeal.main_v55) = (fun _ => Cert.Spec.kl (m' ((c.tc : Thread Cert.ReferenceIdeal.nD Cert.ReferenceIdeal.τ).loc Cert.ReferenceIdeal.main_arg4)) (Cert.Spec.ss (m' ((c.tc : Thread Cert.ReferenceIdeal.nD Cert.ReferenceIdeal.τ).loc Cert.ReferenceIdeal.main_arg2))))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) :=
  (θ_run _ _ _).mono (fun _ h c => ⟨(h c).1.trans ((Read.val_main_v32_eq (F := Ideal) _ _ _ _ _ _ _ _).trans (val_v32_eq _ _ _ _ _ _ _ _)),
      (h c).2.1.trans ((Read.val_main_v37_eq (F := Ideal) _ _ _ _ _ _ _ _).trans (val_v37_eq _ _ _ _ _ _ _ _)),
      (h c).2.2.1.trans ((Read.val_main_v55_eq (F := Ideal) _ _).trans (val_v55_eq _ _)),
      (h c).2.2.2⟩) (Cert.ReferenceIdeal.Value.run (F := Ideal) m' ρ')

end Cert.ReferenceIdeal.RefValue

end
-- ==== Proof.lean ====
/-
  The certificate's five claims.

  Both printed kernel programs (at the word level and idealized) are the same text: a first region that builds the two
  masked, dropped-out weight matrices and the rows' sums of squares of the weights, a host product, a second region that
  accumulates a channel term and four partial matrix products per output block and applies a clipped half-angle tanh, and
  a host chain for the regulariser. Neither region's frame is generated, so both are proved by hand at any float instance
  (Proof/K, Proof/KI: each region's proof data and body obligation, then @main's five items on the library's launch), and
  the two frame claims are that run read at the argument arrays.

  At the ideal instance the same run is read at the results (Proof/KI/KernelValue.lean): block by block the second region's
  output is tanh (1/2 * clip (channel term + the four partial products)), and a sum over 2048 contracted coordinates is the
  sum of its four tiles of 512 — commutativity and associativity of + on the extended reals, nothing about finiteness —,
  which is the reference's pre-activation (Proof/Spec.lean); the reference's own run is read operation by operation
  (Proof/RefValue.lean). The idealization rewrote nothing.
-/
import proofs.«140457_j29703993819328_1_alg».proof.Defs
import proofs.«140457_j29703993819328_1_alg».proof.Proof.Gen.Kernel
import proofs.«140457_j29703993819328_1_alg».proof.Proof.Gen.KernelIdeal
import proofs.«140457_j29703993819328_1_alg».proof.Proof.Gen.ReferenceIdeal
import proofs.«140457_j29703993819328_1_alg».proof.Proof.Gen.Pre_finite_inputs
import proofs.«140457_j29703993819328_1_alg».proof.Proof.K.Run
import proofs.«140457_j29703993819328_1_alg».proof.Proof.KI.Run
import proofs.«140457_j29703993819328_1_alg».proof.Proof.KI.KernelValue
import proofs.«140457_j29703993819328_1_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_k : @Cert.frame_Kernel Cert.Kernel.Gen.facts Cert.Pre_finite_inputs.Gen.facts :=
  fun m ρ _ => Cert.Kernel.Hand.frame (F := Bits) m ρ
/-- So does the idealized one. -/
theorem frame_ki : @Cert.frame_KernelIdeal Cert.KernelIdeal.Gen.facts Cert.Pre_finite_inputs.Gen.facts :=
  fun m ρ _ => Cert.KernelIdeal.Hand.frame (F := Ideal) m ρ
/-- And the reference: its run with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2.2) (Cert.ReferenceIdeal.RefValue.ref_run m ρ)

/-- The idealization is the program's own text read at the ideal instance. -/
theorem preserves : Cert.preserves_Kernel_KernelIdeal := trivial

/-- At the ideal instance both programs end with the specification's two outputs and regulariser of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => (fun i => Cert.Spec.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (i 0) (i 1)),
    fun c => (fun i => Cert.Spec.out2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (i 0) (i 1)),
    fun c => (fun _ => Cert.Spec.kl (m ((c.tc : Thread Cert.KernelIdeal.nD Cert.KernelIdeal.τ).loc Cert.KernelIdeal.main_arg4)) (Cert.Spec.ss (m ((c.tc : Thread Cert.KernelIdeal.nD Cert.KernelIdeal.τ).loc Cert.KernelIdeal.main_arg2)))),
    Cert.KernelIdeal.Hand.kernel_run m ρ, ?_⟩
  refine (θ_run Cert.ReferenceIdeal.defs _ _).mono (fun _ h c => ?_) (Cert.ReferenceIdeal.RefValue.ref_run m' ρ')
  obtain ⟨a0, a1, a2, a3, a4, a5, a6, a7⟩ := hagree c
  refine ⟨(h c).1.trans ?_, (h c).2.1.trans ?_, (h c).2.2.1.trans ?_, (h c).2.2.2⟩
  · simp only [a0, a1, a2, a3, a4, a5, a6, a7]
    try rfl
  · simp only [a0, a1, a2, a3, a4, a5, a6, a7]
    try rfl
  · simp only [a2, a4]
    try rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
